-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S3000000 : Shape := ⟨1, ![3000000]⟩
abbrev S3x64x64 : Shape := ⟨3, ![3, 64, 64]⟩
abbrev S3x64 : Shape := ⟨2, ![3, 64]⟩
abbrev S256x64 : Shape := ⟨2, ![256, 64]⟩
abbrev S64 : Shape := ⟨1, ![64]⟩
abbrev S4096 : Shape := ⟨1, ![4096]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S3000000 : S_.BroadcastsInDim S3000000 (![] : Fin 0 → Fin S3000000.rank)
  reducesTo_S3000000_S_d0 : S3000000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S3x64x64 .f32) (main_arg7 : FVec F S3x64 .f32) (main_arg8 : FVec F S256x64 .f32) (main_arg9 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S150000x64 .f32) (main_arg1 : IVec S3000000 32) (main_arg2 : IVec S3000000 32) (main_arg3 : FVec F S3000000 .f32) (main_arg4 : FVec F S3x64x64 .f32) (main_arg5 : FVec F S3x64 .f32) (main_arg6 : FVec F S3x64x64 .f32) (main_arg7 : FVec F S3x64 .f32) (main_arg8 : FVec F S256x64 .f32) (main_arg9 : FVec F S64 .f32) (main_arg10 : IVec S4096 32) (main_arg11 : IVec S4096 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S3000000 .f32 := Host.absf main_arg3
  let main_cst_0 : FVec F S_ .f32 := constant S_ .f32 0x7F800000#32
  let main_v5 : FVec F S3000000 .f32 := broadcastInDim S3000000 ![] bcast_S_S3000000 main_cst_0
  let main_v6 : IVec S3000000 1 := cmpf .olt main_v4 main_v5
  let main_c_1 : IVec S_ 1 := constantI S_ 1 1#1
  let main_v7 : IVec S_ 1 := (fun x v => Host.reduce IntOp.andi x v reducesTo_S3000000_S_d0 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_v13 main_v16
-- ==== Kernel.lean ====
abbrev S150000x64 : Shape := ⟨2, ![150000, 64]⟩
abbrev S3000000 : Shape := ⟨1, ![3000000]⟩
abbrev S3x64x64 : Shape := ⟨3, ![3, 64, 64]⟩
abbrev S3x64 : Shape := ⟨2, ![3, 64]⟩
abbrev S256x64 : Shape := ⟨2, ![256, 64]⟩
abbrev S64 : Shape := ⟨1, ![64]⟩
abbrev S4096 : Shape := ⟨1, ![4096]⟩
abbrev S3000000x1 : Shape := ⟨2, ![3000000, 1]⟩
abbrev S_ : Shape := ⟨0, ![]⟩
abbrev S3000000x64 : Shape := ⟨2, ![3000000, 64]⟩
abbrev S1x64x64 : Shape := ⟨3, ![1, 64, 64]⟩
abbrev S64x64 : Shape := ⟨2, ![64, 64]⟩
abbrev S1x64 : Shape := ⟨2, ![1, 64]⟩
abbrev S10000x64 : Shape := ⟨2, ![10000, 64]⟩
abbrev S150000x256 : Shape := ⟨2, ![150000, 256]⟩
abbrev S100000x256 : Shape := ⟨2, ![100000, 256]⟩
abbrev S4096x1 : Shape := ⟨2, ![4096, 1]⟩
abbrev S4096x256 : Shape := ⟨2, ![4096, 256]⟩
abbrev S4096x64 : Shape := ⟨2, ![4096, 64]⟩
abbrev S50000x256 : Shape := ⟨2, ![50000, 256]⟩

abbrev nBuf : Space → Nat
  | .hbm => 125
  | .vmem => 30
  | .smem => 0
  | _ => 0

abbrev bufTy : (tb : Table) → Fin (tcTables nBuf tb) → BufTy
  | .hbm, ⟨0, _⟩ => ⟨S150000x64, .f32⟩
  | .hbm, ⟨1, _⟩ => ⟨S3000000, .i32⟩
  | .hbm, ⟨2, _⟩ => ⟨S3000000, .i32⟩
  | .hbm, ⟨3, _⟩ => ⟨S3000000, .f32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S3x64, .f32⟩
  | .hbm, ⟨8, _⟩ => ⟨S256x64, .f32⟩
  | .hbm, ⟨9, _⟩ => ⟨S64, .f32⟩
  | .hbm, ⟨10, _⟩ => ⟨S4096, .i32⟩
  | .hbm, ⟨11, _⟩ => ⟨S4096, .i32⟩
  | .hbm, ⟨12, _⟩ => ⟨S3000000x1, .f32⟩
  | .hbm, ⟨13, _⟩ => ⟨S_, .i32⟩
  | .hbm, ⟨14, _⟩ => ⟨S3000000, .i32⟩
  | .hbm, ⟨15, _⟩ => ⟨S3000000, .i1⟩
  | .hbm, ⟨16, _⟩ => ⟨S_, .i32⟩
  | .hbm, ⟨17, _⟩ => ⟨S3000000, .i32⟩
  | .hbm, ⟨18, _⟩ => ⟨S3000000, .i32⟩
  | .hbm, ⟨19, _⟩ => ⟨S3000000, .i32⟩
  | .hbm, ⟨20, _⟩ => ⟨S3000000x1, .i32⟩
  | .hbm, ⟨21, _⟩ => ⟨S3000000x64, .f32⟩
  | .hbm, ⟨22, _⟩ => ⟨S3000000x64, .f32⟩
  | .hbm, ⟨23, _⟩ => ⟨S3000000x64, .f32⟩
  | .hbm, ⟨24, _⟩ => ⟨S_, .f32⟩
  | .hbm, ⟨25, _⟩ => ⟨S150000x64, .f32⟩
  | .hbm, ⟨26, _⟩ => ⟨S3000000x1, .i32⟩
  | .hbm, ⟨27, _⟩ => ⟨S150000x64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S1x64x64, .f32⟩
  | .hbm, ⟨33, _⟩ => ⟨S64x64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S1x64, .f32⟩
  | .hbm, ⟨38, _⟩ => ⟨S150000x64, .f32⟩
  | .hbm, ⟨39, _⟩ => ⟨S3000000x1, .f32⟩
  | .hbm, ⟨40, _⟩ => ⟨S_, .i32⟩
  | .hbm, ⟨41, _⟩ => ⟨S3000000, .i32⟩
  | .hbm, ⟨42, _⟩ => ⟨S3000000, .i1⟩
  | .hbm, ⟨43, _⟩ => ⟨S_, .i32⟩
  | .hbm, ⟨44, _⟩ => ⟨S3000000, .i32⟩
  | .hbm, ⟨45, _⟩ => ⟨S3000000, .i32⟩
  | .hbm, ⟨46, _⟩ => ⟨S3000000, .i32⟩
  | .hbm, ⟨47, _⟩ => ⟨S3000000x1, .i32⟩
  | .hbm, ⟨48, _⟩ => ⟨S3000000x64, .f32⟩
  | .hbm, ⟨49, _⟩ => ⟨S3000000x64, .f32⟩
  | .hbm, ⟨50, _⟩ => ⟨S3000000x64, .f32⟩
  | .hbm, ⟨51, _⟩ => ⟨S_, .f32⟩
  | .hbm, ⟨52, _⟩ => ⟨S150000x64, .f32⟩
  | .hbm, ⟨53, _⟩ => ⟨S3000000x1, .i32⟩
  | .hbm, ⟨54, _⟩ => ⟨S150000x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S1x64, .f32⟩
  | .hbm, ⟨65, _⟩ => ⟨S150000x64, .f32⟩
  | .hbm, ⟨66, _⟩ => ⟨S3000000x1, .f32⟩
  | .hbm, ⟨67, _⟩ => ⟨S_, .i32⟩
  | .hbm, ⟨68, _⟩ => ⟨S3000000, .i32⟩
  | .hbm, ⟨69, _⟩ => ⟨S3000000, .i1⟩
  | .hbm, ⟨70, _⟩ => ⟨S_, .i32⟩
  | .hbm, ⟨71, _⟩ => ⟨S3000000, .i32⟩
  | .hbm, ⟨72, _⟩ => ⟨S3000000, .i32⟩
  | .hbm, ⟨73, _⟩ => ⟨S3000000, .i32⟩
  | .hbm, ⟨74, _⟩ => ⟨S3000000x1, .i32⟩
  | .hbm, ⟨75, _⟩ => ⟨S3000000x64, .f32⟩
  | .hbm, ⟨76, _⟩ => ⟨S3000000x64, .f32⟩
  | .hbm, ⟨77, _⟩ => ⟨S3000000x64, .f32⟩
  | .hbm, ⟨78, _⟩ => ⟨S_, .f32⟩
  | .hbm, ⟨79, _⟩ => ⟨S150000x64, .f32⟩
  | .hbm, ⟨80, _⟩ => ⟨S3000000x1, .i32⟩
  | .hbm, ⟨81, _⟩ => ⟨S150000x64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S1x64x64, .f32⟩
  | .hbm, ⟨87, _⟩ => ⟨S64x64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S1x64, .f32⟩
  | .hbm, ⟨92, _⟩ => ⟨S150000x64, .f32⟩
  | .hbm, ⟨93, _⟩ => ⟨S150000x256, .f32⟩
  | .hbm, ⟨94, _⟩ => ⟨S100000x256, .f32⟩
  | .hbm, ⟨95, _⟩ => ⟨S_, .i32⟩
  | .hbm, ⟨96, _⟩ => ⟨S4096, .i32⟩
  | .hbm, ⟨97, _⟩ => ⟨S4096, .i1⟩
  | .hbm, ⟨98, _⟩ => ⟨S_, .i32⟩
  | .hbm, ⟨99, _⟩ => ⟨S4096, .i32⟩
  | .hbm, ⟨100, _⟩ => ⟨S4096, .i32⟩
  | .hbm, ⟨101, _⟩ => ⟨S4096, .i32⟩
  | .hbm, ⟨102, _⟩ => ⟨S4096x1, .i32⟩
  | .hbm, ⟨103, _⟩ => ⟨S4096x256, .f32⟩
  | .hbm, ⟨104, _⟩ => ⟨S4096x64, .f32⟩
  | .hbm, ⟨105, _⟩ => ⟨S1x64, .f32⟩
  | .hbm, ⟨106, _⟩ => ⟨S4096x64, .f32⟩
  | .hbm, ⟨107, _⟩ => ⟨S4096x64, .f32⟩
  | .hbm, ⟨108, _⟩ => ⟨S50000x256, .f32⟩
  | .hbm, ⟨109, _⟩ => ⟨S_, .i32⟩
  | .hbm, ⟨110, _⟩ => ⟨S4096, .i32⟩
  | .hbm, ⟨111, _⟩ => ⟨S4096, .i1⟩
  | .hbm, ⟨112, _⟩ => ⟨S_, .i32⟩
  | .hbm, ⟨113, _⟩ => ⟨S4096, .i32⟩
  | .hbm, ⟨114, _⟩ => ⟨S4096, .i32⟩
  | .hbm, ⟨115, _⟩ => ⟨S4096, .i32⟩
  | .hbm, ⟨116, _⟩ => ⟨S4096x1, .i32⟩
  | .hbm, ⟨117, _⟩ => ⟨S4096x256, .f32⟩
  | .hbm, ⟨118, _⟩ => ⟨S4096x64, .f32⟩
  | .hbm, ⟨119, _⟩ => ⟨S1x64, .f32⟩
  | .hbm, ⟨120, _⟩ => ⟨S4096x64, .f32⟩
  | .hbm, ⟨121, _⟩ => ⟨S4096x64, .f32⟩
  | .hbm, ⟨122, _⟩ => ⟨S4096x64, .f32⟩
  | .hbm, ⟨123, _⟩ => ⟨S_, .f32⟩
  | .hbm, ⟨124, _⟩ => ⟨S4096, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_4 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_7 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_9 : Ref sig .tc := ⟨.hbm, 109, rfl⟩
abbrev main_v86 : Ref sig .tc := ⟨.hbm, 110, rfl⟩
abbrev main_v87 : Ref sig .tc := ⟨.hbm, 111, rfl⟩
abbrev main_c_10 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_11 : Ref sig .tc := ⟨.hbm, 123, rfl⟩
abbrev main_v98 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  bcast_S_S4096 : S_.BroadcastsInDim S4096 (![] : Fin 0 → Fin S4096.rank)
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S150000x256_S50000x256_100000_0 : S150000x256.Slices ![100000, 0] S50000x256
  reducesTo_S4096x64_S4096_d1 : S4096x64.ReducesTo [1] S4096
  h_S_ : 0 < S_.numel
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  dot_S10000x64_S64x64_S10000x64_1_0_0_1_n_n_wf : DotDims.WF S10000x64 S64x64 S10000x64 [1] [0] [0] [1] [] []
  gather_S100000x256_S4096x1_S4096x256_1_0_n_n_0_1_1256_wf : GatherDims.WF S100000x256 S4096x1 S4096x256 [1] [0] [] [0] [] 1 ![1, 256]
  dot_S4096x256_S256x64_S4096x64_1_0_0_1_n_n_wf : DotDims.WF S4096x256 S256x64 S4096x64 [1] [0] [0] [1] [] []
  gather_S50000x256_S4096x1_S4096x256_1_0_n_n_0_1_1256_wf : GatherDims.WF S50000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S150000x64.size a
  hwx0_1 : ∀ i : grid0.Coords, EltTy.bits .f32 = 32 ∨ (Rect.block (s := S150000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S150000x64.size a
  hwx0_6 : ∀ i : grid0.Coords, EltTy.bits .f32 = 32 ∨ (Rect.block (s := S150000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S150000x64.size a
  hwx1_6 : ∀ i : grid1.Coords, EltTy.bits .f32 = 32 ∨ (Rect.block (s := S150000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S150000x64.size a
  hwx2_1 : ∀ i : grid2.Coords, EltTy.bits .f32 = 32 ∨ (Rect.block (s := S150000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S150000x64.size a
  hwx2_6 : ∀ i : grid2.Coords, EltTy.bits .f32 = 32 ∨ (Rect.block (s := S150000x64) S10000x64.size (cc2_transform_6 i) (hinb2_6 i)).WholeWords (EltTy.packing .f32)

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S150000x64 : Shape := ⟨2, ![150000, 64]⟩
abbrev S3000000 : Shape := ⟨1, ![3000000]⟩
abbrev S3x64x64 : Shape := ⟨3, ![3, 64, 64]⟩
abbrev S3x64 : Shape := ⟨2, ![3, 64]⟩
abbrev S256x64 : Shape := ⟨2, ![256, 64]⟩
abbrev S64 : Shape := ⟨1, ![64]⟩
abbrev S4096 : Shape := ⟨1, ![4096]⟩
abbrev S3000000x1 : Shape := ⟨2, ![3000000, 1]⟩
abbrev S_ : Shape := ⟨0, ![]⟩
abbrev S3000000x64 : Shape := ⟨2, ![3000000, 64]⟩
abbrev S1x64x64 : Shape := ⟨3, ![1, 64, 64]⟩
abbrev S64x64 : Shape := ⟨2, ![64, 64]⟩
abbrev S1x64 : Shape := ⟨2, ![1, 64]⟩
abbrev S150000x256 : Shape := ⟨2, ![150000, 256]⟩
abbrev S100000x256 : Shape := ⟨2, ![100000, 256]⟩
abbrev S4096x1 : Shape := ⟨2, ![4096, 1]⟩
abbrev S4096x256 : Shape := ⟨2, ![4096, 256]⟩
abbrev S4096x64 : Shape := ⟨2, ![4096, 64]⟩
abbrev S50000x256 : Shape := ⟨2, ![50000, 256]⟩

abbrev nBuf : Space → Nat
  | .hbm => 173
  | .vmem => 0
  | .smem => 0
  | _ => 0

abbrev hbmTy0_0 (i : Nat) : BufTy := match i % 128 with
  | 0 => ⟨S150000x64, .f32⟩
  | 1 => ⟨S3000000, .i32⟩
  | 2 => ⟨S3000000, .i32⟩
  | 3 => ⟨S3000000, .f32⟩
  | 4 => ⟨S3x64x64, .f32⟩
  | 5 => ⟨S3x64, .f32⟩
  | 6 => ⟨S3x64x64, .f32⟩
  | 7 => ⟨S3x64, .f32⟩
  | 8 => ⟨S256x64, .f32⟩
  | 9 => ⟨S64, .f32⟩
  | 10 => ⟨S4096, .i32⟩
  | 11 => ⟨S4096, .i32⟩
  | 12 => ⟨S3000000x1, .f32⟩
  | 13 => ⟨S_, .i32⟩
  | 14 => ⟨S3000000, .i32⟩
  | 15 => ⟨S3000000, .i1⟩
  | 16 => ⟨S_, .i32⟩
  | 17 => ⟨S3000000, .i32⟩
  | 18 => ⟨S3000000, .i32⟩
  | 19 => ⟨S3000000, .i32⟩
  | 20 => ⟨S3000000x1, .i32⟩
  | 21 => ⟨S3000000x64, .f32⟩
  | 22 => ⟨S3000000x64, .f32⟩
  | 23 => ⟨S3000000x64, .f32⟩
  | 24 => ⟨S_, .f32⟩
  | 25 => ⟨S150000x64, .f32⟩
  | 26 => ⟨S3000000x1, .i32⟩
  | 27 => ⟨S150000x64, .f32⟩
  | 28 => ⟨S150000x64, .f32⟩
  | 29 => ⟨S1x64x64, .f32⟩
  | 30 => ⟨S64x64, .f32⟩
  | 31 => ⟨S150000x64, .f32⟩
  | 32 => ⟨S1x64, .f32⟩
  | 33 => ⟨S64, .f32⟩
  | 34 => ⟨S1x64, .f32⟩
  | 35 => ⟨S150000x64, .f32⟩
  | 36 => ⟨S150000x64, .f32⟩
  | 37 => ⟨S150000x64, .f32⟩
  | 38 => ⟨S1x64x64, .f32⟩
  | 39 => ⟨S64x64, .f32⟩
  | 40 => ⟨S150000x64, .f32⟩
  | 41 => ⟨S1x64, .f32⟩
  | 42 => ⟨S64, .f32⟩
  | 43 => ⟨S1x64, .f32⟩
  | 44 => ⟨S150000x64, .f32⟩
  | 45 => ⟨S150000x64, .f32⟩
  | 46 => ⟨S150000x64, .f32⟩
  | 47 => ⟨S_, .f32⟩
  | 48 => ⟨S_, .f32⟩
  | 49 => ⟨S150000x64, .f32⟩
  | 50 => ⟨S150000x64, .i1⟩
  | 51 => ⟨S_, .f32⟩
  | 52 => ⟨S150000x64, .f32⟩
  | 53 => ⟨S150000x64, .f32⟩
  | 54 => ⟨S150000x64, .f32⟩
  | 55 => ⟨S3000000x1, .f32⟩
  | 56 => ⟨S_, .i32⟩
  | 57 => ⟨S3000000, .i32⟩
  | 58 => ⟨S3000000, .i1⟩
  | 59 => ⟨S_, .i32⟩
  | 60 => ⟨S3000000, .i32⟩
  | 61 => ⟨S3000000, .i32⟩
  | 62 => ⟨S3000000, .i32⟩
  | 63 => ⟨S3000000x1, .i32⟩
  | 64 => ⟨S3000000x64, .f32⟩
  | 65 => ⟨S3000000x64, .f32⟩
  | 66 => ⟨S3000000x64, .f32⟩
  | 67 => ⟨S_, .f32⟩
  | 68 => ⟨S150000x64, .f32⟩
  | 69 => ⟨S3000000x1, .i32⟩
  | 70 => ⟨S150000x64, .f32⟩
  | 71 => ⟨S150000x64, .f32⟩
  | 72 => ⟨S1x64x64, .f32⟩
  | 73 => ⟨S64x64, .f32⟩
  | 74 => ⟨S150000x64, .f32⟩
  | 75 => ⟨S1x64, .f32⟩
  | 76 => ⟨S64, .f32⟩
  | 77 => ⟨S1x64, .f32⟩
  | 78 => ⟨S150000x64, .f32⟩
  | 79 => ⟨S150000x64, .f32⟩
  | 80 => ⟨S150000x64, .f32⟩
  | 81 => ⟨S1x64x64, .f32⟩
  | 82 => ⟨S64x64, .f32⟩
  | 83 => ⟨S150000x64, .f32⟩
  | 84 => ⟨S1x64, .f32⟩
  | 85 => ⟨S64, .f32⟩
  | 86 => ⟨S1x64, .f32⟩
  | 87 => ⟨S150000x64, .f32⟩
  | 88 => ⟨S150000x64, .f32⟩
  | 89 => ⟨S150000x64, .f32⟩
  | 90 => ⟨S_, .f32⟩
  | 91 => ⟨S_, .f32⟩
  | 92 => ⟨S150000x64, .f32⟩
  | 93 => ⟨S150000x64, .i1⟩
  | 94 => ⟨S_, .f32⟩
  | 95 => ⟨S150000x64, .f32⟩
  | 96 => ⟨S150000x64, .f32⟩
  | 97 => ⟨S150000x64, .f32⟩
  | 98 => ⟨S3000000x1, .f32⟩
  | 99 => ⟨S_, .i32⟩
  | 100 => ⟨S3000000, .i32⟩
  | 101 => ⟨S3000000, .i1⟩
  | 102 => ⟨S_, .i32⟩
  | 103 => ⟨S3000000, .i32⟩
  | 104 => ⟨S3000000, .i32⟩
  | 105 => ⟨S3000000, .i32⟩
  | 106 => ⟨S3000000x1, .i32⟩
  | 107 => ⟨S3000000x64, .f32⟩
  | 108 => ⟨S3000000x64, .f32⟩
  | 109 => ⟨S3000000x64, .f32⟩
  | 110 => ⟨S_, .f32⟩
  | 111 => ⟨S150000x64, .f32⟩
  | 112 => ⟨S3000000x1, .i32⟩
  | 113 => ⟨S150000x64, .f32⟩
  | 114 => ⟨S150000x64, .f32⟩
  | 115 => ⟨S1x64x64, .f32⟩
  | 116 => ⟨S64x64, .f32⟩
  | 117 => ⟨S150000x64, .f32⟩
  | 118 => ⟨S1x64, .f32⟩
  | 119 => ⟨S64, .f32⟩
  | 120 => ⟨S1x64, .f32⟩
  | 121 => ⟨S150000x64, .f32⟩
  | 122 => ⟨S150000x64, .f32⟩
  | 123 => ⟨S150000x64, .f32⟩
  | 124 => ⟨S1x64x64, .f32⟩
  | 125 => ⟨S64x64, .f32⟩
  | 126 => ⟨S150000x64, .f32⟩
  | 127 => ⟨S1x64, .f32⟩
  | _ => ⟨S150000x64, .f32⟩

abbrev hbmTy0_1 (i : Nat) : BufTy := match i % 128 with
  | 0 => ⟨S64, .f32⟩
  | 1 => ⟨S1x64, .f32⟩
  | 2 => ⟨S150000x64, .f32⟩
  | 3 => ⟨S150000x64, .f32⟩
  | 4 => ⟨S150000x64, .f32⟩
  | 5 => ⟨S_, .f32⟩
  | 6 => ⟨S_, .f32⟩
  | 7 => ⟨S150000x64, .f32⟩
  | 8 => ⟨S150000x64, .i1⟩
  | 9 => ⟨S_, .f32⟩
  | 10 => ⟨S150000x64, .f32⟩
  | 11 => ⟨S150000x64, .f32⟩
  | 12 => ⟨S150000x64, .f32⟩
  | 13 => ⟨S150000x256, .f32⟩
  | 14 => ⟨S100000x256, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x256, .f32⟩
  | 24 => ⟨S4096x64, .f32⟩
  | 25 => ⟨S1x64, .f32⟩
  | 26 => ⟨S4096x64, .f32⟩
  | 27 => ⟨S4096x64, .f32⟩
  | 28 => ⟨S50000x256, .f32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096x256, .f32⟩
  | 38 => ⟨S4096x64, .f32⟩
  | 39 => ⟨S1x64, .f32⟩
  | 40 => ⟨S4096x64, .f32⟩
  | 41 => ⟨S4096x64, .f32⟩
  | 42 => ⟨S4096x64, .f32⟩
  | 43 => ⟨S_, .f32⟩
  | 44 => ⟨S4096, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_v33 : Ref sig .tc := ⟨.hbm, 55, rfl⟩
abbrev main_c_2 : Ref sig .tc := ⟨.hbm, 56, rfl⟩
abbrev main_v34 : Ref sig .tc := ⟨.hbm, 57, rfl⟩
abbrev main_v35 : Ref sig .tc := ⟨.hbm, 58, rfl⟩
abbrev main_c_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_5 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v65 : Ref sig .tc := ⟨.hbm, 97, rfl⟩
abbrev main_v66 : Ref sig .tc := ⟨.hbm, 98, rfl⟩
abbrev main_c_6 : Ref sig .tc := ⟨.hbm, 99, rfl⟩
abbrev main_v67 : Ref sig .tc := ⟨.hbm, 100, rfl⟩
abbrev main_v68 : Ref sig .tc := ⟨.hbm, 101, rfl⟩
abbrev main_c_7 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_8 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_9 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_10 : Ref sig .tc := ⟨.hbm, 143, rfl⟩
abbrev main_v101 : Ref sig .tc := ⟨.hbm, 144, rfl⟩
abbrev main_v102 : Ref sig .tc := ⟨.hbm, 145, rfl⟩
abbrev main_c_11 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_12 : Ref sig .tc := ⟨.hbm, 157, rfl⟩
abbrev main_v113 : Ref sig .tc := ⟨.hbm, 158, rfl⟩
abbrev main_v114 : Ref sig .tc := ⟨.hbm, 159, rfl⟩
abbrev main_c_13 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_14 : Ref sig .tc := ⟨.hbm, 171, rfl⟩
abbrev main_v125 : Ref sig .tc := ⟨.hbm, 172, rfl⟩

abbrev nD : Nat := 1
abbrev τ : Topo := Topo.v7x

variable {F : FTy → Type} [FloatOps F]

class Facts₀ : Prop where
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  bcast_S_S4096 : S_.BroadcastsInDim S4096 (![] : Fin 0 → Fin S4096.rank)
  bcast_S4096_S4096x1_0 : S4096.BroadcastsInDim S4096x1 (![0] : Fin 1 → Fin S4096x1.rank)
  bcast_S1x64_S4096x64_0_1 : S1x64.BroadcastsInDim S4096x64 (![0, 1] : Fin 2 → Fin S4096x64.rank)
  slices_S150000x256_S50000x256_100000_0 : S150000x256.Slices ![100000, 0] S50000x256
  reducesTo_S4096x64_S4096_d1 : S4096x64.ReducesTo [1] S4096
  h_S_ : 0 < S_.numel
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  dot_S150000x64_S64x64_S150000x64_1_0_0_1_n_n_wf : DotDims.WF S150000x64 S64x64 S150000x64 [1] [0] [0] [1] [] []
  gather_S100000x256_S4096x1_S4096x256_1_0_n_n_0_1_1256_wf : GatherDims.WF S100000x256 S4096x1 S4096x256 [1] [0] [] [0] [] 1 ![1, 256]
  dot_S4096x256_S256x64_S4096x64_1_0_0_1_n_n_wf : DotDims.WF S4096x256 S256x64 S4096x64 [1] [0] [0] [1] [] []
  gather_S50000x256_S4096x1_S4096x256_1_0_n_n_0_1_1256_wf : GatherDims.WF S50000x256 S4096x1 S4096x256 [1] [0] [] [0] [] 1 ![1, 256]

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

class Facts : Prop extends Facts₀ where

variable [Facts]
-- ==== Proof.KRegion0.lean ====
/-
  Region 0 of the program (the first dense-layer kernel), at the buffer contents `V` the region is entered with:
  each window's block at a grid point, what the body leaves in the output window's buffer (one whole-block store of
  the layer's payload of the six input blocks), the body's run on whole staging buffers, and the pipeline's proof
  data: after the body at point `t` every input buffer still holds its block and the output buffer the payload.
-/
import proofs.«157423_j85882166051091_1_alg».proof.Proof.Gen.Kernel.Launch
import proofs.«157423_j85882166051091_1_alg».proof.Proof.Gen.Kernel.Skeleton
import proofs.«157423_j85882166051091_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (a window whose block
    index does not move is fetched once and keeps its block). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rA0 : Rect S10000x64 := Rect.unit (s := S10000x64) ![0, 0] S10000x64.size inb_S10000x64_S10000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- The output window's buffer after the body: one store of the whole block, the layer's payload of the six loads. -/
def out0_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨rA0, k0_pay1 (View.ld x0 rA0) (View.ld x1 rA0) (View.ld x2 rW0) (View.ld x4 rW0) (View.ld x3 rB0) (View.ld x5 rB0)⟩]

theorem cover0_6 (p0 : Vec F S10000x64 .f32) (y : S10000x64.Idx) :
    ∃ pc ∈ ([⟨rA0, p0⟩] : List (View.Piece (Elt F) S10000x64 .f32)), y ∈ pc.1.set :=
  View.cover_of_tiled [⟨rA0, p0⟩] S10000x64.size (by rfl) y

set_option maxHeartbeats 4000000 in
/-- The body on whole staging buffers: the six inputs at read contents `x0 … x5`, the output at anything; it ends
    with the inputs as they were and the output at `out0_6` of them. -/
theorem sound_kernel0 (c : Dev nD) (E : Set ℕ) (i : grid0.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out0_6 x0 x1 x2 x3 x4 x5)) -∗ K ⟨⟩))
      ⊢ wp frame (wpE (defs₀ (F := F)) Variants.none c none) E (cc0__gcn_layer_kernel i a0 ha0 a1 ha1 a2 ha2 a3 ha3 a4 ha4 a5 ha5 a6 ha6) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core `c`: the arrays as the region finds them; after the body at point `t` each
    input's buffer at its block, the output's at the payload of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the input buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
/-
  Region 1 of the program (the second dense-layer kernel), at the buffer contents `V` the region is entered with:
  each window's block at a grid point, what the body leaves in the output window's buffer (one whole-block store of
  the layer's payload of the six input blocks), the body's run on whole staging buffers, and the pipeline's proof
  data: after the body at point `t` every input buffer still holds its block and the output buffer the payload.
-/
import proofs.«157423_j85882166051091_1_alg».proof.Proof.Gen.Kernel.Launch
import proofs.«157423_j85882166051091_1_alg».proof.Proof.Gen.Kernel.Skeleton
import proofs.«157423_j85882166051091_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (a window whose block
    index does not move is fetched once and keeps its block). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA1 : Rect S10000x64 := Rect.unit (s := S10000x64) ![0, 0] S10000x64.size inb_S10000x64_S10000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- The output window's buffer after the body: one store of the whole block, the layer's payload of the six loads. -/
def out1_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨rA1, k1_pay1 (View.ld x0 rA1) (View.ld x1 rA1) (View.ld x2 rW1) (View.ld x4 rW1) (View.ld x3 rB1) (View.ld x5 rB1)⟩]

theorem cover1_6 (p0 : Vec F S10000x64 .f32) (y : S10000x64.Idx) :
    ∃ pc ∈ ([⟨rA1, p0⟩] : List (View.Piece (Elt F) S10000x64 .f32)), y ∈ pc.1.set :=
  View.cover_of_tiled [⟨rA1, p0⟩] S10000x64.size (by rfl) y

set_option maxHeartbeats 4000000 in
/-- The body on whole staging buffers: the six inputs at read contents `x0 … x5`, the output at anything; it ends
    with the inputs as they were and the output at `out1_6` of them. -/
theorem sound_kernel1 (c : Dev nD) (E : Set ℕ) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__gcn_layer_kernel i a0 ha0 a1 ha1 a2 ha2 a3 ha3 a4 ha4 a5 ha5 a6 ha6) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block, the output's at the payload of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the input buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRegion2.lean ====
/-
  Region 2 of the program (the third dense-layer kernel), at the buffer contents `V` the region is entered with:
  each window's block at a grid point, what the body leaves in the output window's buffer (one whole-block store of
  the layer's payload of the six input blocks), the body's run on whole staging buffers, and the pipeline's proof
  data: after the body at point `t` every input buffer still holds its block and the output buffer the payload.
-/
import proofs.«157423_j85882166051091_1_alg».proof.Proof.Gen.Kernel.Launch
import proofs.«157423_j85882166051091_1_alg».proof.Proof.Gen.Kernel.Skeleton
import proofs.«157423_j85882166051091_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not (a window whose block
    index does not move is fetched once and keeps its block). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rA2 : Rect S10000x64 := Rect.unit (s := S10000x64) ![0, 0] S10000x64.size inb_S10000x64_S10000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- The output window's buffer after the body: one store of the whole block, the layer's payload of the six loads. -/
def out2_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨rA2, k2_pay1 (View.ld x0 rA2) (View.ld x1 rA2) (View.ld x2 rW2) (View.ld x4 rW2) (View.ld x3 rB2) (View.ld x5 rB2)⟩]

theorem cover2_6 (p0 : Vec F S10000x64 .f32) (y : S10000x64.Idx) :
    ∃ pc ∈ ([⟨rA2, p0⟩] : List (View.Piece (Elt F) S10000x64 .f32)), y ∈ pc.1.set :=
  View.cover_of_tiled [⟨rA2, p0⟩] S10000x64.size (by rfl) y

set_option maxHeartbeats 4000000 in
/-- The body on whole staging buffers: the six inputs at read contents `x0 … x5`, the output at anything; it ends
    with the inputs as they were and the output at `out2_6` of them. -/
theorem sound_kernel2 (c : Dev nD) (E : Set ℕ) (i : grid2.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__gcn_layer_kernel i a0 ha0 a1 ha1 a2 ha2 a3 ha3 a4 ha4 a5 ha5 a6 ha6) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`: the arrays as the region finds them; after the body at point `t` each
    input's buffer at its block, the output's at the payload of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 2000000 in
/-- The body at any point: the input buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRun.lean ====
/-
  The run of the whole program: the buffer contents at every boundary between a stretch of host operations and a
  kernel region, as a fold from the launch memory; each region as a segment entered at one boundary's contents and
  left at the next; and the run itself — every weakly fair execution terminates, faults nowhere, and ends with every
  unscoped buffer at the last boundary's contents. The argument arrays read back through the fold to the launch memory.
-/
import proofs.«157423_j85882166051091_1_alg».proof.Proof.KRegion0
import proofs.«157423_j85882166051091_1_alg».proof.Proof.KRegion1
import proofs.«157423_j85882166051091_1_alg».proof.Proof.KRegion2
import proofs.«157423_j85882166051091_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0 (its entry contents). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array is as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

/-- After the host stretch before region 1 (its entry contents). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input window's array is as the region found it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))

/-- After the host stretch before region 2 (its entry contents). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- An input window's array is as the region found it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))

/-- After the last host stretch: the end. -/
abbrev W7 : Dev nD → Valuation τ sig (Elt F) := fun c => StableHlo.after hostOps3 (W6 m ρ c)

/-! ## The arguments end as launched: no host operation writes one, and a region only reads the one it is handed -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in m ρ c 1 rfl
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

abbrev admF : (p : Fin 3) → (pcfgs (F := F) p).Adm := fun p => (cfgs p).toPCfg_adm
/-- Every pipeline's proof data, each at its region's entry contents. -/
def pdatsF : (p : Fin 3) → (c : Dev nD) → Dat τ (Elt F) Unit ℕ (UR sig nD τ) ℕ (Pipeline.pin (pcfgs (F := F)) admF p) c
  | ⟨0, _⟩ => fun c => dat0 (U1 m ρ) c
  | ⟨1, _⟩ => fun c => dat1 (U3 m ρ) c
  | ⟨2, _⟩ => fun c => dat2 (U5 m ρ) c
abbrev 𝒱F : Variants := Variants.none
abbrev LF : GSem nD τ sig → Finset Unit := fun _ => ∅
abbrev lvF : GSem nD τ sig → Unit → ℕ := fun _ _ => 0
/-- What rides beside the buffers through every segment: the generator register at some state, and nothing owed. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W7`, the generator register at some state. -/
abbrev TnF (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left at `W2`. Its arrays are
    split out of the unscoped buffers at entry and put back at what the pipeline leaves at exit; nothing is owed. -/
def reg0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LF lvF 0 fun _ _ => rfl
  pre c := iprop(StableHlo.held (c : Thread nD τ) (Pipeline.ucRefs τ sig) (W1 m ρ c) ∗ RF c)
  post c := iprop(StableHlo.held (c : Thread nD τ) (Pipeline.ucRefs τ sig) (W2 m ρ c) ∗ RF c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (U1 m ρ c) (U2 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are
    split out of the unscoped buffers at entry and put back at what the pipeline leaves at exit; nothing is owed. -/
def reg1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LF lvF 1 fun _ _ => rfl
  pre c := iprop(StableHlo.held (c : Thread nD τ) (Pipeline.ucRefs τ sig) (W3 m ρ c) ∗ RF c)
  post c := iprop(StableHlo.held (c : Thread nD τ) (Pipeline.ucRefs τ sig) (W4 m ρ c) ∗ RF c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (U3 m ρ c) (U4 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left at `W6`. Its arrays are
    split out of the unscoped buffers at entry and put back at what the pipeline leaves at exit; nothing is owed. -/
def reg2 : Pipeline.RegionSeg (pcfgs (F := F)) admF (pdatsF m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ LF lvF 2 fun _ _ => rfl
  pre c := iprop(StableHlo.held (c : Thread nD τ) (Pipeline.ucRefs τ sig) (W5 m ρ c) ∗ RF c)
  post c := iprop(StableHlo.held (c : Thread nD τ) (Pipeline.ucRefs τ sig) (W6 m ρ c) ∗ RF c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admF (pdatsF m ρ) launch2.win launch2.arr_whole c
      ((pdatsF m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m ρ) ((pdatsF m ρ 2 c).share_full fun _ => rfl)
      (U5 m ρ c) (U6 m ρ c) ((pdatsF m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsF : List (Pipeline.Seg (pcfgs (F := F)) admF (pdatsF m ρ) () defs₀ 𝒱F LF lvF) :=
  [ .host (hsegF hostOps0 hostOps0_sub hostOps0_fresh (W0 m ρ)),
    .region (reg0 m ρ),
    .host (hsegF hostOps1 hostOps1_sub hostOps1_fresh (W2 m ρ)),
    .region (reg1 m ρ),
    .host (hsegF hostOps2 hostOps2_sub hostOps2_fresh (W4 m ρ)),
    .region (reg2 m ρ),
    .host (hsegF hostOps3 hostOps3_sub hostOps3_fresh (W6 m ρ)) ]

theorem main_run (c : Dev nD) : main (F := F) c = Pipeline.Seg.run (segsF m ρ) := (main_chain c).trans (by chain_rfl)

set_option backward.isDefEq.respectTransparency.types false in
/-- THE RUN: from any memory with zero counters every weakly fair execution of the program terminates, nothing
    faulting, and every final state holds every unscoped buffer at the last boundary's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admF (pdatsF m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RF c)) (Tₙ := TnF m ρ)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m ρ c) ∗ RF c) : sProp 𝕄)
          ⊢ iprop(TnF m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the run, read at the twelve argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run m ρ)

end Cert.Kernel.Fr

end
-- ==== Proof.KIRegion0.lean ====
/-
  Region 0 of the program (the first dense-layer kernel), at the buffer contents `V` the region is entered with:
  each window's block at a grid point, what the body leaves in the output window's buffer (one whole-block store of
  the layer's payload of the six input blocks), the body's run on whole staging buffers, and the pipeline's proof
  data: after the body at point `t` every input buffer still holds its block and the output buffer the payload.
-/
import proofs.«157423_j85882166051091_1_alg».proof.Proof.Gen.KernelIdeal.Launch
import proofs.«157423_j85882166051091_1_alg».proof.Proof.Gen.KernelIdeal.Skeleton
import proofs.«157423_j85882166051091_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not (a window whose block
    index does not move is fetched once and keeps its block). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rA0 : Rect S10000x64 := Rect.unit (s := S10000x64) ![0, 0] S10000x64.size inb_S10000x64_S10000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- The output window's buffer after the body: one store of the whole block, the layer's payload of the six loads. -/
def out0_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨rA0, k0_pay1 (View.ld x0 rA0) (View.ld x1 rA0) (View.ld x2 rW0) (View.ld x4 rW0) (View.ld x3 rB0) (View.ld x5 rB0)⟩]

theorem cover0_6 (p0 : Vec F S10000x64 .f32) (y : S10000x64.Idx) :
    ∃ pc ∈ ([⟨rA0, p0⟩] : List (View.Piece (Elt F) S10000x64 .f32)), y ∈ pc.1.set :=
  View.cover_of_tiled [⟨rA0, p0⟩] S10000x64.size (by rfl) y

set_option maxHeartbeats 4000000 in
/-- The body on whole staging buffers: the six inputs at read contents `x0 … x5`, the output at anything; it ends
    with the inputs as they were and the output at `out0_6` of them. -/
theorem sound_kernel0 (c : Dev nD) (E : Set ℕ) (i : grid0.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out0_6 x0 x1 x2 x3 x4 x5)) -∗ K ⟨⟩))
      ⊢ wp frame (wpE (defs₀ (F := F)) Variants.none c none) E (cc0__gcn_layer_kernel i a0 ha0 a1 ha1 a2 ha2 a3 ha3 a4 ha4 a5 ha5 a6 ha6) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core `c`: the arrays as the region finds them; after the body at point `t` each
    input's buffer at its block, the output's at the payload of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the input buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRegion1.lean ====
/-
  Region 1 of the program (the second dense-layer kernel), at the buffer contents `V` the region is entered with:
  each window's block at a grid point, what the body leaves in the output window's buffer (one whole-block store of
  the layer's payload of the six input blocks), the body's run on whole staging buffers, and the pipeline's proof
  data: after the body at point `t` every input buffer still holds its block and the output buffer the payload.
-/
import proofs.«157423_j85882166051091_1_alg».proof.Proof.Gen.KernelIdeal.Launch
import proofs.«157423_j85882166051091_1_alg».proof.Proof.Gen.KernelIdeal.Skeleton
import proofs.«157423_j85882166051091_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not (a window whose block
    index does not move is fetched once and keeps its block). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA1 : Rect S10000x64 := Rect.unit (s := S10000x64) ![0, 0] S10000x64.size inb_S10000x64_S10000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- The output window's buffer after the body: one store of the whole block, the layer's payload of the six loads. -/
def out1_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨rA1, k1_pay1 (View.ld x0 rA1) (View.ld x1 rA1) (View.ld x2 rW1) (View.ld x4 rW1) (View.ld x3 rB1) (View.ld x5 rB1)⟩]

theorem cover1_6 (p0 : Vec F S10000x64 .f32) (y : S10000x64.Idx) :
    ∃ pc ∈ ([⟨rA1, p0⟩] : List (View.Piece (Elt F) S10000x64 .f32)), y ∈ pc.1.set :=
  View.cover_of_tiled [⟨rA1, p0⟩] S10000x64.size (by rfl) y

set_option maxHeartbeats 4000000 in
/-- The body on whole staging buffers: the six inputs at read contents `x0 … x5`, the output at anything; it ends
    with the inputs as they were and the output at `out1_6` of them. -/
theorem sound_kernel1 (c : Dev nD) (E : Set ℕ) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__gcn_layer_kernel i a0 ha0 a1 ha1 a2 ha2 a3 ha3 a4 ha4 a5 ha5 a6 ha6) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core `c`: the arrays as the region finds them; after the body at point `t` each
    input's buffer at its block, the output's at the payload of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the input buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRegion2.lean ====
/-
  Region 2 of the program (the third dense-layer kernel), at the buffer contents `V` the region is entered with:
  each window's block at a grid point, what the body leaves in the output window's buffer (one whole-block store of
  the layer's payload of the six input blocks), the body's run on whole staging buffers, and the pipeline's proof
  data: after the body at point `t` every input buffer still holds its block and the output buffer the payload.
-/
import proofs.«157423_j85882166051091_1_alg».proof.Proof.Gen.KernelIdeal.Launch
import proofs.«157423_j85882166051091_1_alg».proof.Proof.Gen.KernelIdeal.Skeleton
import proofs.«157423_j85882166051091_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not (a window whose block
    index does not move is fetched once and keeps its block). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rA2 : Rect S10000x64 := Rect.unit (s := S10000x64) ![0, 0] S10000x64.size inb_S10000x64_S10000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- The output window's buffer after the body: one store of the whole block, the layer's payload of the six loads. -/
def out2_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨rA2, k2_pay1 (View.ld x0 rA2) (View.ld x1 rA2) (View.ld x2 rW2) (View.ld x4 rW2) (View.ld x3 rB2) (View.ld x5 rB2)⟩]

theorem cover2_6 (p0 : Vec F S10000x64 .f32) (y : S10000x64.Idx) :
    ∃ pc ∈ ([⟨rA2, p0⟩] : List (View.Piece (Elt F) S10000x64 .f32)), y ∈ pc.1.set :=
  View.cover_of_tiled [⟨rA2, p0⟩] S10000x64.size (by rfl) y

set_option maxHeartbeats 4000000 in
/-- The body on whole staging buffers: the six inputs at read contents `x0 … x5`, the output at anything; it ends
    with the inputs as they were and the output at `out2_6` of them. -/
theorem sound_kernel2 (c : Dev nD) (E : Set ℕ) (i : grid2.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__gcn_layer_kernel i a0 ha0 a1 ha1 a2 ha2 a3 ha3 a4 ha4 a5 ha5 a6 ha6) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`: the arrays as the region finds them; after the body at point `t` each
    input's buffer at its block, the output's at the payload of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 2000000 in
/-- The body at any point: the input buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRun.lean ====
/-
  The run of the whole program: the buffer contents at every boundary between a stretch of host operations and a
  kernel region, as a fold from the launch memory; each region as a segment entered at one boundary's contents and
  left at the next; and the run itself — every weakly fair execution terminates, faults nowhere, and ends with every
  unscoped buffer at the last boundary's contents. The argument arrays read back through the fold to the launch memory.
-/
import proofs.«157423_j85882166051091_1_alg».proof.Proof.KIRegion0
import proofs.«157423_j85882166051091_1_alg».proof.Proof.KIRegion1
import proofs.«157423_j85882166051091_1_alg».proof.Proof.KIRegion2
import proofs.«157423_j85882166051091_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch before region 0 (its entry contents). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array is as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

/-- After the host stretch before region 1 (its entry contents). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input window's array is as the region found it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))

/-- After the host stretch before region 2 (its entry contents). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- An input window's array is as the region found it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))

/-- After the last host stretch: the end. -/
abbrev W7 : Dev nD → Valuation τ sig (Elt F) := fun c => StableHlo.after hostOps3 (W6 m ρ c)

/-! ## The arguments end as launched: no host operation writes one, and a region only reads the one it is handed -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in m ρ c 1 rfl
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

abbrev admF : (p : Fin 3) → (pcfgs (F := F) p).Adm := fun p => (cfgs p).toPCfg_adm
/-- Every pipeline's proof data, each at its region's entry contents. -/
def pdatsF : (p : Fin 3) → (c : Dev nD) → Dat τ (Elt F) Unit ℕ (UR sig nD τ) ℕ (Pipeline.pin (pcfgs (F := F)) admF p) c
  | ⟨0, _⟩ => fun c => dat0 (U1 m ρ) c
  | ⟨1, _⟩ => fun c => dat1 (U3 m ρ) c
  | ⟨2, _⟩ => fun c => dat2 (U5 m ρ) c
abbrev 𝒱F : Variants := Variants.none
abbrev LF : GSem nD τ sig → Finset Unit := fun _ => ∅
abbrev lvF : GSem nD τ sig → Unit → ℕ := fun _ _ => 0
/-- What rides beside the buffers through every segment: the generator register at some state, and nothing owed. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W7`, the generator register at some state. -/
abbrev TnF (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left at `W2`. Its arrays are
    split out of the unscoped buffers at entry and put back at what the pipeline leaves at exit; nothing is owed. -/
def reg0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LF lvF 0 fun _ _ => rfl
  pre c := iprop(StableHlo.held (c : Thread nD τ) (Pipeline.ucRefs τ sig) (W1 m ρ c) ∗ RF c)
  post c := iprop(StableHlo.held (c : Thread nD τ) (Pipeline.ucRefs τ sig) (W2 m ρ c) ∗ RF c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (U1 m ρ c) (U2 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are
    split out of the unscoped buffers at entry and put back at what the pipeline leaves at exit; nothing is owed. -/
def reg1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ LF lvF 1 fun _ _ => rfl
  pre c := iprop(StableHlo.held (c : Thread nD τ) (Pipeline.ucRefs τ sig) (W3 m ρ c) ∗ RF c)
  post c := iprop(StableHlo.held (c : Thread nD τ) (Pipeline.ucRefs τ sig) (W4 m ρ c) ∗ RF c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (U3 m ρ c) (U4 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left at `W6`. Its arrays are
    split out of the unscoped buffers at entry and put back at what the pipeline leaves at exit; nothing is owed. -/
def reg2 : Pipeline.RegionSeg (pcfgs (F := F)) admF (pdatsF m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ LF lvF 2 fun _ _ => rfl
  pre c := iprop(StableHlo.held (c : Thread nD τ) (Pipeline.ucRefs τ sig) (W5 m ρ c) ∗ RF c)
  post c := iprop(StableHlo.held (c : Thread nD τ) (Pipeline.ucRefs τ sig) (W6 m ρ c) ∗ RF c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admF (pdatsF m ρ) launch2.win launch2.arr_whole c
      ((pdatsF m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m ρ) ((pdatsF m ρ 2 c).share_full fun _ => rfl)
      (U5 m ρ c) (U6 m ρ c) ((pdatsF m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsF : List (Pipeline.Seg (pcfgs (F := F)) admF (pdatsF m ρ) () defs₀ 𝒱F LF lvF) :=
  [ .host (hsegF hostOps0 hostOps0_sub hostOps0_fresh (W0 m ρ)),
    .region (reg0 m ρ),
    .host (hsegF hostOps1 hostOps1_sub hostOps1_fresh (W2 m ρ)),
    .region (reg1 m ρ),
    .host (hsegF hostOps2 hostOps2_sub hostOps2_fresh (W4 m ρ)),
    .region (reg2 m ρ),
    .host (hsegF hostOps3 hostOps3_sub hostOps3_fresh (W6 m ρ)) ]

theorem main_run (c : Dev nD) : main (F := F) c = Pipeline.Seg.run (segsF m ρ) := (main_chain c).trans (by chain_rfl)

set_option backward.isDefEq.respectTransparency.types false in
/-- THE RUN: from any memory with zero counters every weakly fair execution of the program terminates, nothing
    faulting, and every final state holds every unscoped buffer at the last boundary's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admF (pdatsF m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RF c)) (Tₙ := TnF m ρ)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m ρ c) ∗ RF c) : sProp 𝕄)
          ⊢ iprop(TnF m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the run, read at the twelve argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run m ρ)

end Cert.KernelIdeal.Fr

end
-- ==== Proof.RefSpec.lean ====
/-
  The reference's result as ONE term of its twelve arguments, cut into the stages the mathematics has:
  the sparse product (gather the neighbour rows, scale by the edge values, scatter-add into the target rows),
  one dense layer (two 64-wide products with their bias rows, summed, then the leaky rectifier), and the
  closing score (concatenate the four feature arrays, pick the user and item rows, project, multiply, sum).
-/
import proofs.«157423_j85882166051091_1_alg».proof.Proof.Gen.ReferenceIdeal

noncomputable section

namespace Cert.ReferenceIdeal.RefSpec

open Cert.ReferenceIdeal Cert.ReferenceIdeal.Gen Idealize.ShloMosaic

variable {F : FTy → Type} [FloatOps F]

/-- An index array of 3,000,000 entries, a negative entry counted from the end of an axis of 150,000, as a column. -/
def wrapIdx (cols : (⟨S3000000, .i32⟩ : BufTy).Contents (Elt F)) : (⟨S3000000x1, .i32⟩ : BufTy).Contents (Elt F) :=
  broadcastInDim S3000000x1 ![0] bcast_S3000000_S3000000x1_0
    (select (cmpi .slt cols (broadcastInDim S3000000 ![] bcast_S_S3000000 (constantI S_ 32 0#32)))
      (addi cols (broadcastInDim S3000000 ![] bcast_S_S3000000 (constantI S_ 32 150000#32))) cols)

/-- The sparse product: row `rows e` of the result collects `vals e` times row `cols e` of `x`, over all edges `e`. -/
def spmm (rows cols : (⟨S3000000, .i32⟩ : BufTy).Contents (Elt F)) (vals : (⟨S3000000, .f32⟩ : BufTy).Contents (Elt F))
    (x : (⟨S150000x64, .f32⟩ : BufTy).Contents (Elt F)) : (⟨S150000x64, .f32⟩ : BufTy).Contents (Elt F) :=
  Host.scatterAdd scatter_S150000x64_S3000000x1_S3000000x64_1_0_0_1
    (broadcastInDim S150000x64 ![] bcast_S_S150000x64 (constant (F := F) S_ .f32 0x00000000#32))
    (broadcastInDim S3000000x1 ![0] bcast_S3000000_S3000000x1_0 rows)
    (mulf (broadcastInDim S3000000x64 ![0, 1] bcast_S3000000x1_S3000000x64_0_1
            (broadcastInDim S3000000x1 ![0] bcast_S3000000_S3000000x1_0 vals))
          (Host.gather gather_S150000x64_S3000000x1_S3000000x64_1_0_n_n_0_1_164 x (wrapIdx cols)))

/-- The leaky rectifier: `z` where `z ≥ 0`, `slope · z` elsewhere. -/
def leaky (z : (⟨S150000x64, .f32⟩ : BufTy).Contents (Elt F)) (slope : (⟨S_, .f32⟩ : BufTy).Contents (Elt F)) :
    (⟨S150000x64, .f32⟩ : BufTy).Contents (Elt F) :=
  select (cmpf .oge z (broadcastInDim S150000x64 ![] bcast_S_S150000x64 (constant (F := F) S_ .f32 0x00000000#32)))
    z (mulf (broadcastInDim S150000x64 ![] bcast_S_S150000x64 slope) z)

/-- A bias row of 64 entries repeated down 150,000 rows. -/
def biasRows (b : (⟨S64, .f32⟩ : BufTy).Contents (Elt F)) : (⟨S150000x64, .f32⟩ : BufTy).Contents (Elt F) :=
  broadcastInDim S150000x64 ![0, 1] bcast_S1x64_S150000x64_0_1 (broadcastInDim S1x64 ![1] bcast_S64_S1x64_1 b)

/-- One dense layer before the rectifier: `(agg + feats)·w1 + b1 + ((agg ∘ feats)·w2 + b2)`. -/
def preact (agg feats : (⟨S150000x64, .f32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S150000x64, .f32⟩ : BufTy).Contents (Elt F) :=
  addf (addf (Host.dotGeneral dot_S150000x64_S64x64_S150000x64_1_0_0_1_n_n none (addf agg feats) w1) (biasRows b1))
       (addf (Host.dotGeneral dot_S150000x64_S64x64_S150000x64_1_0_0_1_n_n none (mulf agg feats) w2) (biasRows b2))

/-- One dense layer: the rectifier, slope the single-precision 0.01, of `preact`. -/
def layer (agg feats : (⟨S150000x64, .f32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S150000x64, .f32⟩ : BufTy).Contents (Elt F) :=
  leaky (preact agg feats w1 b1 w2 b2) (constant (F := F) S_ .f32 0x3C23D70A#32)

/-- A row index array of 4096 entries, a negative entry counted from the end of an axis of `n`, as a column. -/
def wrapRow (n : BitVec 32) (ix : (⟨S4096, .i32⟩ : BufTy).Contents (Elt F)) : (⟨S4096x1, .i32⟩ : BufTy).Contents (Elt F) :=
  broadcastInDim S4096x1 ![0] bcast_S4096_S4096x1_0
    (select (cmpi .slt ix (broadcastInDim S4096 ![] bcast_S_S4096 (constantI S_ 32 0#32)))
      (addi ix (broadcastInDim S4096 ![] bcast_S_S4096 (constantI S_ 32 n))) ix)

/-- The projection of 4096 picked rows of 256 features to 64, with its bias. -/
def project (rowsPicked : (⟨S4096x256, .f32⟩ : BufTy).Contents (Elt F)) (wt : (⟨S256x64, .f32⟩ : BufTy).Contents (Elt F))
    (bt : (⟨S64, .f32⟩ : BufTy).Contents (Elt F)) : (⟨S4096x64, .f32⟩ : BufTy).Contents (Elt F) :=
  addf (Host.dotGeneral dot_S4096x256_S256x64_S4096x64_1_0_0_1_n_n none rowsPicked wt)
    (broadcastInDim S4096x64 ![0, 1] bcast_S1x64_S4096x64_0_1 (broadcastInDim S1x64 ![1] bcast_S64_S1x64_1 bt))

/-- The closing score from the four feature arrays: user rows from the first 100,000 rows, item rows from the last 50,000. -/
def score (wt : (⟨S256x64, .f32⟩ : BufTy).Contents (Elt F)) (bt : (⟨S64, .f32⟩ : BufTy).Contents (Elt F))
    (users items : (⟨S4096, .i32⟩ : BufTy).Contents (Elt F))
    (f0 f1 f2 f3 : (⟨S150000x64, .f32⟩ : BufTy).Contents (Elt F)) : (⟨S4096, .f32⟩ : BufTy).Contents (Elt F) :=
  let all : (⟨S150000x256, .f32⟩ : BufTy).Contents (Elt F) :=
    concatenate S150000x256 1 [⟨S150000x64, f0⟩, ⟨S150000x64, f1⟩, ⟨S150000x64, f2⟩, ⟨S150000x64, f3⟩]
      concatenates_S150000x64_S150000x64_S150000x64_S150000x64_S150000x256_d1
  let u := project (Host.gather gather_S100000x256_S4096x1_S4096x256_1_0_n_n_0_1_1256
      (extractStridedSlice S100000x256 ![0, 0] all slices_S150000x256_S100000x256_0_0) (wrapRow 100000#32 users)) wt bt
  let v := project (Host.gather gather_S50000x256_S4096x1_S4096x256_1_0_n_n_0_1_1256
      (extractStridedSlice S50000x256 ![100000, 0] all slices_S150000x256_S50000x256_100000_0) (wrapRow 50000#32 items)) wt bt
  Host.reduceAdd (mulf u v) (constant (F := F) S_ .f32 0x00000000#32) reducesTo_S4096x64_S4096_d1 h_S_

/-- Layer `l`'s two weight matrices and bias rows, cut out of the stacked arguments. -/
def w0 (a : (⟨S3x64x64, .f32⟩ : BufTy).Contents (Elt F)) : (⟨S64x64, .f32⟩ : BufTy).Contents (Elt F) :=
  shapeCast S64x64 (extractStridedSlice S1x64x64 ![0, 0, 0] a slices_S3x64x64_S1x64x64_0_0_0) shapeCasts_S1x64x64_S64x64
def w1 (a : (⟨S3x64x64, .f32⟩ : BufTy).Contents (Elt F)) : (⟨S64x64, .f32⟩ : BufTy).Contents (Elt F) :=
  shapeCast S64x64 (extractStridedSlice S1x64x64 ![1, 0, 0] a slices_S3x64x64_S1x64x64_1_0_0) shapeCasts_S1x64x64_S64x64
def w2 (a : (⟨S3x64x64, .f32⟩ : BufTy).Contents (Elt F)) : (⟨S64x64, .f32⟩ : BufTy).Contents (Elt F) :=
  shapeCast S64x64 (extractStridedSlice S1x64x64 ![2, 0, 0] a slices_S3x64x64_S1x64x64_2_0_0) shapeCasts_S1x64x64_S64x64
def b0 (a : (⟨S3x64, .f32⟩ : BufTy).Contents (Elt F)) : (⟨S64, .f32⟩ : BufTy).Contents (Elt F) :=
  shapeCast S64 (extractStridedSlice S1x64 ![0, 0] a slices_S3x64_S1x64_0_0) shapeCasts_S1x64_S64
def b1 (a : (⟨S3x64, .f32⟩ : BufTy).Contents (Elt F)) : (⟨S64, .f32⟩ : BufTy).Contents (Elt F) :=
  shapeCast S64 (extractStridedSlice S1x64 ![1, 0] a slices_S3x64_S1x64_1_0) shapeCasts_S1x64_S64
def b2 (a : (⟨S3x64, .f32⟩ : BufTy).Contents (Elt F)) : (⟨S64, .f32⟩ : BufTy).Contents (Elt F) :=
  shapeCast S64 (extractStridedSlice S1x64 ![2, 0] a slices_S3x64_S1x64_2_0) shapeCasts_S1x64_S64

/-- The reference's result: three layers, each fed the sparse product of the previous features, then the score. -/
def result (a0 : (⟨S150000x64, .f32⟩ : BufTy).Contents (Elt F)) (a1 a2 : (⟨S3000000, .i32⟩ : BufTy).Contents (Elt F))
    (a3 : (⟨S3000000, .f32⟩ : BufTy).Contents (Elt F)) (a4 : (⟨S3x64x64, .f32⟩ : BufTy).Contents (Elt F))
    (a5 : (⟨S3x64, .f32⟩ : BufTy).Contents (Elt F)) (a6 : (⟨S3x64x64, .f32⟩ : BufTy).Contents (Elt F))
    (a7 : (⟨S3x64, .f32⟩ : BufTy).Contents (Elt F)) (a8 : (⟨S256x64, .f32⟩ : BufTy).Contents (Elt F))
    (a9 : (⟨S64, .f32⟩ : BufTy).Contents (Elt F)) (a10 a11 : (⟨S4096, .i32⟩ : BufTy).Contents (Elt F)) :
    (⟨S4096, .f32⟩ : BufTy).Contents (Elt F) :=
  let f1 := layer (spmm a1 a2 a3 a0) a0 (w0 a4) (b0 a5) (w0 a6) (b0 a7)
  let f2 := layer (spmm a1 a2 a3 f1) f1 (w1 a4) (b1 a5) (w1 a6) (b1 a7)
  let f3 := layer (spmm a1 a2 a3 f2) f2 (w2 a4) (b2 a5) (w2 a6) (b2 a7)
  score a8 a9 a10 a11 a0 f1 f2 f3

end Cert.ReferenceIdeal.RefSpec

end
-- ==== Proof.KIStage.lean ====
/-
  The stretches of host operations between the kernel regions, each read as a function of the buffers it starts from:
  before every region the sparse product of the current features and that layer's weight matrices and bias rows cut
  out of the stacked arguments; after the last region the closing score of the four feature arrays.
-/
import proofs.«157423_j85882166051091_1_alg».proof.Proof.Gen.KernelIdeal.Regions
import proofs.«157423_j85882166051091_1_alg».proof.Proof.RefSpec
import Idealize.ShloMosaic.Lib.StableHlo.Run
import Idealize.ShloMosaic.Lib.ValueIdx
import Idealize.ShloMosaic.Lib.ValueLayout

noncomputable section

namespace Cert.KernelIdeal.Fr

open Cert.KernelIdeal Cert.KernelIdeal.Gen Cert.ReferenceIdeal.RefSpec
open Idealize.ShloMosaic Idealize.ShloMosaic.TcCoe Idealize.SL.Sem Idealize.ShloMosaic.StableHlo Idealize.ShloMosaic.ValueIdx

variable {F : FTy → Type} [FloatOps F]

/-! ## The host stretch before region 0 -/

set_option maxHeartbeats 4000000 in
/-- The aggregated features: the sparse product of the features the stretch starts from. -/
theorem stage0_agg (X : Valuation τ sig (Elt F)) :
    StableHlo.after hostOps0 X (Proc.devRef .tc main_v12)
      = spmm (F := F) (X (Proc.devRef .tc main_arg1)) (X (Proc.devRef .tc main_arg2)) (X (Proc.devRef .tc main_arg3)) (X (Proc.devRef .tc main_arg0)) := by
  after_results_simp
  rfl

set_option maxHeartbeats 4000000 in
theorem stage0_w1 (X : Valuation τ sig (Elt F)) :
    StableHlo.after hostOps0 X (Proc.devRef .tc main_v14) = w0 (F := F) (X (Proc.devRef .tc main_arg4)) := by
  after_results_simp
  rfl

set_option maxHeartbeats 4000000 in
theorem stage0_w2 (X : Valuation τ sig (Elt F)) :
    StableHlo.after hostOps0 X (Proc.devRef .tc main_v18) = w0 (F := F) (X (Proc.devRef .tc main_arg6)) := by
  after_results_simp
  rfl

set_option maxHeartbeats 4000000 in
/-- The first bias row, as a [1, 64] array. -/
theorem stage0_b1 (X : Valuation τ sig (Elt F)) :
    StableHlo.after hostOps0 X (Proc.devRef .tc main_v21) = shapeCast S1x64 (b0 (F := F) (X (Proc.devRef .tc main_arg5))) shapeCasts_S64_S1x64 := by
  after_results_simp
  rfl

set_option maxHeartbeats 4000000 in
theorem stage0_b2 (X : Valuation τ sig (Elt F)) :
    StableHlo.after hostOps0 X (Proc.devRef .tc main_v22) = shapeCast S1x64 (b0 (F := F) (X (Proc.devRef .tc main_arg7))) shapeCasts_S64_S1x64 := by
  after_results_simp
  rfl

/-- Entry `(0, q)` of a bias row kept as a [1, 64] array is entry `q` of the row. -/
theorem stage0_b1_apply (X : Valuation τ sig (Elt F)) (q : Fin 64) :
    StableHlo.after hostOps0 X (Proc.devRef .tc main_v21) (ix2 (0 : Fin 1) q) = b0 (F := F) (X (Proc.devRef .tc main_arg5)) (ix1 q) :=
  (congrFun (stage0_b1 X) _).trans (shapeCast_a_1a_apply _ _ 0 q)
theorem stage0_b2_apply (X : Valuation τ sig (Elt F)) (q : Fin 64) :
    StableHlo.after hostOps0 X (Proc.devRef .tc main_v22) (ix2 (0 : Fin 1) q) = b0 (F := F) (X (Proc.devRef .tc main_arg7)) (ix1 q) :=
  (congrFun (stage0_b2 X) _).trans (shapeCast_a_1a_apply _ _ 0 q)

/-! ## The host stretch before region 1 -/

set_option maxHeartbeats 4000000 in
/-- The aggregated features: the sparse product of the features the stretch starts from. -/
theorem stage1_agg (X : Valuation τ sig (Elt F)) :
    StableHlo.after hostOps1 X (Proc.devRef .tc main_v36)
      = spmm (F := F) (X (Proc.devRef .tc main_arg1)) (X (Proc.devRef .tc main_arg2)) (X (Proc.devRef .tc main_arg3)) (X (Proc.devRef .tc main_v23)) := by
  after_results_simp
  rfl

set_option maxHeartbeats 4000000 in
theorem stage1_w1 (X : Valuation τ sig (Elt F)) :
    StableHlo.after hostOps1 X (Proc.devRef .tc main_v38) = w1 (F := F) (X (Proc.devRef .tc main_arg4)) := by
  after_results_simp
  rfl

set_option maxHeartbeats 4000000 in
theorem stage1_w2 (X : Valuation τ sig (Elt F)) :
    StableHlo.after hostOps1 X (Proc.devRef .tc main_v42) = w1 (F := F) (X (Proc.devRef .tc main_arg6)) := by
  after_results_simp
  rfl

set_option maxHeartbeats 4000000 in
/-- The first bias row, as a [1, 64] array. -/
theorem stage1_b1 (X : Valuation τ sig (Elt F)) :
    StableHlo.after hostOps1 X (Proc.devRef .tc main_v45) = shapeCast S1x64 (b1 (F := F) (X (Proc.devRef .tc main_arg5))) shapeCasts_S64_S1x64 := by
  after_results_simp
  rfl

set_option maxHeartbeats 4000000 in
theorem stage1_b2 (X : Valuation τ sig (Elt F)) :
    StableHlo.after hostOps1 X (Proc.devRef .tc main_v46) = shapeCast S1x64 (b1 (F := F) (X (Proc.devRef .tc main_arg7))) shapeCasts_S64_S1x64 := by
  after_results_simp
  rfl

/-- Entry `(0, q)` of a bias row kept as a [1, 64] array is entry `q` of the row. -/
theorem stage1_b1_apply (X : Valuation τ sig (Elt F)) (q : Fin 64) :
    StableHlo.after hostOps1 X (Proc.devRef .tc main_v45) (ix2 (0 : Fin 1) q) = b1 (F := F) (X (Proc.devRef .tc main_arg5)) (ix1 q) :=
  (congrFun (stage1_b1 X) _).trans (shapeCast_a_1a_apply _ _ 0 q)
theorem stage1_b2_apply (X : Valuation τ sig (Elt F)) (q : Fin 64) :
    StableHlo.after hostOps1 X (Proc.devRef .tc main_v46) (ix2 (0 : Fin 1) q) = b1 (F := F) (X (Proc.devRef .tc main_arg7)) (ix1 q) :=
  (congrFun (stage1_b2 X) _).trans (shapeCast_a_1a_apply _ _ 0 q)

/-! ## The host stretch before region 2 -/

set_option maxHeartbeats 4000000 in
/-- The aggregated features: the sparse product of the features the stretch starts from. -/
theorem stage2_agg (X : Valuation τ sig (Elt F)) :
    StableHlo.after hostOps2 X (Proc.devRef .tc main_v60)
      = spmm (F := F) (X (Proc.devRef .tc main_arg1)) (X (Proc.devRef .tc main_arg2)) (X (Proc.devRef .tc main_arg3)) (X (Proc.devRef .tc main_v47)) := by
  after_results_simp
  rfl

set_option maxHeartbeats 4000000 in
theorem stage2_w1 (X : Valuation τ sig (Elt F)) :
    StableHlo.after hostOps2 X (Proc.devRef .tc main_v62) = w2 (F := F) (X (Proc.devRef .tc main_arg4)) := by
  after_results_simp
  rfl

set_option maxHeartbeats 4000000 in
theorem stage2_w2 (X : Valuation τ sig (Elt F)) :
    StableHlo.after hostOps2 X (Proc.devRef .tc main_v66) = w2 (F := F) (X (Proc.devRef .tc main_arg6)) := by
  after_results_simp
  rfl

set_option maxHeartbeats 4000000 in
/-- The first bias row, as a [1, 64] array. -/
theorem stage2_b1 (X : Valuation τ sig (Elt F)) :
    StableHlo.after hostOps2 X (Proc.devRef .tc main_v69) = shapeCast S1x64 (b2 (F := F) (X (Proc.devRef .tc main_arg5))) shapeCasts_S64_S1x64 := by
  after_results_simp
  rfl

set_option maxHeartbeats 4000000 in
theorem stage2_b2 (X : Valuation τ sig (Elt F)) :
    StableHlo.after hostOps2 X (Proc.devRef .tc main_v70) = shapeCast S1x64 (b2 (F := F) (X (Proc.devRef .tc main_arg7))) shapeCasts_S64_S1x64 := by
  after_results_simp
  rfl

/-- Entry `(0, q)` of a bias row kept as a [1, 64] array is entry `q` of the row. -/
theorem stage2_b1_apply (X : Valuation τ sig (Elt F)) (q : Fin 64) :
    StableHlo.after hostOps2 X (Proc.devRef .tc main_v69) (ix2 (0 : Fin 1) q) = b2 (F := F) (X (Proc.devRef .tc main_arg5)) (ix1 q) :=
  (congrFun (stage2_b1 X) _).trans (shapeCast_a_1a_apply _ _ 0 q)
theorem stage2_b2_apply (X : Valuation τ sig (Elt F)) (q : Fin 64) :
    StableHlo.after hostOps2 X (Proc.devRef .tc main_v70) (ix2 (0 : Fin 1) q) = b2 (F := F) (X (Proc.devRef .tc main_arg7)) (ix1 q) :=
  (congrFun (stage2_b2 X) _).trans (shapeCast_a_1a_apply _ _ 0 q)

/-! ## The host stretch after the last region -/

set_option maxHeartbeats 8000000 in
/-- The result: the closing score of the argument features and the three layers' outputs. -/
theorem stage3_score (X : Valuation τ sig (Elt F)) :
    StableHlo.after hostOps3 X (Proc.devRef .tc main_v98)
      = score (F := F) (X (Proc.devRef .tc main_arg8)) (X (Proc.devRef .tc main_arg9)) (X (Proc.devRef .tc main_arg10)) (X (Proc.devRef .tc main_arg11))
          (X (Proc.devRef .tc main_arg0)) (X (Proc.devRef .tc main_v23)) (X (Proc.devRef .tc main_v47)) (X (Proc.devRef .tc main_v71)) := by
  after_results_simp
  rfl

end Cert.KernelIdeal.Fr

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LayerEntry.lean ====
/-
  One entry of one dense layer, as a closed formula on the extended reals.

  For a row `a` of aggregated features, a row `f` of features, a column of each of the two weight matrices and
  the two bias entries, the layer's value before the rectifier is
      z = (∑ k, (a k + f k) · w1c k + b1) + (∑ k, (a k · f k) · w2c k + b2),
  and the layer's value is the leaky rectifier of `z`: `z` where `z` is positive, `slope · z` elsewhere.

  The rectifier is stated with the strict test `0 < z`. The test `0 ≤ z` gives the same function: the two differ only
  at `z = 0`, and there `slope · 0 = 0 = z` (on the extended reals `x · 0 = 0` for every `x`, so nothing is asked of
  the slope). Both tests are then read off the one-bit comparison words a program computes.
-/
import Idealize.ShloMosaic.PureOps.Ideal.Laws
import Idealize.ShloMosaic.Lib.ValueIdx

noncomputable section

open scoped BigOperators

namespace Cert.LayerMath

open Idealize.ShloMosaic Idealize.ShloMosaic.ValueIdx

/-- The rectifier's slope: the extended real the single-precision word `0x3C23D70A` (0.01 rounded) denotes. -/
def slope : EReal := Ideal.ofBits .f32 0x3C23D70A#32

/-- The leaky rectifier with the strict test. -/
def rect (z : EReal) : EReal := if 0 < z then z else slope * z

/-- One entry of one dense layer. -/
def entry (a f w1c w2c : Fin 64 → EReal) (b1 b2 : EReal) : EReal :=
  let z := ((∑ k, (a k + f k) * w1c k) + b1) + ((∑ k, (a k * f k) * w2c k) + b2)
  if 0 < z then z else slope * z

/-- The entry is the rectifier of the value before it. -/
theorem entry_eq (a f w1c w2c : Fin 64 → EReal) (b1 b2 : EReal) :
    entry a f w1c w2c b1 b2 = rect (((∑ k, (a k + f k) * w1c k) + b1) + ((∑ k, (a k * f k) * w2c k) + b2)) := rfl

/-- The rectifier with the weak test is the rectifier with the strict one: they differ only at zero, where both
    branches are zero. -/
theorem rect_of_le (z : EReal) : (if 0 ≤ z then z else slope * z) = rect z := by
  unfold rect
  by_cases h0 : z = 0
  · subst h0
    rw [if_pos le_rfl, if_neg (lt_irrefl _), mul_zero]
  · by_cases h : 0 < z
    · rw [if_pos h.le, if_pos h]
    · rw [if_neg h, if_neg fun hle => h (lt_of_le_of_ne hle (Ne.symm h0))]

/-- A select on the word of "greater than the zero word" is the rectifier. -/
theorem select_ogt (z c : EReal) :
    Scalar.select (Ideal.cmp .ogt z (Ideal.ofBits .f32 0x00000000#32)) z (c * z) = if 0 < z then z else c * z := by
  rw [Ideal.ofBits_zero_f32]
  unfold Scalar.select Ideal.cmp
  by_cases h : 0 < z
  · rw [if_pos h]; simp [h]
  · rw [if_neg h]; simp [h]

/-- A select on the word of "at least the zero word" is the weak-test rectifier. -/
theorem select_oge (z c : EReal) :
    Scalar.select (Ideal.cmp .oge z (Ideal.ofBits .f32 0x00000000#32)) z (c * z) = if 0 ≤ z then z else c * z := by
  rw [Ideal.ofBits_zero_f32]
  unfold Scalar.select Ideal.cmp
  by_cases h : 0 ≤ z
  · rw [if_pos h]; simp [h]
  · rw [if_neg h]; simp [h]

end Cert.LayerMath

end
-- ==== Proof.LayerKer.lean ====
/-
  One entry of the layer kernel's stored value, on the extended reals.

  Each of the three layer kernels stores, from an aggregated block `x0`, a feature block `x1`, two 64 × 64 weight
  matrices and two bias rows, the value
      z = ((x0 + x1) · W1 + b1) + ((x0 ∘ x1) · W2 + b2),    then    z where z > 0, slope · z elsewhere,
  the operands of the two products narrowed to a 16-bit format first. On the extended reals the narrowing is the
  identity, a product into the zero accumulator is the plain sum over the 64 contracted coordinates, and a bias row
  broadcast down the block reads its one row; so entry (p, q) of the stored value is `entry` of row `p` of the two
  blocks, column `q` of the two matrices and entry `q` of the two bias rows. The three kernels differ by one identity
  reshape of the feature block, which changes nothing.
-/
import proofs.«157423_j85882166051091_1_alg».proof.Proof.Gen.KernelIdeal.Skeleton
import proofs.«157423_j85882166051091_1_alg».proof.Proof.LibPlainDot
import proofs.«157423_j85882166051091_1_alg».proof.Proof.LayerEntry
import Idealize.ShloMosaic.Lib.ValueLayout
import Idealize.ShloMosaic.Lib.Pipeline.Value

noncomputable section

open scoped BigOperators

namespace Cert.LayerMath

open Idealize.ShloMosaic Idealize.ShloMosaic.ValueIdx

/-- The kernels' product, a 10000 × 64 block times a 64 × 64 matrix into the zero accumulator, at an entry: the sum
    over the 64 contracted coordinates. -/
theorem mm_apply (l : FVec Ideal Cert.KernelIdeal.S10000x64 .bf16) (r : FVec Ideal Cert.KernelIdeal.S64x64 .bf16)
    (p : Fin 10000) (q : Fin 64) :
    matmul Cert.KernelIdeal.dot_S10000x64_S64x64_S10000x64_1_0_0_1_n_n none l r
        (constant (F := Ideal) Cert.KernelIdeal.S10000x64 .f32 0x00000000#32) (ix2 p q)
      = ∑ k : Fin 64, l (ix2 p k) * r (ix2 k q) :=
  PlainDot.matmul_zero_apply _ rfl none l r (ix2 p q)

/-- Entry (p, q) of kernel 0's stored value. -/
theorem ker0_entry (x0 x1 : Vec Ideal Cert.KernelIdeal.S10000x64 .f32) (v7 v10 : Vec Ideal Cert.KernelIdeal.S64x64 .f32)
    (v14 v19 : Vec Ideal Cert.KernelIdeal.S1x64 .f32) (p : Fin 10000) (q : Fin 64) :
    Cert.KernelIdeal.Gen.k0_pay1 (F := Ideal) x0 x1 v7 v10 v14 v19 (ix2 p q)
      = entry (fun k => x0 (ix2 p k)) (fun k => x1 (ix2 p k)) (fun k => v7 (ix2 k q)) (fun k => v10 (ix2 k q))
          (v14 (ix2 0 q)) (v19 (ix2 0 q)) := by
  unfold Cert.KernelIdeal.Gen.k0_pay1
  simp only [Idealize.ShloMosaic.shapeCast_self]
  rw [entry_eq]
  simp only [select_apply, cmpf_apply, mulf_apply, addf_apply, broadcast_apply, mm_apply, truncf_apply,
    broadcastTo_1b_ab_apply, Ideal.cmpf_def]
  exact select_ogt _ slope

/-- Entry (p, q) of kernel 1's stored value. -/
theorem ker1_entry (x0 x1 : Vec Ideal Cert.KernelIdeal.S10000x64 .f32) (v7 v10 : Vec Ideal Cert.KernelIdeal.S64x64 .f32)
    (v14 v19 : Vec Ideal Cert.KernelIdeal.S1x64 .f32) (p : Fin 10000) (q : Fin 64) :
    Cert.KernelIdeal.Gen.k1_pay1 (F := Ideal) x0 x1 v7 v10 v14 v19 (ix2 p q)
      = entry (fun k => x0 (ix2 p k)) (fun k => x1 (ix2 p k)) (fun k => v7 (ix2 k q)) (fun k => v10 (ix2 k q))
          (v14 (ix2 0 q)) (v19 (ix2 0 q)) := by
  unfold Cert.KernelIdeal.Gen.k1_pay1
  simp only [Idealize.ShloMosaic.shapeCast_self]
  rw [entry_eq]
  simp only [select_apply, cmpf_apply, mulf_apply, addf_apply, broadcast_apply, mm_apply, truncf_apply,
    broadcastTo_1b_ab_apply, Ideal.cmpf_def]
  exact select_ogt _ slope

/-- Entry (p, q) of kernel 2's stored value. -/
theorem ker2_entry (x0 x1 : Vec Ideal Cert.KernelIdeal.S10000x64 .f32) (v7 v10 : Vec Ideal Cert.KernelIdeal.S64x64 .f32)
    (v14 v19 : Vec Ideal Cert.KernelIdeal.S1x64 .f32) (p : Fin 10000) (q : Fin 64) :
    Cert.KernelIdeal.Gen.k2_pay1 (F := Ideal) x0 x1 v7 v10 v14 v19 (ix2 p q)
      = entry (fun k => x0 (ix2 p k)) (fun k => x1 (ix2 p k)) (fun k => v7 (ix2 k q)) (fun k => v10 (ix2 k q))
          (v14 (ix2 0 q)) (v19 (ix2 0 q)) := by
  unfold Cert.KernelIdeal.Gen.k2_pay1
  simp only [Idealize.ShloMosaic.shapeCast_self]
  rw [entry_eq]
  simp only [select_apply, cmpf_apply, mulf_apply, addf_apply, broadcast_apply, mm_apply, truncf_apply,
    broadcastTo_1b_ab_apply, Ideal.cmpf_def]
  exact select_ogt _ slope

end Cert.LayerMath

end
-- ==== Proof.LayerRef.lean ====
/-
  One entry of the reference's dense layer, on the extended reals.

  The reference computes the layer on all 150000 rows at once: the value before the rectifier is
      (agg + feats) · w1 + rows(b1) + ((agg ∘ feats) · w2 + rows(b2)),
  each product a host product of a 150000 × 64 array with a 64 × 64 matrix, each bias a 64-vector laid out as one row
  and repeated down the rows; the rectifier keeps `z` where `z ≥ 0` and takes `slope · z` elsewhere, the zero and the
  slope being scalars broadcast to the whole array. Read at entry (r, c): a host product is the plain sum over the 64
  contracted coordinates, the repeated bias row reads the vector at `c`, a broadcast scalar reads the scalar, and the
  weak-test rectifier is the strict-test one. So the entry is `entry` of row `r` of the two arrays, column `c` of the
  two matrices and entry `c` of the two bias vectors.
-/
import proofs.«157423_j85882166051091_1_alg».proof.Proof.RefSpec
import proofs.«157423_j85882166051091_1_alg».proof.Proof.LibPlainDot
import proofs.«157423_j85882166051091_1_alg».proof.Proof.LayerEntry
import Idealize.ShloMosaic.Lib.ValueLayout
import Idealize.ShloMosaic.Lib.Pipeline.Value

noncomputable section

open scoped BigOperators

namespace Cert.LayerMath

open Idealize.ShloMosaic Idealize.ShloMosaic.ValueIdx
open Cert.ReferenceIdeal (S150000x64 S64x64 S1x64 S64 S_)

/-- The reference's product, a 150000 × 64 array times a 64 × 64 matrix, at an entry: the sum over the 64 contracted
    coordinates. -/
theorem hostDot_apply (l : FVec Ideal S150000x64 .f32) (w : FVec Ideal S64x64 .f32) (r : Fin 150000) (c : Fin 64) :
    Host.dotGeneral Cert.ReferenceIdeal.dot_S150000x64_S64x64_S150000x64_1_0_0_1_n_n none l w (ix2 r c)
      = ∑ k : Fin 64, l (ix2 r k) * w (ix2 k c) :=
  PlainDot.hostDot_apply _ rfl none l w (ix2 r c)

/-- A scalar broadcast to the whole array reads the scalar. -/
theorem splat_apply {α : Type} (x : S_.Idx → α) (j : S150000x64.Idx) :
    broadcastInDim S150000x64 ![] Cert.ReferenceIdeal.Gen.bcast_S_S150000x64 x j = x ix0 :=
  broadcastInDim_apply _ _ x j ix0 fun a => a.elim0

/-- A bias vector laid out as one row and repeated down the rows reads, at (r, c), the vector at c. -/
theorem biasRows_apply (b : (⟨S64, .f32⟩ : BufTy).Contents (Elt Ideal)) (r : Fin 150000) (c : Fin 64) :
    Cert.ReferenceIdeal.RefSpec.biasRows (F := Ideal) b (ix2 r c) = b (ix1 c) := by
  unfold Cert.ReferenceIdeal.RefSpec.biasRows
  refine (broadcastInDim_apply _ _ _ (ix2 r c) (ix2 (0 : Fin 1) c) fun a => ?_).trans ?_
  · match a with
    | ⟨0, _⟩ => rfl
    | ⟨1, _⟩ => rfl
  · refine broadcastInDim_apply _ _ b (ix2 (0 : Fin 1) c) (ix1 c) fun a => ?_
    match a with
    | ⟨0, _⟩ => rfl

/-- Entry (r, c) of the reference's layer. -/
theorem ref_entry (agg feats : (⟨S150000x64, .f32⟩ : BufTy).Contents (Elt Ideal))
    (w1 w2 : (⟨S64x64, .f32⟩ : BufTy).Contents (Elt Ideal)) (b1 b2 : (⟨S64, .f32⟩ : BufTy).Contents (Elt Ideal))
    (r : Fin 150000) (c : Fin 64) :
    Cert.ReferenceIdeal.RefSpec.layer (F := Ideal) agg feats w1 b1 w2 b2 (ix2 r c)
      = entry (fun k => agg (ix2 r k)) (fun k => feats (ix2 r k)) (fun k => w1 (ix2 k c)) (fun k => w2 (ix2 k c))
          (b1 (ix1 c)) (b2 (ix1 c)) := by
  unfold Cert.ReferenceIdeal.RefSpec.layer Cert.ReferenceIdeal.RefSpec.leaky Cert.ReferenceIdeal.RefSpec.preact
  rw [entry_eq, ← rect_of_le]
  simp only [select_apply, cmpf_apply, mulf_apply, addf_apply, hostDot_apply, biasRows_apply, Ideal.cmpf_def]
  rw [splat_apply, splat_apply]
  exact select_oge _ slope

end Cert.LayerMath

end
-- ==== Proof.KIValue0.lean ====
/-
  Region 0's output array as one function of the arrays the region is entered with: each of the fifteen points writes
  back the block of 10,000 rows it computed, the blocks tile the 150,000 rows, and entry `(r, q)` of what a point
  computes is the dense layer's entry — row `r` of the aggregated and the plain features against column `q` of the two
  weight matrices, the two bias entries added, then the leaky rectifier — which is the reference's layer at `(r, q)`.
-/
import proofs.«157423_j85882166051091_1_alg».proof.Proof.KIRegion0
import proofs.«157423_j85882166051091_1_alg».proof.Proof.LayerKer
import proofs.«157423_j85882166051091_1_alg».proof.Proof.LayerRef
import proofs.«157423_j85882166051091_1_alg».proof.Proof.RefSpec
import Idealize.ShloMosaic.Lib.Pipeline.Value
import Idealize.ShloMosaic.Lib.ValueIdx

set_option maxRecDepth 16384

noncomputable section

namespace Cert.KernelIdeal.Fr

open Cert.KernelIdeal Cert.KernelIdeal.Gen Cert.ReferenceIdeal.RefSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-! ## Region 0: the output array, as one function of the arrays the region is entered with -/

/-- The printed index maps of region 0, decided over its fifteen points: the three row windows move with the point,
    the weight and bias windows stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tlt0 (t : Fin cfg0.N) : t.val < 15 := Nat.lt_of_lt_of_eq t.isLt N_0

/-- Row `p` of point `t`'s block is row `10000 t + p` of the array. -/
def row0 (t : Fin cfg0.N) (p : Fin 10000) : Fin 150000 := ⟨t.val * 10000 + p.val, by have := tlt0 t; omega⟩

theorem emb0_0 (t : Fin cfg0.N) (p : Fin 10000) (k : Fin 64) :
    ((cfg0.win 0).blk t).view.emb (ix2 p k) = (ix2 (row0 t p) k : S150000x64.Idx) := by
  obtain ⟨e00, e01, e10, e11, e20, e21, e30, e31, e40, e41, e50, e51, e60, e61⟩ := idx0 t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem emb0_1 (t : Fin cfg0.N) (p : Fin 10000) (k : Fin 64) :
    ((cfg0.win 1).blk t).view.emb (ix2 p k) = (ix2 (row0 t p) k : S150000x64.Idx) := by
  obtain ⟨e00, e01, e10, e11, e20, e21, e30, e31, e40, e41, e50, e51, e60, e61⟩ := idx0 t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

theorem emb0_6 (t : Fin cfg0.N) (p : Fin 10000) (k : Fin 64) :
    ((cfg0.win 6).blk t).view.emb (ix2 p k) = (ix2 (row0 t p) k : S150000x64.Idx) := by
  obtain ⟨e00, e01, e10, e11, e20, e21, e30, e31, e40, e41, e50, e51, e60, e61⟩ := idx0 t
  funext a; apply Fin.ext
  match a with
  | ⟨0, _⟩ => show win0_6.index t (0 : Fin 2) * 10000 + 1 * p.val = t.val * 10000 + p.val; omega
  | ⟨1, _⟩ => show win0_6.index t (1 : Fin 2) * 64 + 1 * k.val = k.val; omega

theorem emb0_2 (t : Fin cfg0.N) (k q : Fin 64) :
    ((cfg0.win 2).blk t).view.emb (ix2 k q) = (ix2 k q : S64x64.Idx) := by
  obtain ⟨e00, e01, e10, e11, e20, e21, e30, e31, e40, e41, e50, e51, e60, e61⟩ := idx0 t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb0_4 (t : Fin cfg0.N) (k q : Fin 64) :
    ((cfg0.win 4).blk t).view.emb (ix2 k q) = (ix2 k q : S64x64.Idx) := by
  obtain ⟨e00, e01, e10, e11, e20, e21, e30, e31, e40, e41, e50, e51, e60, e61⟩ := idx0 t
  funext a; apply Fin.ext
  match a with
  | ⟨0, _⟩ => show win0_4.index t (0 : Fin 2) * 64 + 1 * k.val = k.val; omega
  | ⟨1, _⟩ => show win0_4.index t (1 : Fin 2) * 64 + 1 * q.val = q.val; omega

theorem emb0_3 (t : Fin cfg0.N) (q : Fin 64) :
    ((cfg0.win 3).blk t).view.emb (ix2 (0 : Fin 1) q) = (ix2 (0 : Fin 1) q : S1x64.Idx) := by
  obtain ⟨e00, e01, e10, e11, e20, e21, e30, e31, e40, e41, e50, e51, e60, e61⟩ := idx0 t
  funext a; apply Fin.ext
  match a with
  | ⟨0, _⟩ => show win0_3.index t (0 : Fin 2) * 1 + 1 * 0 = 0; omega
  | ⟨1, _⟩ => show win0_3.index t (1 : Fin 2) * 64 + 1 * q.val = q.val; omega

theorem emb0_5 (t : Fin cfg0.N) (q : Fin 64) :
    ((cfg0.win 5).blk t).view.emb (ix2 (0 : Fin 1) q) = (ix2 (0 : Fin 1) q : S1x64.Idx) := by
  obtain ⟨e00, e01, e10, e11, e20, e21, e30, e31, e40, e41, e50, e51, e60, e61⟩ := idx0 t
  funext a; apply Fin.ext
  match a with
  | ⟨0, _⟩ => show win0_5.index t (0 : Fin 2) * 1 + 1 * 0 = 0; omega
  | ⟨1, _⟩ => show win0_5.index t (1 : Fin 2) * 64 + 1 * q.val = q.val; omega

set_option maxHeartbeats 2000000 in
/-- WHAT POINT `t` WRITES BACK is block `t` of the dense layer of the arrays the region is entered with: entry
    `(p, q)` of the block is the layer's entry `(10000 t + p, q)`, a function of row `10000 t + p` of the two
    feature arrays, column `q` of the two weight matrices and entry `q` of the two bias rows. -/
theorem flushed0 (c : Dev nD) (b1 b2 : (⟨S64, .f32⟩ : BufTy).Contents (Elt Ideal))
    (hb1 : ∀ q : Fin 64, V c main_v21 (ix2 (0 : Fin 1) q) = b1 (ix1 q))
    (hb2 : ∀ q : Fin 64, V c main_v22 (ix2 (0 : Fin 1) q) = b2 (ix1 q)) (t : Fin cfg0.N) :
    (dat0 V c).flushed 6 t = ((cfg0.win 6).blk t).view.read (Elt Ideal)
      (layer (F := Ideal) (V c main_v12) (V c main_arg0) (V c main_v14) b1 (V c main_v18) b2) := by
  show (cfg0.win 6).cut (grid0.coords t) ((dat0 V c).after 6 t) = _
  rw [after0_6]
  unfold out0_6
  rw [View.canon_unit_zero hz0]
  simp only [View.ld_unit_zero (S := S10000x64) hz0, View.ld_unit_zero (S := S64x64) hz0, View.ld_unit_zero (S := S1x64) hz0]
  funext j
  obtain ⟨p, q, rfl⟩ : ∃ (p : Fin 10000) (q : Fin 64), j = ix2 p q := ⟨j 0, j 1, eq_ix2 j⟩
  refine (Cert.LayerMath.ker0_entry _ _ _ _ _ _ p q).trans ?_
  refine Eq.trans ?_ (show layer (F := Ideal) (V c main_v12) (V c main_arg0) (V c main_v14) b1 (V c main_v18) b2 (ix2 (row0 t p) q) = _ from
    congrArg _ (emb0_6 t p q).symm)
  refine Eq.trans ?_ (Cert.LayerMath.ref_entry _ _ _ _ _ _ (row0 t p) q).symm
  have h0 : ∀ k : Fin 64, iblk0 V c 0 t (ix2 p k) = V c main_v12 (ix2 (row0 t p) k) := fun k =>
    show V c main_v12 (((cfg0.win 0).blk t).view.emb (ix2 p k)) = _ from congrArg _ (emb0_0 t p k)
  have h1 : ∀ k : Fin 64, iblk0 V c 1 t (ix2 p k) = V c main_arg0 (ix2 (row0 t p) k) := fun k =>
    show V c main_arg0 (((cfg0.win 1).blk t).view.emb (ix2 p k)) = _ from congrArg _ (emb0_1 t p k)
  have h2 : ∀ k : Fin 64, iblk0 V c 2 t (ix2 k q) = V c main_v14 (ix2 k q) := fun k =>
    show V c main_v14 (((cfg0.win 2).blk t).view.emb (ix2 k q)) = _ from congrArg _ (emb0_2 t k q)
  have h4 : ∀ k : Fin 64, iblk0 V c 4 t (ix2 k q) = V c main_v18 (ix2 k q) := fun k =>
    show V c main_v18 (((cfg0.win 4).blk t).view.emb (ix2 k q)) = _ from congrArg _ (emb0_4 t k q)
  have h3 : iblk0 V c 3 t (ix2 (0 : Fin 1) q) = b1 (ix1 q) :=
    (show V c main_v21 (((cfg0.win 3).blk t).view.emb (ix2 (0 : Fin 1) q)) = _ from congrArg _ (emb0_3 t q)).trans (hb1 q)
  have h5 : iblk0 V c 5 t (ix2 (0 : Fin 1) q) = b2 (ix1 q) :=
    (show V c main_v22 (((cfg0.win 5).blk t).view.emb (ix2 (0 : Fin 1) q)) = _ from congrArg _ (emb0_5 t q)).trans (hb2 q)
  rw [funext h0, funext h1, funext h2, funext h4, h3, h5]

theorem mem_blk0 (t : Fin cfg0.N) (i : S150000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v23).slice (win0_6.rect t)).set ↔ _
  rw [View.set_slice_whole, Rect.mem_set_unit]
  exact Iff.rfl

/-- Every row of the array is in some point's block: row `r` in that of point `r / 10000`. -/
theorem cover0 (i : S150000x64.Idx) : ∃ t : Fin cfg0.N, (cfg0.win 6).flush t = true ∧ i ∈ ((cfg0.win 6).blk t).view.set := by
  have hi0 : (i 0).val < 150000 := (i 0).isLt
  have hi1 : (i 1).val < 64 := (i 1).isLt
  let t : Fin cfg0.N := ⟨(i 0).val / 10000, Nat.lt_of_lt_of_eq (show (i 0).val / 10000 < 15 by omega) N_0.symm⟩
  obtain ⟨e00, e01, e10, e11, e20, e21, e30, e31, e40, e41, e50, e51, e60, e61⟩ := idx0 t
  have ht : t.val = (i 0).val / 10000 := rfl
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- THE OUTPUT ARRAY after region 0: the dense layer of the arrays the region is entered with. -/
theorem region0_out (c : Dev nD) (b1 b2 : (⟨S64, .f32⟩ : BufTy).Contents (Elt Ideal))
    (hb1 : ∀ q : Fin 64, V c main_v21 (ix2 (0 : Fin 1) q) = b1 (ix1 q))
    (hb2 : ∀ q : Fin 64, V c main_v22 (ix2 (0 : Fin 1) q) = b2 (ix1 q)) :
    (dat0 V c).arrAt 6 cfg0.N = layer (F := Ideal) (V c main_v12) (V c main_arg0) (V c main_v14) b1 (V c main_v18) b2 :=
  (dat0 V c).arrAt_eq_of_cover 6 _ (fun t _ => flushed0 V c b1 b2 hb1 hb2 t) cover0

end Cert.KernelIdeal.Fr

end
-- ==== Proof.KIValue1.lean ====
/-
  Region 1's output array as one function of the arrays the region is entered with: each of the fifteen points writes
  back the block of 10,000 rows it computed, the blocks tile the 150,000 rows, and entry `(r, q)` of what a point
  computes is the dense layer's entry — row `r` of the aggregated and the plain features against column `q` of the two
  weight matrices, the two bias entries added, then the leaky rectifier — which is the reference's layer at `(r, q)`.
-/
import proofs.«157423_j85882166051091_1_alg».proof.Proof.KIRegion1
import proofs.«157423_j85882166051091_1_alg».proof.Proof.LayerKer
import proofs.«157423_j85882166051091_1_alg».proof.Proof.LayerRef
import proofs.«157423_j85882166051091_1_alg».proof.Proof.RefSpec
import Idealize.ShloMosaic.Lib.Pipeline.Value
import Idealize.ShloMosaic.Lib.ValueIdx

set_option maxRecDepth 16384

noncomputable section

namespace Cert.KernelIdeal.Fr

open Cert.KernelIdeal Cert.KernelIdeal.Gen Cert.ReferenceIdeal.RefSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-! ## Region 1: the output array, as one function of the arrays the region is entered with -/

/-- The printed index maps of region 1, decided over its fifteen points: the three row windows move with the point,
    the weight and bias windows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem tlt1 (t : Fin cfg1.N) : t.val < 15 := Nat.lt_of_lt_of_eq t.isLt N_1

/-- Row `p` of point `t`'s block is row `10000 t + p` of the array. -/
def row1 (t : Fin cfg1.N) (p : Fin 10000) : Fin 150000 := ⟨t.val * 10000 + p.val, by have := tlt1 t; omega⟩

theorem emb1_0 (t : Fin cfg1.N) (p : Fin 10000) (k : Fin 64) :
    ((cfg1.win 0).blk t).view.emb (ix2 p k) = (ix2 (row1 t p) k : S150000x64.Idx) := by
  obtain ⟨e00, e01, e10, e11, e20, e21, e30, e31, e40, e41, e50, e51, e60, e61⟩ := idx1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

theorem emb1_1 (t : Fin cfg1.N) (p : Fin 10000) (k : Fin 64) :
    ((cfg1.win 1).blk t).view.emb (ix2 p k) = (ix2 (row1 t p) k : S150000x64.Idx) := by
  obtain ⟨e00, e01, e10, e11, e20, e21, e30, e31, e40, e41, e50, e51, e60, e61⟩ := idx1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

theorem emb1_6 (t : Fin cfg1.N) (p : Fin 10000) (k : Fin 64) :
    ((cfg1.win 6).blk t).view.emb (ix2 p k) = (ix2 (row1 t p) k : S150000x64.Idx) := by
  obtain ⟨e00, e01, e10, e11, e20, e21, e30, e31, e40, e41, e50, e51, e60, e61⟩ := idx1 t
  funext a; apply Fin.ext
  match a with
  | ⟨0, _⟩ => show win1_6.index t (0 : Fin 2) * 10000 + 1 * p.val = t.val * 10000 + p.val; omega
  | ⟨1, _⟩ => show win1_6.index t (1 : Fin 2) * 64 + 1 * k.val = k.val; omega

theorem emb1_2 (t : Fin cfg1.N) (k q : Fin 64) :
    ((cfg1.win 2).blk t).view.emb (ix2 k q) = (ix2 k q : S64x64.Idx) := by
  obtain ⟨e00, e01, e10, e11, e20, e21, e30, e31, e40, e41, e50, e51, e60, e61⟩ := idx1 t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

theorem emb1_4 (t : Fin cfg1.N) (k q : Fin 64) :
    ((cfg1.win 4).blk t).view.emb (ix2 k q) = (ix2 k q : S64x64.Idx) := by
  obtain ⟨e00, e01, e10, e11, e20, e21, e30, e31, e40, e41, e50, e51, e60, e61⟩ := idx1 t
  funext a; apply Fin.ext
  match a with
  | ⟨0, _⟩ => show win1_4.index t (0 : Fin 2) * 64 + 1 * k.val = k.val; omega
  | ⟨1, _⟩ => show win1_4.index t (1 : Fin 2) * 64 + 1 * q.val = q.val; omega

theorem emb1_3 (t : Fin cfg1.N) (q : Fin 64) :
    ((cfg1.win 3).blk t).view.emb (ix2 (0 : Fin 1) q) = (ix2 (0 : Fin 1) q : S1x64.Idx) := by
  obtain ⟨e00, e01, e10, e11, e20, e21, e30, e31, e40, e41, e50, e51, e60, e61⟩ := idx1 t
  funext a; apply Fin.ext
  match a with
  | ⟨0, _⟩ => show win1_3.index t (0 : Fin 2) * 1 + 1 * 0 = 0; omega
  | ⟨1, _⟩ => show win1_3.index t (1 : Fin 2) * 64 + 1 * q.val = q.val; omega

theorem emb1_5 (t : Fin cfg1.N) (q : Fin 64) :
    ((cfg1.win 5).blk t).view.emb (ix2 (0 : Fin 1) q) = (ix2 (0 : Fin 1) q : S1x64.Idx) := by
  obtain ⟨e00, e01, e10, e11, e20, e21, e30, e31, e40, e41, e50, e51, e60, e61⟩ := idx1 t
  funext a; apply Fin.ext
  match a with
  | ⟨0, _⟩ => show win1_5.index t (0 : Fin 2) * 1 + 1 * 0 = 0; omega
  | ⟨1, _⟩ => show win1_5.index t (1 : Fin 2) * 64 + 1 * q.val = q.val; omega

set_option maxHeartbeats 2000000 in
/-- WHAT POINT `t` WRITES BACK is block `t` of the dense layer of the arrays the region is entered with: entry
    `(p, q)` of the block is the layer's entry `(10000 t + p, q)`, a function of row `10000 t + p` of the two
    feature arrays, column `q` of the two weight matrices and entry `q` of the two bias rows. -/
theorem flushed1 (c : Dev nD) (b1 b2 : (⟨S64, .f32⟩ : BufTy).Contents (Elt Ideal))
    (hb1 : ∀ q : Fin 64, V c main_v45 (ix2 (0 : Fin 1) q) = b1 (ix1 q))
    (hb2 : ∀ q : Fin 64, V c main_v46 (ix2 (0 : Fin 1) q) = b2 (ix1 q)) (t : Fin cfg1.N) :
    (dat1 V c).flushed 6 t = ((cfg1.win 6).blk t).view.read (Elt Ideal)
      (layer (F := Ideal) (V c main_v36) (V c main_v23) (V c main_v38) b1 (V c main_v42) b2) := by
  show (cfg1.win 6).cut (grid1.coords t) ((dat1 V c).after 6 t) = _
  rw [after1_6]
  unfold out1_6
  rw [View.canon_unit_zero hz1]
  simp only [View.ld_unit_zero (S := S10000x64) hz1, View.ld_unit_zero (S := S64x64) hz1, View.ld_unit_zero (S := S1x64) hz1]
  funext j
  obtain ⟨p, q, rfl⟩ : ∃ (p : Fin 10000) (q : Fin 64), j = ix2 p q := ⟨j 0, j 1, eq_ix2 j⟩
  refine (Cert.LayerMath.ker1_entry _ _ _ _ _ _ p q).trans ?_
  refine Eq.trans ?_ (show layer (F := Ideal) (V c main_v36) (V c main_v23) (V c main_v38) b1 (V c main_v42) b2 (ix2 (row1 t p) q) = _ from
    congrArg _ (emb1_6 t p q).symm)
  refine Eq.trans ?_ (Cert.LayerMath.ref_entry _ _ _ _ _ _ (row1 t p) q).symm
  have h0 : ∀ k : Fin 64, iblk1 V c 0 t (ix2 p k) = V c main_v36 (ix2 (row1 t p) k) := fun k =>
    show V c main_v36 (((cfg1.win 0).blk t).view.emb (ix2 p k)) = _ from congrArg _ (emb1_0 t p k)
  have h1 : ∀ k : Fin 64, iblk1 V c 1 t (ix2 p k) = V c main_v23 (ix2 (row1 t p) k) := fun k =>
    show V c main_v23 (((cfg1.win 1).blk t).view.emb (ix2 p k)) = _ from congrArg _ (emb1_1 t p k)
  have h2 : ∀ k : Fin 64, iblk1 V c 2 t (ix2 k q) = V c main_v38 (ix2 k q) := fun k =>
    show V c main_v38 (((cfg1.win 2).blk t).view.emb (ix2 k q)) = _ from congrArg _ (emb1_2 t k q)
  have h4 : ∀ k : Fin 64, iblk1 V c 4 t (ix2 k q) = V c main_v42 (ix2 k q) := fun k =>
    show V c main_v42 (((cfg1.win 4).blk t).view.emb (ix2 k q)) = _ from congrArg _ (emb1_4 t k q)
  have h3 : iblk1 V c 3 t (ix2 (0 : Fin 1) q) = b1 (ix1 q) :=
    (show V c main_v45 (((cfg1.win 3).blk t).view.emb (ix2 (0 : Fin 1) q)) = _ from congrArg _ (emb1_3 t q)).trans (hb1 q)
  have h5 : iblk1 V c 5 t (ix2 (0 : Fin 1) q) = b2 (ix1 q) :=
    (show V c main_v46 (((cfg1.win 5).blk t).view.emb (ix2 (0 : Fin 1) q)) = _ from congrArg _ (emb1_5 t q)).trans (hb2 q)
  rw [funext h0, funext h1, funext h2, funext h4, h3, h5]

theorem mem_blk1 (t : Fin cfg1.N) (i : S150000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v47).slice (win1_6.rect t)).set ↔ _
  rw [View.set_slice_whole, Rect.mem_set_unit]
  exact Iff.rfl

/-- Every row of the array is in some point's block: row `r` in that of point `r / 10000`. -/
theorem cover1 (i : S150000x64.Idx) : ∃ t : Fin cfg1.N, (cfg1.win 6).flush t = true ∧ i ∈ ((cfg1.win 6).blk t).view.set := by
  have hi0 : (i 0).val < 150000 := (i 0).isLt
  have hi1 : (i 1).val < 64 := (i 1).isLt
  let t : Fin cfg1.N := ⟨(i 0).val / 10000, Nat.lt_of_lt_of_eq (show (i 0).val / 10000 < 15 by omega) N_1.symm⟩
  obtain ⟨e00, e01, e10, e11, e20, e21, e30, e31, e40, e41, e50, e51, e60, e61⟩ := idx1 t
  have ht : t.val = (i 0).val / 10000 := rfl
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- THE OUTPUT ARRAY after region 1: the dense layer of the arrays the region is entered with. -/
theorem region1_out (c : Dev nD) (b1 b2 : (⟨S64, .f32⟩ : BufTy).Contents (Elt Ideal))
    (hb1 : ∀ q : Fin 64, V c main_v45 (ix2 (0 : Fin 1) q) = b1 (ix1 q))
    (hb2 : ∀ q : Fin 64, V c main_v46 (ix2 (0 : Fin 1) q) = b2 (ix1 q)) :
    (dat1 V c).arrAt 6 cfg1.N = layer (F := Ideal) (V c main_v36) (V c main_v23) (V c main_v38) b1 (V c main_v42) b2 :=
  (dat1 V c).arrAt_eq_of_cover 6 _ (fun t _ => flushed1 V c b1 b2 hb1 hb2 t) cover1

end Cert.KernelIdeal.Fr

end
-- ==== Proof.KIValue2.lean ====
/-
  Region 2's output array as one function of the arrays the region is entered with: each of the fifteen points writes
  back the block of 10,000 rows it computed, the blocks tile the 150,000 rows, and entry `(r, q)` of what a point
  computes is the dense layer's entry — row `r` of the aggregated and the plain features against column `q` of the two
  weight matrices, the two bias entries added, then the leaky rectifier — which is the reference's layer at `(r, q)`.
-/
import proofs.«157423_j85882166051091_1_alg».proof.Proof.KIRegion2
import proofs.«157423_j85882166051091_1_alg».proof.Proof.LayerKer
import proofs.«157423_j85882166051091_1_alg».proof.Proof.LayerRef
import proofs.«157423_j85882166051091_1_alg».proof.Proof.RefSpec
import Idealize.ShloMosaic.Lib.Pipeline.Value
import Idealize.ShloMosaic.Lib.ValueIdx

set_option maxRecDepth 16384

noncomputable section

namespace Cert.KernelIdeal.Fr

open Cert.KernelIdeal Cert.KernelIdeal.Gen Cert.ReferenceIdeal.RefSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-! ## Region 2: the output array, as one function of the arrays the region is entered with -/

/-- The printed index maps of region 2, decided over its fifteen points: the three row windows move with the point,
    the weight and bias windows stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem tlt2 (t : Fin cfg2.N) : t.val < 15 := Nat.lt_of_lt_of_eq t.isLt N_2

/-- Row `p` of point `t`'s block is row `10000 t + p` of the array. -/
def row2 (t : Fin cfg2.N) (p : Fin 10000) : Fin 150000 := ⟨t.val * 10000 + p.val, by have := tlt2 t; omega⟩

theorem emb2_0 (t : Fin cfg2.N) (p : Fin 10000) (k : Fin 64) :
    ((cfg2.win 0).blk t).view.emb (ix2 p k) = (ix2 (row2 t p) k : S150000x64.Idx) := by
  obtain ⟨e00, e01, e10, e11, e20, e21, e30, e31, e40, e41, e50, e51, e60, e61⟩ := idx2 t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

theorem emb2_1 (t : Fin cfg2.N) (p : Fin 10000) (k : Fin 64) :
    ((cfg2.win 1).blk t).view.emb (ix2 p k) = (ix2 (row2 t p) k : S150000x64.Idx) := by
  obtain ⟨e00, e01, e10, e11, e20, e21, e30, e31, e40, e41, e50, e51, e60, e61⟩ := idx2 t
  funext a; apply Fin.ext
  match a with
  | ⟨0, _⟩ => show win2_1.index t (0 : Fin 2) * 10000 + 1 * p.val = t.val * 10000 + p.val; omega
  | ⟨1, _⟩ => show win2_1.index t (1 : Fin 2) * 64 + 1 * k.val = k.val; omega

theorem emb2_6 (t : Fin cfg2.N) (p : Fin 10000) (k : Fin 64) :
    ((cfg2.win 6).blk t).view.emb (ix2 p k) = (ix2 (row2 t p) k : S150000x64.Idx) := by
  obtain ⟨e00, e01, e10, e11, e20, e21, e30, e31, e40, e41, e50, e51, e60, e61⟩ := idx2 t
  funext a; apply Fin.ext
  match a with
  | ⟨0, _⟩ => show win2_6.index t (0 : Fin 2) * 10000 + 1 * p.val = t.val * 10000 + p.val; omega
  | ⟨1, _⟩ => show win2_6.index t (1 : Fin 2) * 64 + 1 * k.val = k.val; omega

theorem emb2_2 (t : Fin cfg2.N) (k q : Fin 64) :
    ((cfg2.win 2).blk t).view.emb (ix2 k q) = (ix2 k q : S64x64.Idx) := by
  obtain ⟨e00, e01, e10, e11, e20, e21, e30, e31, e40, e41, e50, e51, e60, e61⟩ := idx2 t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

theorem emb2_4 (t : Fin cfg2.N) (k q : Fin 64) :
    ((cfg2.win 4).blk t).view.emb (ix2 k q) = (ix2 k q : S64x64.Idx) := by
  obtain ⟨e00, e01, e10, e11, e20, e21, e30, e31, e40, e41, e50, e51, e60, e61⟩ := idx2 t
  funext a; apply Fin.ext
  match a with
  | ⟨0, _⟩ => show win2_4.index t (0 : Fin 2) * 64 + 1 * k.val = k.val; omega
  | ⟨1, _⟩ => show win2_4.index t (1 : Fin 2) * 64 + 1 * q.val = q.val; omega

theorem emb2_3 (t : Fin cfg2.N) (q : Fin 64) :
    ((cfg2.win 3).blk t).view.emb (ix2 (0 : Fin 1) q) = (ix2 (0 : Fin 1) q : S1x64.Idx) := by
  obtain ⟨e00, e01, e10, e11, e20, e21, e30, e31, e40, e41, e50, e51, e60, e61⟩ := idx2 t
  funext a; apply Fin.ext
  match a with
  | ⟨0, _⟩ => show win2_3.index t (0 : Fin 2) * 1 + 1 * 0 = 0; omega
  | ⟨1, _⟩ => show win2_3.index t (1 : Fin 2) * 64 + 1 * q.val = q.val; omega

theorem emb2_5 (t : Fin cfg2.N) (q : Fin 64) :
    ((cfg2.win 5).blk t).view.emb (ix2 (0 : Fin 1) q) = (ix2 (0 : Fin 1) q : S1x64.Idx) := by
  obtain ⟨e00, e01, e10, e11, e20, e21, e30, e31, e40, e41, e50, e51, e60, e61⟩ := idx2 t
  funext a; apply Fin.ext
  match a with
  | ⟨0, _⟩ => show win2_5.index t (0 : Fin 2) * 1 + 1 * 0 = 0; omega
  | ⟨1, _⟩ => show win2_5.index t (1 : Fin 2) * 64 + 1 * q.val = q.val; omega

set_option maxHeartbeats 2000000 in
/-- WHAT POINT `t` WRITES BACK is block `t` of the dense layer of the arrays the region is entered with: entry
    `(p, q)` of the block is the layer's entry `(10000 t + p, q)`, a function of row `10000 t + p` of the two
    feature arrays, column `q` of the two weight matrices and entry `q` of the two bias rows. -/
theorem flushed2 (c : Dev nD) (b1 b2 : (⟨S64, .f32⟩ : BufTy).Contents (Elt Ideal))
    (hb1 : ∀ q : Fin 64, V c main_v69 (ix2 (0 : Fin 1) q) = b1 (ix1 q))
    (hb2 : ∀ q : Fin 64, V c main_v70 (ix2 (0 : Fin 1) q) = b2 (ix1 q)) (t : Fin cfg2.N) :
    (dat2 V c).flushed 6 t = ((cfg2.win 6).blk t).view.read (Elt Ideal)
      (layer (F := Ideal) (V c main_v60) (V c main_v47) (V c main_v62) b1 (V c main_v66) b2) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S1x64) hz2]
  funext j
  obtain ⟨p, q, rfl⟩ : ∃ (p : Fin 10000) (q : Fin 64), j = ix2 p q := ⟨j 0, j 1, eq_ix2 j⟩
  refine (Cert.LayerMath.ker2_entry _ _ _ _ _ _ p q).trans ?_
  refine Eq.trans ?_ (show layer (F := Ideal) (V c main_v60) (V c main_v47) (V c main_v62) b1 (V c main_v66) b2 (ix2 (row2 t p) q) = _ from
    congrArg _ (emb2_6 t p q).symm)
  refine Eq.trans ?_ (Cert.LayerMath.ref_entry _ _ _ _ _ _ (row2 t p) q).symm
  have h0 : ∀ k : Fin 64, iblk2 V c 0 t (ix2 p k) = V c main_v60 (ix2 (row2 t p) k) := fun k =>
    show V c main_v60 (((cfg2.win 0).blk t).view.emb (ix2 p k)) = _ from congrArg _ (emb2_0 t p k)
  have h1 : ∀ k : Fin 64, iblk2 V c 1 t (ix2 p k) = V c main_v47 (ix2 (row2 t p) k) := fun k =>
    show V c main_v47 (((cfg2.win 1).blk t).view.emb (ix2 p k)) = _ from congrArg _ (emb2_1 t p k)
  have h2 : ∀ k : Fin 64, iblk2 V c 2 t (ix2 k q) = V c main_v62 (ix2 k q) := fun k =>
    show V c main_v62 (((cfg2.win 2).blk t).view.emb (ix2 k q)) = _ from congrArg _ (emb2_2 t k q)
  have h4 : ∀ k : Fin 64, iblk2 V c 4 t (ix2 k q) = V c main_v66 (ix2 k q) := fun k =>
    show V c main_v66 (((cfg2.win 4).blk t).view.emb (ix2 k q)) = _ from congrArg _ (emb2_4 t k q)
  have h3 : iblk2 V c 3 t (ix2 (0 : Fin 1) q) = b1 (ix1 q) :=
    (show V c main_v69 (((cfg2.win 3).blk t).view.emb (ix2 (0 : Fin 1) q)) = _ from congrArg _ (emb2_3 t q)).trans (hb1 q)
  have h5 : iblk2 V c 5 t (ix2 (0 : Fin 1) q) = b2 (ix1 q) :=
    (show V c main_v70 (((cfg2.win 5).blk t).view.emb (ix2 (0 : Fin 1) q)) = _ from congrArg _ (emb2_5 t q)).trans (hb2 q)
  rw [funext h0, funext h1, funext h2, funext h4, h3, h5]

theorem mem_blk2 (t : Fin cfg2.N) (i : S150000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v71).slice (win2_6.rect t)).set ↔ _
  rw [View.set_slice_whole, Rect.mem_set_unit]
  exact Iff.rfl

/-- Every row of the array is in some point's block: row `r` in that of point `r / 10000`. -/
theorem cover2 (i : S150000x64.Idx) : ∃ t : Fin cfg2.N, (cfg2.win 6).flush t = true ∧ i ∈ ((cfg2.win 6).blk t).view.set := by
  have hi0 : (i 0).val < 150000 := (i 0).isLt
  have hi1 : (i 1).val < 64 := (i 1).isLt
  let t : Fin cfg2.N := ⟨(i 0).val / 10000, Nat.lt_of_lt_of_eq (show (i 0).val / 10000 < 15 by omega) N_2.symm⟩
  obtain ⟨e00, e01, e10, e11, e20, e21, e30, e31, e40, e41, e50, e51, e60, e61⟩ := idx2 t
  have ht : t.val = (i 0).val / 10000 := rfl
  refine ⟨t, flush2_6 t, ?_⟩
  rw [mem_blk2]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

/-- THE OUTPUT ARRAY after region 2: the dense layer of the arrays the region is entered with. -/
theorem region2_out (c : Dev nD) (b1 b2 : (⟨S64, .f32⟩ : BufTy).Contents (Elt Ideal))
    (hb1 : ∀ q : Fin 64, V c main_v69 (ix2 (0 : Fin 1) q) = b1 (ix1 q))
    (hb2 : ∀ q : Fin 64, V c main_v70 (ix2 (0 : Fin 1) q) = b2 (ix1 q)) :
    (dat2 V c).arrAt 6 cfg2.N = layer (F := Ideal) (V c main_v60) (V c main_v47) (V c main_v62) b1 (V c main_v66) b2 :=
  (dat2 V c).arrAt_eq_of_cover 6 _ (fun t _ => flushed2 V c b1 b2 hb1 hb2 t) cover2

end Cert.KernelIdeal.Fr

end
-- ==== Proof.KIFinal.lean ====
/-
  The kernel program's result, read off its run: each region's output array is the dense layer of the sparse product of
  the features before it, the weight matrices and bias rows that layer's slices of the stacked arguments; the features
  reach every later reader unchanged; and the last stretch of host operations is the closing score. So the result is the
  reference's term of the twelve arguments.
-/
import proofs.«157423_j85882166051091_1_alg».proof.Proof.KIRun
import proofs.«157423_j85882166051091_1_alg».proof.Proof.KIStage
import proofs.«157423_j85882166051091_1_alg».proof.Proof.KIValue0
import proofs.«157423_j85882166051091_1_alg».proof.Proof.KIValue1
import proofs.«157423_j85882166051091_1_alg».proof.Proof.KIValue2

set_option maxRecDepth 16384

noncomputable section

namespace Cert.KernelIdeal.Fr

open Cert.KernelIdeal Cert.KernelIdeal.Gen Cert.ReferenceIdeal.RefSpec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The arguments at every boundary: as launched -/

theorem W1_main_arg0 (c : Dev nD) : W1 m ρ c (Proc.devRef .tc main_arg0) = m ((c : Thread nD τ).loc main_arg0) :=
  (StableHlo.after_of_writes_sub hostOps0 _ hostOps0_writes (by decide)).trans rfl
theorem W2_main_arg0 (c : Dev nD) : W2 m ρ c (Proc.devRef .tc main_arg0) = m ((c : Thread nD τ).loc main_arg0) :=
  (W2_in m ρ c 1 rfl).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_writes_sub hostOps2 _ hostOps2_writes (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W1_main_arg1 (c : Dev nD) : W1 m ρ c (Proc.devRef .tc main_arg1) = m ((c : Thread nD τ).loc main_arg1) :=
  (StableHlo.after_of_writes_sub hostOps0 _ hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps2 _ hostOps2_writes (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W1_main_arg2 (c : Dev nD) : W1 m ρ c (Proc.devRef .tc main_arg2) = m ((c : Thread nD τ).loc main_arg2) :=
  (StableHlo.after_of_writes_sub hostOps0 _ hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps2 _ hostOps2_writes (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W1_main_arg3 (c : Dev nD) : W1 m ρ c (Proc.devRef .tc main_arg3) = m ((c : Thread nD τ).loc main_arg3) :=
  (StableHlo.after_of_writes_sub hostOps0 _ hostOps0_writes (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps2 _ hostOps2_writes (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W1_main_arg4 (c : Dev nD) : W1 m ρ c (Proc.devRef .tc main_arg4) = m ((c : Thread nD τ).loc main_arg4) :=
  (StableHlo.after_of_writes_sub hostOps0 _ hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps2 _ hostOps2_writes (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W1_main_arg5 (c : Dev nD) : W1 m ρ c (Proc.devRef .tc main_arg5) = m ((c : Thread nD τ).loc main_arg5) :=
  (StableHlo.after_of_writes_sub hostOps0 _ hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_writes_sub hostOps2 _ hostOps2_writes (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W1_main_arg6 (c : Dev nD) : W1 m ρ c (Proc.devRef .tc main_arg6) = m ((c : Thread nD τ).loc main_arg6) :=
  (StableHlo.after_of_writes_sub hostOps0 _ hostOps0_writes (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps2 _ hostOps2_writes (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W1_main_arg7 (c : Dev nD) : W1 m ρ c (Proc.devRef .tc main_arg7) = m ((c : Thread nD τ).loc main_arg7) :=
  (StableHlo.after_of_writes_sub hostOps0 _ hostOps0_writes (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps2 _ hostOps2_writes (by decide)).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W1_main_arg8 (c : Dev nD) : W1 m ρ c (Proc.devRef .tc main_arg8) = m ((c : Thread nD τ).loc main_arg8) :=
  (StableHlo.after_of_writes_sub hostOps0 _ hostOps0_writes (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps2 _ hostOps2_writes (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W1_main_arg9 (c : Dev nD) : W1 m ρ c (Proc.devRef .tc main_arg9) = m ((c : Thread nD τ).loc main_arg9) :=
  (StableHlo.after_of_writes_sub hostOps0 _ hostOps0_writes (by decide)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_writes_sub hostOps1 _ hostOps1_writes (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (StableHlo.after_of_writes_sub hostOps2 _ hostOps2_writes (by decide)).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W1_main_arg10 (c : Dev nD) : W1 m ρ c (Proc.devRef .tc main_arg10) = m ((c : Thread nD τ).loc main_arg10) :=
  (StableHlo.after_of_writes_sub hostOps0 _ hostOps0_writes (by decide)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_writes_sub hostOps1 _ hostOps1_writes (by decide)).trans (W2_main_arg10 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (StableHlo.after_of_writes_sub hostOps2 _ hostOps2_writes (by decide)).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W1_main_arg11 (c : Dev nD) : W1 m ρ c (Proc.devRef .tc main_arg11) = m ((c : Thread nD τ).loc main_arg11) :=
  (StableHlo.after_of_writes_sub hostOps0 _ hostOps0_writes (by decide)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_writes_sub hostOps1 _ hostOps1_writes (by decide)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W5_main_arg11 (c : Dev nD) : W5 m ρ c (Proc.devRef .tc main_arg11) = m ((c : Thread nD τ).loc main_arg11) :=
  (StableHlo.after_of_writes_sub hostOps2 _ hostOps2_writes (by decide)).trans (W4_main_arg11 m ρ c)
theorem W6_main_arg11 (c : Dev nD) : W6 m ρ c (Proc.devRef .tc main_arg11) = m ((c : Thread nD τ).loc main_arg11) :=
  (W6_of_ne m ρ c main_arg11 (by decide)).trans (W5_main_arg11 m ρ c)

/-! ## The three layers' outputs -/

/-- The first layer's output, of the arguments. -/
def feat1 (c : Dev nD) : (⟨Cert.ReferenceIdeal.S150000x64, .f32⟩ : BufTy).Contents (Elt Ideal) :=
  layer (F := Ideal) (spmm (m ((c : Thread nD τ).loc main_arg1)) (m ((c : Thread nD τ).loc main_arg2)) (m ((c : Thread nD τ).loc main_arg3)) (m ((c : Thread nD τ).loc main_arg0))) (m ((c : Thread nD τ).loc main_arg0)) (w0 (m ((c : Thread nD τ).loc main_arg4))) (b0 (m ((c : Thread nD τ).loc main_arg5))) (w0 (m ((c : Thread nD τ).loc main_arg6))) (b0 (m ((c : Thread nD τ).loc main_arg7)))
/-- The second layer's output. -/
def feat2 (c : Dev nD) : (⟨Cert.ReferenceIdeal.S150000x64, .f32⟩ : BufTy).Contents (Elt Ideal) :=
  layer (F := Ideal) (spmm (m ((c : Thread nD τ).loc main_arg1)) (m ((c : Thread nD τ).loc main_arg2)) (m ((c : Thread nD τ).loc main_arg3)) (feat1 m c)) (feat1 m c) (w1 (m ((c : Thread nD τ).loc main_arg4))) (b1 (m ((c : Thread nD τ).loc main_arg5))) (w1 (m ((c : Thread nD τ).loc main_arg6))) (b1 (m ((c : Thread nD τ).loc main_arg7)))
/-- The third layer's output. -/
def feat3 (c : Dev nD) : (⟨Cert.ReferenceIdeal.S150000x64, .f32⟩ : BufTy).Contents (Elt Ideal) :=
  layer (F := Ideal) (spmm (m ((c : Thread nD τ).loc main_arg1)) (m ((c : Thread nD τ).loc main_arg2)) (m ((c : Thread nD τ).loc main_arg3)) (feat2 m c)) (feat2 m c) (w2 (m ((c : Thread nD τ).loc main_arg4))) (b2 (m ((c : Thread nD τ).loc main_arg5))) (w2 (m ((c : Thread nD τ).loc main_arg6))) (b2 (m ((c : Thread nD τ).loc main_arg7)))

/-- Region 0 leaves the first layer's output in its result array. -/
theorem W2_main_v23 (c : Dev nD) : W2 m ρ c (Proc.devRef .tc main_v23) = feat1 m c := by
  refine (W2_arr m ρ c 6).trans ?_
  refine (region0_out (U1 m ρ) c (b0 (m ((c : Thread nD τ).loc main_arg5))) (b0 (m ((c : Thread nD τ).loc main_arg7)))
    (fun q => stage0_b1_apply (W0 m ρ c) q) (fun q => stage0_b2_apply (W0 m ρ c) q)).trans ?_
  have e1 : U1 m ρ c main_v12 = spmm (m ((c : Thread nD τ).loc main_arg1)) (m ((c : Thread nD τ).loc main_arg2)) (m ((c : Thread nD τ).loc main_arg3)) (m ((c : Thread nD τ).loc main_arg0)) := stage0_agg (W0 m ρ c)
  have e2 : U1 m ρ c main_arg0 = (m ((c : Thread nD τ).loc main_arg0)) := W1_main_arg0 m ρ c
  have e3 : U1 m ρ c main_v14 = w0 (m ((c : Thread nD τ).loc main_arg4)) := stage0_w1 (W0 m ρ c)
  have e4 : U1 m ρ c main_v18 = w0 (m ((c : Thread nD τ).loc main_arg6)) := stage0_w2 (W0 m ρ c)
  rw [e1, e2, e3, e4]; rfl

theorem W3_main_v23 (c : Dev nD) : W3 m ρ c (Proc.devRef .tc main_v23) = feat1 m c :=
  (StableHlo.after_of_writes_sub hostOps1 _ hostOps1_writes (by decide)).trans (W2_main_v23 m ρ c)

/-- Region 1 leaves the second layer's output in its result array. -/
theorem W4_main_v47 (c : Dev nD) : W4 m ρ c (Proc.devRef .tc main_v47) = feat2 m c := by
  refine (W4_arr m ρ c 6).trans ?_
  refine (region1_out (U3 m ρ) c (b1 (m ((c : Thread nD τ).loc main_arg5))) (b1 (m ((c : Thread nD τ).loc main_arg7)))
    (fun q => (stage1_b1_apply (W2 m ρ c) q).trans (by rw [W2_main_arg5]))
    (fun q => (stage1_b2_apply (W2 m ρ c) q).trans (by rw [W2_main_arg7]))).trans ?_
  have e1 : U3 m ρ c main_v36 = spmm (m ((c : Thread nD τ).loc main_arg1)) (m ((c : Thread nD τ).loc main_arg2)) (m ((c : Thread nD τ).loc main_arg3)) (feat1 m c) := by
    refine (stage1_agg (W2 m ρ c)).trans ?_
    rw [W2_main_arg1, W2_main_arg2, W2_main_arg3, W2_main_v23]
  have e2 : U3 m ρ c main_v23 = feat1 m c := W3_main_v23 m ρ c
  have e3 : U3 m ρ c main_v38 = w1 (m ((c : Thread nD τ).loc main_arg4)) := (stage1_w1 (W2 m ρ c)).trans (by rw [W2_main_arg4])
  have e4 : U3 m ρ c main_v42 = w1 (m ((c : Thread nD τ).loc main_arg6)) := (stage1_w2 (W2 m ρ c)).trans (by rw [W2_main_arg6])
  rw [e1, e2, e3, e4]; rfl

theorem W4_main_v23 (c : Dev nD) : W4 m ρ c (Proc.devRef .tc main_v23) = feat1 m c :=
  (W4_in m ρ c 1 rfl).trans (W3_main_v23 m ρ c)
theorem W5_main_v23 (c : Dev nD) : W5 m ρ c (Proc.devRef .tc main_v23) = feat1 m c :=
  (StableHlo.after_of_writes_sub hostOps2 _ hostOps2_writes (by decide)).trans (W4_main_v23 m ρ c)
theorem W6_main_v23 (c : Dev nD) : W6 m ρ c (Proc.devRef .tc main_v23) = feat1 m c :=
  (W6_of_ne m ρ c main_v23 (by decide)).trans (W5_main_v23 m ρ c)
theorem W5_main_v47 (c : Dev nD) : W5 m ρ c (Proc.devRef .tc main_v47) = feat2 m c :=
  (StableHlo.after_of_writes_sub hostOps2 _ hostOps2_writes (by decide)).trans (W4_main_v47 m ρ c)
theorem W6_main_v47 (c : Dev nD) : W6 m ρ c (Proc.devRef .tc main_v47) = feat2 m c :=
  (W6_in m ρ c 1 rfl).trans (W5_main_v47 m ρ c)

/-- Region 2 leaves the third layer's output in its result array. -/
theorem W6_main_v71 (c : Dev nD) : W6 m ρ c (Proc.devRef .tc main_v71) = feat3 m c := by
  refine (W6_arr m ρ c 6).trans ?_
  refine (region2_out (U5 m ρ) c (b2 (m ((c : Thread nD τ).loc main_arg5))) (b2 (m ((c : Thread nD τ).loc main_arg7)))
    (fun q => (stage2_b1_apply (W4 m ρ c) q).trans (by rw [W4_main_arg5]))
    (fun q => (stage2_b2_apply (W4 m ρ c) q).trans (by rw [W4_main_arg7]))).trans ?_
  have e1 : U5 m ρ c main_v60 = spmm (m ((c : Thread nD τ).loc main_arg1)) (m ((c : Thread nD τ).loc main_arg2)) (m ((c : Thread nD τ).loc main_arg3)) (feat2 m c) := by
    refine (stage2_agg (W4 m ρ c)).trans ?_
    rw [W4_main_arg1, W4_main_arg2, W4_main_arg3, W4_main_v47]
  have e2 : U5 m ρ c main_v47 = feat2 m c := W5_main_v47 m ρ c
  have e3 : U5 m ρ c main_v62 = w2 (m ((c : Thread nD τ).loc main_arg4)) := (stage2_w1 (W4 m ρ c)).trans (by rw [W4_main_arg4])
  have e4 : U5 m ρ c main_v66 = w2 (m ((c : Thread nD τ).loc main_arg6)) := (stage2_w2 (W4 m ρ c)).trans (by rw [W4_main_arg6])
  rw [e1, e2, e3, e4]; rfl

/-! ## The result -/

/-- The result buffer at the end: the reference's term of the twelve arguments. -/
theorem W7_main_v98 (c : Dev nD) : W7 m ρ c (Proc.devRef .tc main_v98)
    = result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (stage3_score (W6 m ρ c)).trans ?_
  rw [W6_main_arg8, W6_main_arg9, W6_main_arg10, W6_main_arg11, W6_main_arg0, W6_main_v23, W6_main_v47, W6_main_v71]
  rfl

/-- THE VALUE RUN: every weakly fair execution terminates with the result buffer at the reference's term of the
    arguments and the arguments unchanged. -/
theorem value_run : θ_run defs (onTc (τ := τ) (main (F := Ideal))) ⟨m, fun _ => 0, ρ⟩ (fun r => ∀ c : Dev nD,
      r.2.mem ((c.tc : Thread nD τ).loc main_v98) = result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v98 (by decide))).trans (W7_main_v98 m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run m ρ)

end Cert.KernelIdeal.Fr

end
-- ==== Proof.RefRunOps.lean ====
/-
  The reference's @main as lists of its host operations, cut where the mathematics cuts it: per layer the sparse
  product's operations and the dense part's (the rectifier's body written out at its call, over that call's
  buffers), then the score's. The three printed windows of @main are each the run of their lists in order, so
  @main is the run of all of them appended.
-/
import proofs.«157423_j85882166051091_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1's sparse product: the sixteen operations ending at `main_v12`. -/
abbrev opsA1 : List (HloOp τ sig (Elt F)) :=
  [
    StableHlo.unary main_arg3 main_v0 (broadcastInDim S3000000x1 ![0] bcast_S3000000_S3000000x1_0 : (⟨S3000000, .f32⟩ : BufTy).Contents (Elt F) → (⟨S3000000x1, .f32⟩ : BufTy).Contents (Elt F)),
    StableHlo.nullary main_c (constantI S_ 32 0#32),
    StableHlo.unary main_c main_v1 (broadcastInDim S3000000 ![] bcast_S_S3000000 : (⟨S_, .i32⟩ : BufTy).Contents (Elt F) → (⟨S3000000, .i32⟩ : BufTy).Contents (Elt F)),
    StableHlo.binary main_arg2 main_v1 main_v2 (cmpi .slt : (⟨S3000000, .i32⟩ : BufTy).Contents (Elt F) → (⟨S3000000, .i32⟩ : BufTy).Contents (Elt F) → (⟨S3000000, .i1⟩ : BufTy).Contents (Elt F)),
    StableHlo.nullary main_c_0 (constantI S_ 32 150000#32),
    StableHlo.unary main_c_0 main_v3 (broadcastInDim S3000000 ![] bcast_S_S3000000 : (⟨S_, .i32⟩ : BufTy).Contents (Elt F) → (⟨S3000000, .i32⟩ : BufTy).Contents (Elt F)),
    StableHlo.binary main_arg2 main_v3 main_v4 (addi : (⟨S3000000, .i32⟩ : BufTy).Contents (Elt F) → (⟨S3000000, .i32⟩ : BufTy).Contents (Elt F) → (⟨S3000000, .i32⟩ : BufTy).Contents (Elt F)),
    StableHlo.ternary main_v2 main_v4 main_arg2 main_v5 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    StableHlo.unary main_v5 main_v6 (broadcastInDim S3000000x1 ![0] bcast_S3000000_S3000000x1_0 : (⟨S3000000, .i32⟩ : BufTy).Contents (Elt F) → (⟨S3000000x1, .i32⟩ : BufTy).Contents (Elt F)),
    StableHlo.binary main_arg0 main_v6 main_v7 ((fun x i => Host.gather gather_S150000x64_S3000000x1_S3000000x64_1_0_n_n_0_1_164 x i) : (⟨S150000x64, .f32⟩ : BufTy).Contents (Elt F) → (⟨S3000000x1, .i32⟩ : BufTy).Contents (Elt F) → (⟨S3000000x64, .f32⟩ : BufTy).Contents (Elt F)),
    StableHlo.unary main_v0 main_v8 (broadcastInDim S3000000x64 ![0, 1] bcast_S3000000x1_S3000000x64_0_1 : (⟨S3000000x1, .f32⟩ : BufTy).Contents (Elt F) → (⟨S3000000x64, .f32⟩ : BufTy).Contents (Elt F)),
    StableHlo.binary main_v8 main_v7 main_v9 (mulf : (⟨S3000000x64, .f32⟩ : BufTy).Contents (Elt F) → (⟨S3000000x64, .f32⟩ : BufTy).Contents (Elt F) → (⟨S3000000x64, .f32⟩ : BufTy).Contents (Elt F)),
    StableHlo.nullary main_cst (constant S_ .f32 0x00000000#32),
    StableHlo.unary main_cst main_v10 (broadcastInDim S150000x64 ![] bcast_S_S150000x64 : (⟨S_, .f32⟩ : BufTy).Contents (Elt F) → (⟨S150000x64, .f32⟩ : BufTy).Contents (Elt F)),
    StableHlo.unary main_arg1 main_v11 (broadcastInDim S3000000x1 ![0] bcast_S3000000_S3000000x1_0 : (⟨S3000000, .i32⟩ : BufTy).Contents (Elt F) → (⟨S3000000x1, .i32⟩ : BufTy).Contents (Elt F)),
    StableHlo.ternary main_v10 main_v11 main_v9 main_v12 ((fun x i u => Host.scatterAdd scatter_S150000x64_S3000000x1_S3000000x64_1_0_0_1 x i u) : (⟨S150000x64, .f32⟩ : BufTy).Contents (Elt F) → (⟨S3000000x1, .i32⟩ : BufTy).Contents (Elt F) → (⟨S3000000x64, .f32⟩ : BufTy).Contents (Elt F) → (⟨S150000x64, .f32⟩ : BufTy).Contents (Elt F)) ]

/-- Layer 1's dense part: the twenty operations from `main_v13` to the slope constant, then the rectifier's seven (the callee's body over the call's buffers, the select last), ending at `main_v32`. -/
abbrev opsB1 : List (HloOp τ sig (Elt F)) :=
  [
    StableHlo.binary main_v12 main_arg0 main_v13 (addf : (⟨S150000x64, .f32⟩ : BufTy).Contents (Elt F) → (⟨S150000x64, .f32⟩ : BufTy).Contents (Elt F) → (⟨S150000x64, .f32⟩ : BufTy).Contents (Elt F)),
    StableHlo.unary main_arg4 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v17 ((extractStridedSlice S1x64 ![0, 0] · slices_S3x64_S1x64_0_0) : (⟨S3x64, .f32⟩ : BufTy).Contents (Elt F) → (⟨S1x64, .f32⟩ : BufTy).Contents (Elt F)),
    StableHlo.reshape main_v17 main_v18 rfl shapeCasts_S1x64_S64,
    StableHlo.unary main_v18 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S150000x64 ![0, 1] bcast_S1x64_S150000x64_0_1 : (⟨S1x64, .f32⟩ : BufTy).Contents (Elt F) → (⟨S150000x64, .f32⟩ : BufTy).Contents (Elt F)),
    StableHlo.binary main_v16 main_v20 main_v21 (addf : (⟨S150000x64, .f32⟩ : BufTy).Contents (Elt F) → (⟨S150000x64, .f32⟩ : BufTy).Contents (Elt F) → (⟨S150000x64, .f32⟩ : BufTy).Contents (Elt F)),
    StableHlo.binary main_v12 main_arg0 main_v22 (mulf : (⟨S150000x64, .f32⟩ : BufTy).Contents (Elt F) → (⟨S150000x64, .f32⟩ : BufTy).Contents (Elt F) → (⟨S150000x64, .f32⟩ : BufTy).Contents (Elt F)),
    StableHlo.unary main_arg6 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v26 ((extractStridedSlice S1x64 ![0, 0] · slices_S3x64_S1x64_0_0) : (⟨S3x64, .f32⟩ : BufTy).Contents (Elt F) → (⟨S1x64, .f32⟩ : BufTy).Contents (Elt F)),
    StableHlo.reshape main_v26 main_v27 rfl shapeCasts_S1x64_S64,
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S150000x64 ![0, 1] bcast_S1x64_S150000x64_0_1 : (⟨S1x64, .f32⟩ : BufTy).Contents (Elt F) → (⟨S150000x64, .f32⟩ : BufTy).Contents (Elt F)),
    StableHlo.binary main_v25 main_v29 main_v30 (addf : (⟨S150000x64, .f32⟩ : BufTy).Contents (Elt F) → (⟨S150000x64, .f32⟩ : BufTy).Contents (Elt F) → (⟨S150000x64, .f32⟩ : BufTy).Contents (Elt F)),
    StableHlo.binary main_v21 main_v30 main_v31 (addf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S150000x64 ![] bcast_S_S150000x64),
    StableHlo.TRef.binary (.of main_v31) main_call0.v0 main_call0.v1 (cmpf .oge),
    StableHlo.TRef.unary (.of main_cst_1) main_call0.v2 id,
    StableHlo.TRef.unary main_call0.v2 main_call0.v3 (broadcastInDim S150000x64 ![] bcast_S_S150000x64),
    StableHlo.TRef.binary main_call0.v3 (.of main_v31) main_call0.v4 mulf,
    StableHlo.TRef.ternary main_call0.v1 (.of main_v31) main_call0.v4 main_call0.call0.v0 select ]

/-- Layer 2's sparse product: the sixteen operations ending at `main_v45`. -/
abbrev opsA2 : List (HloOp τ sig (Elt F)) :=
  [
    StableHlo.unary main_arg3 main_v33 (broadcastInDim S3000000x1 ![0] bcast_S3000000_S3000000x1_0 : (⟨S3000000, .f32⟩ : BufTy).Contents (Elt F) → (⟨S3000000x1, .f32⟩ : BufTy).Contents (Elt F)),
    StableHlo.nullary main_c_2 (constantI S_ 32 0#32),
    StableHlo.unary main_c_2 main_v34 (broadcastInDim S3000000 ![] bcast_S_S3000000 : (⟨S_, .i32⟩ : BufTy).Contents (Elt F) → (⟨S3000000, .i32⟩ : BufTy).Contents (Elt F)),
    StableHlo.binary main_arg2 main_v34 main_v35 (cmpi .slt : (⟨S3000000, .i32⟩ : BufTy).Contents (Elt F) → (⟨S3000000, .i32⟩ : BufTy).Contents (Elt F) → (⟨S3000000, .i1⟩ : BufTy).Contents (Elt F)),
    StableHlo.nullary main_c_3 (constantI S_ 32 150000#32),
    StableHlo.unary main_c_3 main_v36 (broadcastInDim S3000000 ![] bcast_S_S3000000 : (⟨S_, .i32⟩ : BufTy).Contents (Elt F) → (⟨S3000000, .i32⟩ : BufTy).Contents (Elt F)),
    StableHlo.binary main_arg2 main_v36 main_v37 (addi : (⟨S3000000, .i32⟩ : BufTy).Contents (Elt F) → (⟨S3000000, .i32⟩ : BufTy).Contents (Elt F) → (⟨S3000000, .i32⟩ : BufTy).Contents (Elt F)),
    StableHlo.ternary main_v35 main_v37 main_arg2 main_v38 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    StableHlo.unary main_v38 main_v39 (broadcastInDim S3000000x1 ![0] bcast_S3000000_S3000000x1_0 : (⟨S3000000, .i32⟩ : BufTy).Contents (Elt F) → (⟨S3000000x1, .i32⟩ : BufTy).Contents (Elt F)),
    StableHlo.binary main_v32 main_v39 main_v40 ((fun x i => Host.gather gather_S150000x64_S3000000x1_S3000000x64_1_0_n_n_0_1_164 x i) : (⟨S150000x64, .f32⟩ : BufTy).Contents (Elt F) → (⟨S3000000x1, .i32⟩ : BufTy).Contents (Elt F) → (⟨S3000000x64, .f32⟩ : BufTy).Contents (Elt F)),
    StableHlo.unary main_v33 main_v41 (broadcastInDim S3000000x64 ![0, 1] bcast_S3000000x1_S3000000x64_0_1 : (⟨S3000000x1, .f32⟩ : BufTy).Contents (Elt F) → (⟨S3000000x64, .f32⟩ : BufTy).Contents (Elt F)),
    StableHlo.binary main_v41 main_v40 main_v42 (mulf : (⟨S3000000x64, .f32⟩ : BufTy).Contents (Elt F) → (⟨S3000000x64, .f32⟩ : BufTy).Contents (Elt F) → (⟨S3000000x64, .f32⟩ : BufTy).Contents (Elt F)),
    StableHlo.nullary main_cst_4 (constant S_ .f32 0x00000000#32),
    StableHlo.unary main_cst_4 main_v43 (broadcastInDim S150000x64 ![] bcast_S_S150000x64 : (⟨S_, .f32⟩ : BufTy).Contents (Elt F) → (⟨S150000x64, .f32⟩ : BufTy).Contents (Elt F)),
    StableHlo.unary main_arg1 main_v44 (broadcastInDim S3000000x1 ![0] bcast_S3000000_S3000000x1_0 : (⟨S3000000, .i32⟩ : BufTy).Contents (Elt F) → (⟨S3000000x1, .i32⟩ : BufTy).Contents (Elt F)),
    StableHlo.ternary main_v43 main_v44 main_v42 main_v45 ((fun x i u => Host.scatterAdd scatter_S150000x64_S3000000x1_S3000000x64_1_0_0_1 x i u) : (⟨S150000x64, .f32⟩ : BufTy).Contents (Elt F) → (⟨S3000000x1, .i32⟩ : BufTy).Contents (Elt F) → (⟨S3000000x64, .f32⟩ : BufTy).Contents (Elt F) → (⟨S150000x64, .f32⟩ : BufTy).Contents (Elt F)) ]

/-- Layer 2's dense part, its first seven operations (`main_v46` … `main_v52`). -/
abbrev opsB2a : List (HloOp τ sig (Elt F)) :=
  [
    StableHlo.binary main_v45 main_v32 main_v46 (addf : (⟨S150000x64, .f32⟩ : BufTy).Contents (Elt F) → (⟨S150000x64, .f32⟩ : BufTy).Contents (Elt F) → (⟨S150000x64, .f32⟩ : BufTy).Contents (Elt F)),
    StableHlo.unary main_arg4 main_v47 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v47 main_v48 rfl shapeCasts_S1x64x64_S64x64,
    StableHlo.binary main_v46 main_v48 main_v49 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v50 ((extractStridedSlice S1x64 ![1, 0] · slices_S3x64_S1x64_1_0) : (⟨S3x64, .f32⟩ : BufTy).Contents (Elt F) → (⟨S1x64, .f32⟩ : BufTy).Contents (Elt F)),
    StableHlo.reshape main_v50 main_v51 rfl shapeCasts_S1x64_S64,
    StableHlo.unary main_v51 main_v52 (broadcastInDim S1x64 ![1] bcast_S64_S1x64_1 : (⟨S64, .f32⟩ : BufTy).Contents (Elt F) → (⟨S1x64, .f32⟩ : BufTy).Contents (Elt F)) ]

/-- Layer 2's dense part, the rest: thirteen operations to the slope constant, then the rectifier's seven, ending at `main_v65`. -/
abbrev opsB2b : List (HloOp τ sig (Elt F)) :=
  [
    StableHlo.unary main_v52 main_v53 (broadcastInDim S150000x64 ![0, 1] bcast_S1x64_S150000x64_0_1 : (⟨S1x64, .f32⟩ : BufTy).Contents (Elt F) → (⟨S150000x64, .f32⟩ : BufTy).Contents (Elt F)),
    StableHlo.binary main_v49 main_v53 main_v54 (addf : (⟨S150000x64, .f32⟩ : BufTy).Contents (Elt F) → (⟨S150000x64, .f32⟩ : BufTy).Contents (Elt F) → (⟨S150000x64, .f32⟩ : BufTy).Contents (Elt F)),
    StableHlo.binary main_v45 main_v32 main_v55 (mulf : (⟨S150000x64, .f32⟩ : BufTy).Contents (Elt F) → (⟨S150000x64, .f32⟩ : BufTy).Contents (Elt F) → (⟨S150000x64, .f32⟩ : BufTy).Contents (Elt F)),
    StableHlo.unary main_arg6 main_v56 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v56 main_v57 rfl shapeCasts_S1x64x64_S64x64,
    StableHlo.binary main_v55 main_v57 main_v58 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v59 ((extractStridedSlice S1x64 ![1, 0] · slices_S3x64_S1x64_1_0) : (⟨S3x64, .f32⟩ : BufTy).Contents (Elt F) → (⟨S1x64, .f32⟩ : BufTy).Contents (Elt F)),
    StableHlo.reshape main_v59 main_v60 rfl shapeCasts_S1x64_S64,
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S150000x64 ![0, 1] bcast_S1x64_S150000x64_0_1 : (⟨S1x64, .f32⟩ : BufTy).Contents (Elt F) → (⟨S150000x64, .f32⟩ : BufTy).Contents (Elt F)),
    StableHlo.binary main_v58 main_v62 main_v63 (addf : (⟨S150000x64, .f32⟩ : BufTy).Contents (Elt F) → (⟨S150000x64, .f32⟩ : BufTy).Contents (Elt F) → (⟨S150000x64, .f32⟩ : BufTy).Contents (Elt F)),
    StableHlo.binary main_v54 main_v63 main_v64 (addf : (⟨S150000x64, .f32⟩ : BufTy).Contents (Elt F) → (⟨S150000x64, .f32⟩ : BufTy).Contents (Elt F) → (⟨S150000x64, .f32⟩ : BufTy).Contents (Elt F)),
    StableHlo.nullary main_cst_5 (constant S_ .f32 0x3C23D70A#32),
    StableHlo.TRef.nullary main_call1.cst (constant S_ .f32 0x00000000#32),
    StableHlo.TRef.unary main_call1.cst main_call1.v0 (broadcastInDim S150000x64 ![] bcast_S_S150000x64),
    StableHlo.TRef.binary (.of main_v64) main_call1.v0 main_call1.v1 (cmpf .oge),
    StableHlo.TRef.unary (.of main_cst_5) main_call1.v2 id,
    StableHlo.TRef.unary main_call1.v2 main_call1.v3 (broadcastInDim S150000x64 ![] bcast_S_S150000x64),
    StableHlo.TRef.binary main_call1.v3 (.of main_v64) main_call1.v4 mulf,
    StableHlo.TRef.ternary main_call1.v1 (.of main_v64) main_call1.v4 main_call1.call0.v0 select ]

/-- Layer 3's sparse product: the sixteen operations ending at `main_v78`. -/
abbrev opsA3 : List (HloOp τ sig (Elt F)) :=
  [
    StableHlo.unary main_arg3 main_v66 (broadcastInDim S3000000x1 ![0] bcast_S3000000_S3000000x1_0 : (⟨S3000000, .f32⟩ : BufTy).Contents (Elt F) → (⟨S3000000x1, .f32⟩ : BufTy).Contents (Elt F)),
    StableHlo.nullary main_c_6 (constantI S_ 32 0#32),
    StableHlo.unary main_c_6 main_v67 (broadcastInDim S3000000 ![] bcast_S_S3000000 : (⟨S_, .i32⟩ : BufTy).Contents (Elt F) → (⟨S3000000, .i32⟩ : BufTy).Contents (Elt F)),
    StableHlo.binary main_arg2 main_v67 main_v68 (cmpi .slt : (⟨S3000000, .i32⟩ : BufTy).Contents (Elt F) → (⟨S3000000, .i32⟩ : BufTy).Contents (Elt F) → (⟨S3000000, .i1⟩ : BufTy).Contents (Elt F)),
    StableHlo.nullary main_c_7 (constantI S_ 32 150000#32),
    StableHlo.unary main_c_7 main_v69 (broadcastInDim S3000000 ![] bcast_S_S3000000 : (⟨S_, .i32⟩ : BufTy).Contents (Elt F) → (⟨S3000000, .i32⟩ : BufTy).Contents (Elt F)),
    StableHlo.binary main_arg2 main_v69 main_v70 (addi : (⟨S3000000, .i32⟩ : BufTy).Contents (Elt F) → (⟨S3000000, .i32⟩ : BufTy).Contents (Elt F) → (⟨S3000000, .i32⟩ : BufTy).Contents (Elt F)),
    StableHlo.ternary main_v68 main_v70 main_arg2 main_v71 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    StableHlo.unary main_v71 main_v72 (broadcastInDim S3000000x1 ![0] bcast_S3000000_S3000000x1_0 : (⟨S3000000, .i32⟩ : BufTy).Contents (Elt F) → (⟨S3000000x1, .i32⟩ : BufTy).Contents (Elt F)),
    StableHlo.binary main_v65 main_v72 main_v73 ((fun x i => Host.gather gather_S150000x64_S3000000x1_S3000000x64_1_0_n_n_0_1_164 x i) : (⟨S150000x64, .f32⟩ : BufTy).Contents (Elt F) → (⟨S3000000x1, .i32⟩ : BufTy).Contents (Elt F) → (⟨S3000000x64, .f32⟩ : BufTy).Contents (Elt F)),
    StableHlo.unary main_v66 main_v74 (broadcastInDim S3000000x64 ![0, 1] bcast_S3000000x1_S3000000x64_0_1 : (⟨S3000000x1, .f32⟩ : BufTy).Contents (Elt F) → (⟨S3000000x64, .f32⟩ : BufTy).Contents (Elt F)),
    StableHlo.binary main_v74 main_v73 main_v75 (mulf : (⟨S3000000x64, .f32⟩ : BufTy).Contents (Elt F) → (⟨S3000000x64, .f32⟩ : BufTy).Contents (Elt F) → (⟨S3000000x64, .f32⟩ : BufTy).Contents (Elt F)),
    StableHlo.nullary main_cst_8 (constant S_ .f32 0x00000000#32),
    StableHlo.unary main_cst_8 main_v76 (broadcastInDim S150000x64 ![] bcast_S_S150000x64 : (⟨S_, .f32⟩ : BufTy).Contents (Elt F) → (⟨S150000x64, .f32⟩ : BufTy).Contents (Elt F)),
    StableHlo.unary main_arg1 main_v77 (broadcastInDim S3000000x1 ![0] bcast_S3000000_S3000000x1_0 : (⟨S3000000, .i32⟩ : BufTy).Contents (Elt F) → (⟨S3000000x1, .i32⟩ : BufTy).Contents (Elt F)),
    StableHlo.ternary main_v76 main_v77 main_v75 main_v78 ((fun x i u => Host.scatterAdd scatter_S150000x64_S3000000x1_S3000000x64_1_0_0_1 x i u) : (⟨S150000x64, .f32⟩ : BufTy).Contents (Elt F) → (⟨S3000000x1, .i32⟩ : BufTy).Contents (Elt F) → (⟨S3000000x64, .f32⟩ : BufTy).Contents (Elt F) → (⟨S150000x64, .f32⟩ : BufTy).Contents (Elt F)) ]

/-- Layer 3's dense part, ending at `main_v98`. -/
abbrev opsB3 : List (HloOp τ sig (Elt F)) :=
  [
    StableHlo.binary main_v78 main_v65 main_v79 (addf : (⟨S150000x64, .f32⟩ : BufTy).Contents (Elt F) → (⟨S150000x64, .f32⟩ : BufTy).Contents (Elt F) → (⟨S150000x64, .f32⟩ : BufTy).Contents (Elt F)),
    StableHlo.unary main_arg4 main_v80 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v80 main_v81 rfl shapeCasts_S1x64x64_S64x64,
    StableHlo.binary main_v79 main_v81 main_v82 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v83 ((extractStridedSlice S1x64 ![2, 0] · slices_S3x64_S1x64_2_0) : (⟨S3x64, .f32⟩ : BufTy).Contents (Elt F) → (⟨S1x64, .f32⟩ : BufTy).Contents (Elt F)),
    StableHlo.reshape main_v83 main_v84 rfl shapeCasts_S1x64_S64,
    StableHlo.unary main_v84 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S150000x64 ![0, 1] bcast_S1x64_S150000x64_0_1 : (⟨S1x64, .f32⟩ : BufTy).Contents (Elt F) → (⟨S150000x64, .f32⟩ : BufTy).Contents (Elt F)),
    StableHlo.binary main_v82 main_v86 main_v87 (addf : (⟨S150000x64, .f32⟩ : BufTy).Contents (Elt F) → (⟨S150000x64, .f32⟩ : BufTy).Contents (Elt F) → (⟨S150000x64, .f32⟩ : BufTy).Contents (Elt F)),
    StableHlo.binary main_v78 main_v65 main_v88 (mulf : (⟨S150000x64, .f32⟩ : BufTy).Contents (Elt F) → (⟨S150000x64, .f32⟩ : BufTy).Contents (Elt F) → (⟨S150000x64, .f32⟩ : BufTy).Contents (Elt F)),
    StableHlo.unary main_arg6 main_v89 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v89 main_v90 rfl shapeCasts_S1x64x64_S64x64,
    StableHlo.binary main_v88 main_v90 main_v91 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v92 ((extractStridedSlice S1x64 ![2, 0] · slices_S3x64_S1x64_2_0) : (⟨S3x64, .f32⟩ : BufTy).Contents (Elt F) → (⟨S1x64, .f32⟩ : BufTy).Contents (Elt F)),
    StableHlo.reshape main_v92 main_v93 rfl shapeCasts_S1x64_S64,
    StableHlo.unary main_v93 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S150000x64 ![0, 1] bcast_S1x64_S150000x64_0_1 : (⟨S1x64, .f32⟩ : BufTy).Contents (Elt F) → (⟨S150000x64, .f32⟩ : BufTy).Contents (Elt F)),
    StableHlo.binary main_v91 main_v95 main_v96 (addf : (⟨S150000x64, .f32⟩ : BufTy).Contents (Elt F) → (⟨S150000x64, .f32⟩ : BufTy).Contents (Elt F) → (⟨S150000x64, .f32⟩ : BufTy).Contents (Elt F)),
    StableHlo.binary main_v87 main_v96 main_v97 (addf : (⟨S150000x64, .f32⟩ : BufTy).Contents (Elt F) → (⟨S150000x64, .f32⟩ : BufTy).Contents (Elt F) → (⟨S150000x64, .f32⟩ : BufTy).Contents (Elt F)),
    StableHlo.nullary main_cst_9 (constant S_ .f32 0x3C23D70A#32),
    StableHlo.TRef.nullary main_call2.cst (constant S_ .f32 0x00000000#32),
    StableHlo.TRef.unary main_call2.cst main_call2.v0 (broadcastInDim S150000x64 ![] bcast_S_S150000x64),
    StableHlo.TRef.binary (.of main_v97) main_call2.v0 main_call2.v1 (cmpf .oge),
    StableHlo.TRef.unary (.of main_cst_9) main_call2.v2 id,
    StableHlo.TRef.unary main_call2.v2 main_call2.v3 (broadcastInDim S150000x64 ![] bcast_S_S150000x64),
    StableHlo.TRef.binary main_call2.v3 (.of main_v97) main_call2.v4 mulf,
    StableHlo.TRef.ternary main_call2.v1 (.of main_v97) main_call2.v4 main_call2.call0.v0 select ]

/-- The score, its first nine operations (`main_v99` … `main_v105`). -/
abbrev opsCa : List (HloOp τ sig (Elt F)) :=
  [
    StableHlo.nary ![main_arg0, main_v32, main_v65, main_v98] main_v99 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_v99 main_v100 ((extractStridedSlice S100000x256 ![0, 0] · slices_S150000x256_S100000x256_0_0) : (⟨S150000x256, .f32⟩ : BufTy).Contents (Elt F) → (⟨S100000x256, .f32⟩ : BufTy).Contents (Elt F)),
    StableHlo.nullary main_c_10 (constantI S_ 32 0#32),
    StableHlo.unary main_c_10 main_v101 (broadcastInDim S4096 ![] bcast_S_S4096 : (⟨S_, .i32⟩ : BufTy).Contents (Elt F) → (⟨S4096, .i32⟩ : BufTy).Contents (Elt F)),
    StableHlo.binary main_arg10 main_v101 main_v102 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 100000#32),
    StableHlo.unary main_c_11 main_v103 (broadcastInDim S4096 ![] bcast_S_S4096 : (⟨S_, .i32⟩ : BufTy).Contents (Elt F) → (⟨S4096, .i32⟩ : BufTy).Contents (Elt F)),
    StableHlo.binary main_arg10 main_v103 main_v104 (addi : (⟨S4096, .i32⟩ : BufTy).Contents (Elt F) → (⟨S4096, .i32⟩ : BufTy).Contents (Elt F) → (⟨S4096, .i32⟩ : BufTy).Contents (Elt F)),
    StableHlo.ternary main_v102 main_v104 main_arg10 main_v105 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- The score, the remaining twenty-three operations, ending at `main_v125`. -/
abbrev opsCb : List (HloOp τ sig (Elt F)) :=
  [
    StableHlo.unary main_v105 main_v106 (broadcastInDim S4096x1 ![0] bcast_S4096_S4096x1_0 : (⟨S4096, .i32⟩ : BufTy).Contents (Elt F) → (⟨S4096x1, .i32⟩ : BufTy).Contents (Elt F)),
    StableHlo.binary main_v100 main_v106 main_v107 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    StableHlo.binary main_v107 main_arg8 main_v108 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    StableHlo.unary main_arg9 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S4096x64 ![0, 1] bcast_S1x64_S4096x64_0_1 : (⟨S1x64, .f32⟩ : BufTy).Contents (Elt F) → (⟨S4096x64, .f32⟩ : BufTy).Contents (Elt F)),
    StableHlo.binary main_v108 main_v110 main_v111 (addf : (⟨S4096x64, .f32⟩ : BufTy).Contents (Elt F) → (⟨S4096x64, .f32⟩ : BufTy).Contents (Elt F) → (⟨S4096x64, .f32⟩ : BufTy).Contents (Elt F)),
    StableHlo.unary main_v99 main_v112 ((extractStridedSlice S50000x256 ![100000, 0] · slices_S150000x256_S50000x256_100000_0) : (⟨S150000x256, .f32⟩ : BufTy).Contents (Elt F) → (⟨S50000x256, .f32⟩ : BufTy).Contents (Elt F)),
    StableHlo.nullary main_c_12 (constantI S_ 32 0#32),
    StableHlo.unary main_c_12 main_v113 (broadcastInDim S4096 ![] bcast_S_S4096 : (⟨S_, .i32⟩ : BufTy).Contents (Elt F) → (⟨S4096, .i32⟩ : BufTy).Contents (Elt F)),
    StableHlo.binary main_arg11 main_v113 main_v114 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 50000#32),
    StableHlo.unary main_c_13 main_v115 (broadcastInDim S4096 ![] bcast_S_S4096 : (⟨S_, .i32⟩ : BufTy).Contents (Elt F) → (⟨S4096, .i32⟩ : BufTy).Contents (Elt F)),
    StableHlo.binary main_arg11 main_v115 main_v116 (addi : (⟨S4096, .i32⟩ : BufTy).Contents (Elt F) → (⟨S4096, .i32⟩ : BufTy).Contents (Elt F) → (⟨S4096, .i32⟩ : BufTy).Contents (Elt F)),
    StableHlo.ternary main_v114 main_v116 main_arg11 main_v117 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v117 main_v118 (broadcastInDim S4096x1 ![0] bcast_S4096_S4096x1_0 : (⟨S4096, .i32⟩ : BufTy).Contents (Elt F) → (⟨S4096x1, .i32⟩ : BufTy).Contents (Elt F)),
    StableHlo.binary main_v112 main_v118 main_v119 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.binary main_v119 main_arg8 main_v120 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    StableHlo.unary main_arg9 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S4096x64 ![0, 1] bcast_S1x64_S4096x64_0_1 : (⟨S1x64, .f32⟩ : BufTy).Contents (Elt F) → (⟨S4096x64, .f32⟩ : BufTy).Contents (Elt F)),
    StableHlo.binary main_v120 main_v122 main_v123 (addf : (⟨S4096x64, .f32⟩ : BufTy).Contents (Elt F) → (⟨S4096x64, .f32⟩ : BufTy).Contents (Elt F) → (⟨S4096x64, .f32⟩ : BufTy).Contents (Elt F)),
    StableHlo.binary main_v111 main_v123 main_v124 (mulf : (⟨S4096x64, .f32⟩ : BufTy).Contents (Elt F) → (⟨S4096x64, .f32⟩ : BufTy).Contents (Elt F) → (⟨S4096x64, .f32⟩ : BufTy).Contents (Elt F)),
    StableHlo.nullary main_cst_14 (constant S_ .f32 0x00000000#32),
    StableHlo.binary main_v124 main_cst_14 main_v125 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) ]

/-- A result buffer listed among the references `W` is, as a device buffer, among their images. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers `opsA1` writes, in order. -/
abbrev wA1 : List (Ref sig .tc) :=
  [main_v0, main_c, main_v1, main_v2, main_c_0, main_v3, main_v4, main_v5, main_v6, main_v7, main_v8, main_v9, main_cst, main_v10, main_v11, main_v12]
theorem wsubA1 : (opsA1 (F := F)).Forall fun op => op.writes ⊆ ((wA1).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subA1 : (opsA1 (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem freshA1 : (opsA1 (F := F)).Forall fun op => op.fresh = ∅ :=
  ⟨rfl, rfl, rfl, rfl, rfl, rfl, rfl, rfl, rfl, rfl, rfl, rfl, rfl, rfl, rfl, rfl⟩
/-- A buffer `opsA1` does not write keeps its contents. -/
theorem frameA1 (V : Valuation τ sig (Elt F)) {r : Ref sig .tc} (hr : r ∉ wA1) :
    after opsA1 V (Proc.devRef .tc r) = V (Proc.devRef .tc r) :=
  after_of_writes_sub opsA1 V wsubA1 hr

/-- The buffers `opsB1` writes, in order. -/
abbrev wB1 : List (Ref sig .tc) :=
  [main_v13, main_v14, main_v15, main_v16, main_v17, main_v18, main_v19, main_v20, main_v21, main_v22, main_v23, main_v24, main_v25, main_v26, main_v27, main_v28, main_v29, main_v30, main_v31, main_cst_1, main_call0_cst, main_call0_v0, main_call0_v1, main_call0_v2, main_call0_v3, main_call0_v4, main_v32]
theorem wsubB1 : (opsB1 (F := F)).Forall fun op => op.writes ⊆ ((wB1).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subB1 : (opsB1 (F := F)).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
theorem freshB1 : (opsB1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- A buffer `opsB1` does not write keeps its contents. -/
theorem frameB1 (V : Valuation τ sig (Elt F)) {r : Ref sig .tc} (hr : r ∉ wB1) :
    after opsB1 V (Proc.devRef .tc r) = V (Proc.devRef .tc r) :=
  after_of_writes_sub opsB1 V wsubB1 hr

/-- The buffers `opsA2` writes, in order. -/
abbrev wA2 : List (Ref sig .tc) :=
  [main_v33, main_c_2, main_v34, main_v35, main_c_3, main_v36, main_v37, main_v38, main_v39, main_v40, main_v41, main_v42, main_cst_4, main_v43, main_v44, main_v45]
theorem wsubA2 : (opsA2 (F := F)).Forall fun op => op.writes ⊆ ((wA2).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subA2 : (opsA2 (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem freshA2 : (opsA2 (F := F)).Forall fun op => op.fresh = ∅ :=
  ⟨rfl, rfl, rfl, rfl, rfl, rfl, rfl, rfl, rfl, rfl, rfl, rfl, rfl, rfl, rfl, rfl⟩
/-- A buffer `opsA2` does not write keeps its contents. -/
theorem frameA2 (V : Valuation τ sig (Elt F)) {r : Ref sig .tc} (hr : r ∉ wA2) :
    after opsA2 V (Proc.devRef .tc r) = V (Proc.devRef .tc r) :=
  after_of_writes_sub opsA2 V wsubA2 hr

/-- The buffers `opsB2a` writes, in order. -/
abbrev wB2a : List (Ref sig .tc) :=
  [main_v46, main_v47, main_v48, main_v49, main_v50, main_v51, main_v52]
theorem wsubB2a : (opsB2a (F := F)).Forall fun op => op.writes ⊆ ((wB2a).map (Proc.devRef (τ := τ) .tc)).toFinset :=
  ⟨writes_mem (by decide), writes_mem (by decide), writes_mem (by decide), writes_mem (by decide), writes_mem (by decide), writes_mem (by decide), writes_mem (by decide)⟩
theorem subB2a : (opsB2a (F := F)).Forall fun op => op.bufs ⊆ tcRefs τ sig :=
  ⟨binary_bufs_sub .., unary_bufs_sub .., reshape_bufs_sub .., binary_bufs_sub .., unary_bufs_sub .., reshape_bufs_sub .., unary_bufs_sub ..⟩
theorem freshB2a : (opsB2a (F := F)).Forall fun op => op.fresh = ∅ :=
  ⟨rfl, rfl, rfl, rfl, rfl, rfl, rfl⟩
/-- A buffer `opsB2a` does not write keeps its contents. -/
theorem frameB2a (V : Valuation τ sig (Elt F)) {r : Ref sig .tc} (hr : r ∉ wB2a) :
    after opsB2a V (Proc.devRef .tc r) = V (Proc.devRef .tc r) :=
  after_of_writes_sub opsB2a V wsubB2a hr

/-- The buffers `opsB2b` writes, in order. -/
abbrev wB2b : List (Ref sig .tc) :=
  [main_v53, main_v54, main_v55, main_v56, main_v57, main_v58, main_v59, main_v60, main_v61, main_v62, main_v63, main_v64, main_cst_5, main_call1_cst, main_call1_v0, main_call1_v1, main_call1_v2, main_call1_v3, main_call1_v4, main_v65]
theorem wsubB2b : (opsB2b (F := F)).Forall fun op => op.writes ⊆ ((wB2b).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subB2b : (opsB2b (F := F)).Forall fun op => op.bufs ⊆ tcRefs τ sig :=
  ⟨unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
theorem freshB2b : (opsB2b (F := F)).Forall fun op => op.fresh = ∅ :=
  ⟨rfl, rfl, rfl, rfl, rfl, rfl, rfl, rfl, rfl, rfl, rfl, rfl, rfl, rfl, rfl, rfl, rfl, rfl, rfl, rfl⟩
/-- A buffer `opsB2b` does not write keeps its contents. -/
theorem frameB2b (V : Valuation τ sig (Elt F)) {r : Ref sig .tc} (hr : r ∉ wB2b) :
    after opsB2b V (Proc.devRef .tc r) = V (Proc.devRef .tc r) :=
  after_of_writes_sub opsB2b V wsubB2b hr

/-- The buffers `opsA3` writes, in order. -/
abbrev wA3 : List (Ref sig .tc) :=
  [main_v66, main_c_6, main_v67, main_v68, main_c_7, main_v69, main_v70, main_v71, main_v72, main_v73, main_v74, main_v75, main_cst_8, main_v76, main_v77, main_v78]
theorem wsubA3 : (opsA3 (F := F)).Forall fun op => op.writes ⊆ ((wA3).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subA3 : (opsA3 (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem freshA3 : (opsA3 (F := F)).Forall fun op => op.fresh = ∅ :=
  ⟨rfl, rfl, rfl, rfl, rfl, rfl, rfl, rfl, rfl, rfl, rfl, rfl, rfl, rfl, rfl, rfl⟩
/-- A buffer `opsA3` does not write keeps its contents. -/
theorem frameA3 (V : Valuation τ sig (Elt F)) {r : Ref sig .tc} (hr : r ∉ wA3) :
    after opsA3 V (Proc.devRef .tc r) = V (Proc.devRef .tc r) :=
  after_of_writes_sub opsA3 V wsubA3 hr

/-- The buffers `opsB3` writes, in order. -/
abbrev wB3 : List (Ref sig .tc) :=
  [main_v79, main_v80, main_v81, main_v82, main_v83, main_v84, main_v85, main_v86, main_v87, main_v88, main_v89, main_v90, main_v91, main_v92, main_v93, main_v94, main_v95, main_v96, main_v97, main_cst_9, main_call2_cst, main_call2_v0, main_call2_v1, main_call2_v2, main_call2_v3, main_call2_v4, main_v98]
theorem wsubB3 : (opsB3 (F := F)).Forall fun op => op.writes ⊆ ((wB3).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subB3 : (opsB3 (F := F)).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
theorem freshB3 : (opsB3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- A buffer `opsB3` does not write keeps its contents. -/
theorem frameB3 (V : Valuation τ sig (Elt F)) {r : Ref sig .tc} (hr : r ∉ wB3) :
    after opsB3 V (Proc.devRef .tc r) = V (Proc.devRef .tc r) :=
  after_of_writes_sub opsB3 V wsubB3 hr

/-- The buffers `opsCa` writes, in order. -/
abbrev wCa : List (Ref sig .tc) :=
  [main_v99, main_v100, main_c_10, main_v101, main_v102, main_c_11, main_v103, main_v104, main_v105]
theorem wsubCa : (opsCa (F := F)).Forall fun op => op.writes ⊆ ((wCa).map (Proc.devRef (τ := τ) .tc)).toFinset :=
  ⟨writes_mem (by decide), writes_mem (by decide), writes_mem (by decide), writes_mem (by decide), writes_mem (by decide), writes_mem (by decide), writes_mem (by decide), writes_mem (by decide), writes_mem (by decide)⟩
theorem subCa : (opsCa (F := F)).Forall fun op => op.bufs ⊆ tcRefs τ sig :=
  ⟨nary_bufs_sub .., unary_bufs_sub .., nullary_bufs_sub .., unary_bufs_sub .., binary_bufs_sub .., nullary_bufs_sub .., unary_bufs_sub .., binary_bufs_sub .., ternary_bufs_sub ..⟩
theorem freshCa : (opsCa (F := F)).Forall fun op => op.fresh = ∅ :=
  ⟨rfl, rfl, rfl, rfl, rfl, rfl, rfl, rfl, rfl⟩
/-- A buffer `opsCa` does not write keeps its contents. -/
theorem frameCa (V : Valuation τ sig (Elt F)) {r : Ref sig .tc} (hr : r ∉ wCa) :
    after opsCa V (Proc.devRef .tc r) = V (Proc.devRef .tc r) :=
  after_of_writes_sub opsCa V wsubCa hr

/-- The buffers `opsCb` writes, in order. -/
abbrev wCb : List (Ref sig .tc) :=
  [main_v106, main_v107, main_v108, main_v109, main_v110, main_v111, main_v112, main_c_12, main_v113, main_v114, main_c_13, main_v115, main_v116, main_v117, main_v118, main_v119, main_v120, main_v121, main_v122, main_v123, main_v124, main_cst_14, main_v125]
theorem wsubCb : (opsCb (F := F)).Forall fun op => op.writes ⊆ ((wCb).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
theorem subCb : (opsCb (F := F)).Forall fun op => op.bufs ⊆ tcRefs τ sig :=
  ⟨unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., nullary_bufs_sub .., binary_bufs_sub ..⟩
theorem freshCb : (opsCb (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩
/-- A buffer `opsCb` does not write keeps its contents. -/
theorem frameCb (V : Valuation τ sig (Elt F)) {r : Ref sig .tc} (hr : r ∉ wCb) :
    after opsCb V (Proc.devRef .tc r) = V (Proc.devRef .tc r) :=
  after_of_writes_sub opsCb V wsubCb hr

/-- The operations of the first printed window. -/
abbrev ops0 : List (HloOp τ sig (Elt F)) := opsA1 ++ (opsB1 ++ (opsA2 ++ opsB2a))
/-- The operations of the second printed window. -/
abbrev ops1 : List (HloOp τ sig (Elt F)) := opsB2b ++ (opsA3 ++ (opsB3 ++ opsCa))
/-- All of @main's operations, in order. -/
abbrev ops : List (HloOp τ sig (Elt F)) := ops0 ++ (ops1 ++ opsCb)

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after all of @main, list by list. -/
theorem after_ops (V : Valuation τ sig (Elt F)) :
    after ops V = after opsCb (after opsCa (after opsB3 (after opsA3 (after opsB2b (after opsB2a (after opsA2 (after opsB1 (after opsA1 V)))))))) := by
  show after ((opsA1 ++ (opsB1 ++ (opsA2 ++ opsB2a))) ++ ((opsB2b ++ (opsA3 ++ (opsB3 ++ opsCa))) ++ opsCb)) V = _
  simp only [after_app]

-- the chain of binds is re-associated once per statement
set_option maxRecDepth 4096 in
/-- The first window is the run of its operations: the rectifier's definition unfolded at its call, sequencing re-associated. -/
theorem part0_eq (c : Dev nD) : main_part0 (F := F) c = seq ops0 := by
  simp only [main_part0, fn_leaky_relu.body, fn_where.body, bind_assoc, pure_bind]
  rfl

set_option maxRecDepth 4096 in
/-- The second window likewise. -/
theorem part1_eq (c : Dev nD) : main_part1 (F := F) c = seq ops1 := by
  simp only [main_part1, fn_leaky_relu.body, fn_where.body, bind_assoc, pure_bind]
  rfl

/-- The third window has no call. -/
theorem part2_eq (c : Dev nD) : main_part2 (F := F) c = seq opsCb := rfl

/-- @main is the straight line of its operations. -/
theorem main_eq (c : Dev nD) : main (F := F) c = seq ops := by
  show (main_part0 (F := F) c >>= fun _ => main_part1 (F := F) c >>= fun _ => main_part2 (F := F) c) = seq (ops0 ++ (ops1 ++ opsCb))
  rw [part0_eq, part1_eq, part2_eq]
  exact ((seq_append ops0 (ops1 ++ opsCb)).trans
    (congrArg (fun k => seq ops0 >>= fun _ => k) (seq_append ops1 opsCb))).symm

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of the nine lists. -/
theorem mem_ops {op : HloOp τ sig (Elt F)} (h : op ∈ (ops : List (HloOp τ sig (Elt F)))) :
    op ∈ (opsA1 : List (HloOp τ sig (Elt F))) ∨ op ∈ (opsB1 : List (HloOp τ sig (Elt F))) ∨ op ∈ (opsA2 : List (HloOp τ sig (Elt F)))
      ∨ op ∈ (opsB2a : List (HloOp τ sig (Elt F))) ∨ op ∈ (opsB2b : List (HloOp τ sig (Elt F))) ∨ op ∈ (opsA3 : List (HloOp τ sig (Elt F)))
      ∨ op ∈ (opsB3 : List (HloOp τ sig (Elt F))) ∨ op ∈ (opsCa : List (HloOp τ sig (Elt F))) ∨ op ∈ (opsCb : List (HloOp τ sig (Elt F))) := by
  rcases List.mem_append.mp h with h | h
  · rcases List.mem_append.mp h with h | h
    · exact .inl h
    rcases List.mem_append.mp h with h | h
    · exact .inr (.inl h)
    rcases List.mem_append.mp h with h | h
    · exact .inr (.inr (.inl h))
    · exact .inr (.inr (.inr (.inl h)))
  rcases List.mem_append.mp h with h | h
  · rcases List.mem_append.mp h with h | h
    · exact .inr (.inr (.inr (.inr (.inl h))))
    rcases List.mem_append.mp h with h | h
    · exact .inr (.inr (.inr (.inr (.inr (.inl h)))))
    rcases List.mem_append.mp h with h | h
    · exact .inr (.inr (.inr (.inr (.inr (.inr (.inl h))))))
    · exact .inr (.inr (.inr (.inr (.inr (.inr (.inr (.inl h)))))))
  · exact .inr (.inr (.inr (.inr (.inr (.inr (.inr (.inr h)))))))

/-- Every operation touches TensorCore references only. -/
theorem ops_sub : (ops : List (HloOp τ sig (Elt F))).Forall fun op => op.bufs ⊆ tcRefs τ sig :=
  List.forall_iff_forall_mem.mpr fun op h => by
    rcases mem_ops h with h | h | h | h | h | h | h | h | h
    · exact List.forall_iff_forall_mem.mp subA1 op h
    · exact List.forall_iff_forall_mem.mp subB1 op h
    · exact List.forall_iff_forall_mem.mp subA2 op h
    · exact List.forall_iff_forall_mem.mp subB2a op h
    · exact List.forall_iff_forall_mem.mp subB2b op h
    · exact List.forall_iff_forall_mem.mp subA3 op h
    · exact List.forall_iff_forall_mem.mp subB3 op h
    · exact List.forall_iff_forall_mem.mp subCa op h
    · exact List.forall_iff_forall_mem.mp subCb op h

/-- Every operation determines its results. -/
theorem ops_fresh : ∀ op ∈ (ops : List (HloOp τ sig (Elt F))), op.fresh = ∅ := fun op h => by
  rcases mem_ops h with h | h | h | h | h | h | h | h | h
  · exact List.forall_iff_forall_mem.mp freshA1 op h
  · exact List.forall_iff_forall_mem.mp freshB1 op h
  · exact List.forall_iff_forall_mem.mp freshA2 op h
  · exact List.forall_iff_forall_mem.mp freshB2a op h
  · exact List.forall_iff_forall_mem.mp freshB2b op h
  · exact List.forall_iff_forall_mem.mp freshA3 op h
  · exact List.forall_iff_forall_mem.mp freshB3 op h
  · exact List.forall_iff_forall_mem.mp freshCa op h
  · exact List.forall_iff_forall_mem.mp freshCb op h

end Cert.ReferenceIdeal.RefRun

end
-- ==== Proof.RefRunL1.lean ====
/-
  Layer 1 of the reference, over any contents `V` of the buffers before it: after its sparse product's operations
  `main_v12` holds the sparse product of the edge arrays and the features `main_arg0`; after its dense part `main_v32` holds the
  layer's value of that product and those features; a buffer the layer does not write keeps its contents.
-/
import proofs.«157423_j85882166051091_1_alg».proof.Proof.RefRunOps
import proofs.«157423_j85882166051091_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the gather and the scatter stay folded: the equations below never look inside them
attribute [local irreducible] Host.gather Host.scatterAdd

-- the fold over the stage's operations, rewritten operation by operation and then compared with the stated term,
-- takes more steps than the default budget
set_option maxHeartbeats 1600000 in
/-- After the sparse product's operations `main_v12` holds `spmm` of the edge arrays and `main_arg0`. -/
theorem spmm1 (V : Valuation τ sig (Elt F)) :
    after opsA1 V (Proc.devRef .tc main_v12)
      = RefSpec.spmm (V (Proc.devRef .tc main_arg1)) (V (Proc.devRef .tc main_arg2)) (V (Proc.devRef .tc main_arg3)) (V (Proc.devRef .tc main_arg0)) := by
  after_results_simp
  rfl

set_option maxHeartbeats 1600000 in
/-- After the dense part's operations `main_v32` holds `layer` of `main_v12`, `main_arg0` and the layer's weights and biases. -/
theorem dense1 (V : Valuation τ sig (Elt F)) :
    after opsB1 V (Proc.devRef .tc main_v32)
      = RefSpec.layer (V (Proc.devRef .tc main_v12)) (V (Proc.devRef .tc main_arg0)) (RefSpec.w0 (V (Proc.devRef .tc main_arg4))) (RefSpec.b0 (V (Proc.devRef .tc main_arg5))) (RefSpec.w0 (V (Proc.devRef .tc main_arg6))) (RefSpec.b0 (V (Proc.devRef .tc main_arg7))) := by
  after_results_simp
  rfl

/-- The layer's two parts composed. -/
theorem layer1 (V : Valuation τ sig (Elt F)) :
    (after opsB1 (after opsA1 V)) (Proc.devRef .tc main_v32)
      = RefSpec.layer (RefSpec.spmm (V (Proc.devRef .tc main_arg1)) (V (Proc.devRef .tc main_arg2)) (V (Proc.devRef .tc main_arg3)) (V (Proc.devRef .tc main_arg0))) (V (Proc.devRef .tc main_arg0)) (RefSpec.w0 (V (Proc.devRef .tc main_arg4))) (RefSpec.b0 (V (Proc.devRef .tc main_arg5))) (RefSpec.w0 (V (Proc.devRef .tc main_arg6))) (RefSpec.b0 (V (Proc.devRef .tc main_arg7))) := by
  rw [dense1, spmm1, frameA1 V (r := main_arg0) (by decide), frameA1 V (r := main_arg4) (by decide), frameA1 V (r := main_arg5) (by decide), frameA1 V (r := main_arg6) (by decide), frameA1 V (r := main_arg7) (by decide)]

/-- A buffer the layer does not write keeps its contents. -/
theorem frameL1 (V : Valuation τ sig (Elt F)) {r : Ref sig .tc} (hr : r ∉ wA1 ++ (wB1)) :
    (after opsB1 (after opsA1 V)) (Proc.devRef .tc r) = V (Proc.devRef .tc r) := by
  rw [frameB1 _ (fun h => hr (List.mem_append_right _ h)), frameA1 _ (fun h => hr (List.mem_append_left _ h))]

end Cert.ReferenceIdeal.RefRun

end
-- ==== Proof.RefRunL2.lean ====
/-
  Layer 2 of the reference, over any contents `V` of the buffers before it: after its sparse product's operations
  `main_v45` holds the sparse product of the edge arrays and the features `main_v32`; after its dense part `main_v65` holds the
  layer's value of that product and those features; a buffer the layer does not write keeps its contents.
-/
import proofs.«157423_j85882166051091_1_alg».proof.Proof.RefRunOps
import proofs.«157423_j85882166051091_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the gather and the scatter stay folded: the equations below never look inside them
attribute [local irreducible] Host.gather Host.scatterAdd

-- the fold over the stage's operations, rewritten operation by operation and then compared with the stated term,
-- takes more steps than the default budget
set_option maxHeartbeats 1600000 in
/-- After the sparse product's operations `main_v45` holds `spmm` of the edge arrays and `main_v32`. -/
theorem spmm2 (V : Valuation τ sig (Elt F)) :
    after opsA2 V (Proc.devRef .tc main_v45)
      = RefSpec.spmm (V (Proc.devRef .tc main_arg1)) (V (Proc.devRef .tc main_arg2)) (V (Proc.devRef .tc main_arg3)) (V (Proc.devRef .tc main_v32)) := by
  after_results_simp
  rfl

set_option maxHeartbeats 1600000 in
/-- After the dense part's operations `main_v65` holds `layer` of `main_v45`, `main_v32` and the layer's weights and biases. -/
theorem dense2 (V : Valuation τ sig (Elt F)) :
    after opsB2b (after opsB2a V) (Proc.devRef .tc main_v65)
      = RefSpec.layer (V (Proc.devRef .tc main_v45)) (V (Proc.devRef .tc main_v32)) (RefSpec.w1 (V (Proc.devRef .tc main_arg4))) (RefSpec.b1 (V (Proc.devRef .tc main_arg5))) (RefSpec.w1 (V (Proc.devRef .tc main_arg6))) (RefSpec.b1 (V (Proc.devRef .tc main_arg7))) := by
  after_results_simp
  rfl

/-- The layer's two parts composed. -/
theorem layer2 (V : Valuation τ sig (Elt F)) :
    (after opsB2b (after opsB2a (after opsA2 V))) (Proc.devRef .tc main_v65)
      = RefSpec.layer (RefSpec.spmm (V (Proc.devRef .tc main_arg1)) (V (Proc.devRef .tc main_arg2)) (V (Proc.devRef .tc main_arg3)) (V (Proc.devRef .tc main_v32))) (V (Proc.devRef .tc main_v32)) (RefSpec.w1 (V (Proc.devRef .tc main_arg4))) (RefSpec.b1 (V (Proc.devRef .tc main_arg5))) (RefSpec.w1 (V (Proc.devRef .tc main_arg6))) (RefSpec.b1 (V (Proc.devRef .tc main_arg7))) := by
  rw [dense2, spmm2, frameA2 V (r := main_v32) (by decide), frameA2 V (r := main_arg4) (by decide), frameA2 V (r := main_arg5) (by decide), frameA2 V (r := main_arg6) (by decide), frameA2 V (r := main_arg7) (by decide)]

/-- A buffer the layer does not write keeps its contents. -/
theorem frameL2 (V : Valuation τ sig (Elt F)) {r : Ref sig .tc} (hr : r ∉ wA2 ++ (wB2a ++ wB2b)) :
    (after opsB2b (after opsB2a (after opsA2 V))) (Proc.devRef .tc r) = V (Proc.devRef .tc r) := by
  rw [frameB2b _ (fun h => hr (List.mem_append_right _ (List.mem_append_right _ h))),
    frameB2a _ (fun h => hr (List.mem_append_right _ (List.mem_append_left _ h))),
    frameA2 _ (fun h => hr (List.mem_append_left _ h))]

end Cert.ReferenceIdeal.RefRun

end
-- ==== Proof.RefRunL3.lean ====
/-
  Layer 3 of the reference, over any contents `V` of the buffers before it: after its sparse product's operations
  `main_v78` holds the sparse product of the edge arrays and the features `main_v65`; after its dense part `main_v98` holds the
  layer's value of that product and those features; a buffer the layer does not write keeps its contents.
-/
import proofs.«157423_j85882166051091_1_alg».proof.Proof.RefRunOps
import proofs.«157423_j85882166051091_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the gather and the scatter stay folded: the equations below never look inside them
attribute [local irreducible] Host.gather Host.scatterAdd

-- the fold over the stage's operations, rewritten operation by operation and then compared with the stated term,
-- takes more steps than the default budget
set_option maxHeartbeats 1600000 in
/-- After the sparse product's operations `main_v78` holds `spmm` of the edge arrays and `main_v65`. -/
theorem spmm3 (V : Valuation τ sig (Elt F)) :
    after opsA3 V (Proc.devRef .tc main_v78)
      = RefSpec.spmm (V (Proc.devRef .tc main_arg1)) (V (Proc.devRef .tc main_arg2)) (V (Proc.devRef .tc main_arg3)) (V (Proc.devRef .tc main_v65)) := by
  after_results_simp
  rfl

set_option maxHeartbeats 1600000 in
/-- After the dense part's operations `main_v98` holds `layer` of `main_v78`, `main_v65` and the layer's weights and biases. -/
theorem dense3 (V : Valuation τ sig (Elt F)) :
    after opsB3 V (Proc.devRef .tc main_v98)
      = RefSpec.layer (V (Proc.devRef .tc main_v78)) (V (Proc.devRef .tc main_v65)) (RefSpec.w2 (V (Proc.devRef .tc main_arg4))) (RefSpec.b2 (V (Proc.devRef .tc main_arg5))) (RefSpec.w2 (V (Proc.devRef .tc main_arg6))) (RefSpec.b2 (V (Proc.devRef .tc main_arg7))) := by
  after_results_simp
  rfl

/-- The layer's two parts composed. -/
theorem layer3 (V : Valuation τ sig (Elt F)) :
    (after opsB3 (after opsA3 V)) (Proc.devRef .tc main_v98)
      = RefSpec.layer (RefSpec.spmm (V (Proc.devRef .tc main_arg1)) (V (Proc.devRef .tc main_arg2)) (V (Proc.devRef .tc main_arg3)) (V (Proc.devRef .tc main_v65))) (V (Proc.devRef .tc main_v65)) (RefSpec.w2 (V (Proc.devRef .tc main_arg4))) (RefSpec.b2 (V (Proc.devRef .tc main_arg5))) (RefSpec.w2 (V (Proc.devRef .tc main_arg6))) (RefSpec.b2 (V (Proc.devRef .tc main_arg7))) := by
  rw [dense3, spmm3, frameA3 V (r := main_v65) (by decide), frameA3 V (r := main_arg4) (by decide), frameA3 V (r := main_arg5) (by decide), frameA3 V (r := main_arg6) (by decide), frameA3 V (r := main_arg7) (by decide)]

/-- A buffer the layer does not write keeps its contents. -/
theorem frameL3 (V : Valuation τ sig (Elt F)) {r : Ref sig .tc} (hr : r ∉ wA3 ++ (wB3)) :
    (after opsB3 (after opsA3 V)) (Proc.devRef .tc r) = V (Proc.devRef .tc r) := by
  rw [frameB3 _ (fun h => hr (List.mem_append_right _ h)), frameA3 _ (fun h => hr (List.mem_append_left _ h))]

end Cert.ReferenceIdeal.RefRun

end
-- ==== Proof.RefRunScore.lean ====
/-
  The closing score of the reference, over any contents `V` of the buffers before it: after its operations
  `main_v125` holds `score` of the projection's weights and bias, the two index arrays and the four feature arrays;
  a buffer the score does not write keeps its contents.
-/
import proofs.«157423_j85882166051091_1_alg».proof.Proof.RefRunOps
import proofs.«157423_j85882166051091_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the gathers and the row sums stay folded: the equation below never looks inside them
attribute [local irreducible] Host.gather Host.reduceAdd

-- the fold over the stage's operations, rewritten operation by operation and then compared with the stated term,
-- takes more steps than the default budget
set_option maxHeartbeats 1600000 in
/-- After the score's operations `main_v125` holds `score` of the arguments and the three layers' results. -/
theorem score_eq (V : Valuation τ sig (Elt F)) :
    after opsCb (after opsCa V) (Proc.devRef .tc main_v125)
      = RefSpec.score (V (Proc.devRef .tc main_arg8)) (V (Proc.devRef .tc main_arg9)) (V (Proc.devRef .tc main_arg10)) (V (Proc.devRef .tc main_arg11))
          (V (Proc.devRef .tc main_arg0)) (V (Proc.devRef .tc main_v32)) (V (Proc.devRef .tc main_v65)) (V (Proc.devRef .tc main_v98)) := by
  after_results_simp
  rfl

/-- A buffer the score does not write keeps its contents. -/
theorem frameC (V : Valuation τ sig (Elt F)) {r : Ref sig .tc} (hr : r ∉ wCa ++ wCb) :
    after opsCb (after opsCa V) (Proc.devRef .tc r) = V (Proc.devRef .tc r) := by
  rw [frameCb _ (fun h => hr (List.mem_append_right _ h)), frameCa _ (fun h => hr (List.mem_append_left _ h))]

end Cert.ReferenceIdeal.RefRun

end
-- ==== Proof.RefRun.lean ====
/-
  The reference's run: every weakly fair execution of @main terminates with `main_v125` at `RefSpec.result` of the
  twelve arguments' launch contents and the arguments unchanged. The contents after all the operations are read
  layer by layer: each layer's result from the lemma of its module, each buffer a later stage reads from the
  frames of the stages between.
-/
import proofs.«157423_j85882166051091_1_alg».proof.Proof.RefRunL1
import proofs.«157423_j85882166051091_1_alg».proof.Proof.RefRunL2
import proofs.«157423_j85882166051091_1_alg».proof.Proof.RefRunL3
import proofs.«157423_j85882166051091_1_alg».proof.Proof.RefRunScore
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- After all of @main's operations `main_v125` holds the reference's result of the arguments' contents. -/
theorem out_eq (V : Valuation τ sig (Elt F)) :
    after ops V (Proc.devRef .tc main_v125)
      = RefSpec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, score_eq]
  -- the third layer's result and what the score reads past it
  rw [layer3, frameL3 _ (r := main_v65) (by decide),
    frameL3 _ (r := main_v32) (by decide),
    frameL3 _ (r := main_arg0) (by decide),
    frameL3 _ (r := main_arg8) (by decide),
    frameL3 _ (r := main_arg9) (by decide),
    frameL3 _ (r := main_arg10) (by decide),
    frameL3 _ (r := main_arg11) (by decide)]
  -- the second layer's result and what the third layer and the score read past it
  rw [layer2, frameL2 _ (r := main_v32) (by decide),
    frameL2 _ (r := main_arg0) (by decide),
    frameL2 _ (r := main_arg1) (by decide),
    frameL2 _ (r := main_arg2) (by decide),
    frameL2 _ (r := main_arg3) (by decide),
    frameL2 _ (r := main_arg4) (by decide),
    frameL2 _ (r := main_arg5) (by decide),
    frameL2 _ (r := main_arg6) (by decide),
    frameL2 _ (r := main_arg7) (by decide),
    frameL2 _ (r := main_arg8) (by decide),
    frameL2 _ (r := main_arg9) (by decide),
    frameL2 _ (r := main_arg10) (by decide),
    frameL2 _ (r := main_arg11) (by decide)]
  -- the first layer's result and the arguments
  rw [layer1, frameL1 _ (r := main_arg0) (by decide),
    frameL1 _ (r := main_arg1) (by decide),
    frameL1 _ (r := main_arg2) (by decide),
    frameL1 _ (r := main_arg3) (by decide),
    frameL1 _ (r := main_arg4) (by decide),
    frameL1 _ (r := main_arg5) (by decide),
    frameL1 _ (r := main_arg6) (by decide),
    frameL1 _ (r := main_arg7) (by decide),
    frameL1 _ (r := main_arg8) (by decide),
    frameL1 _ (r := main_arg9) (by decide),
    frameL1 _ (r := main_arg10) (by decide),
    frameL1 _ (r := main_arg11) (by decide)]
  rfl

/-- A buffer no operation of @main writes keeps its contents. -/
theorem frame_ops (V : Valuation τ sig (Elt F)) {r : Ref sig .tc} (h1 : r ∉ wA1 ++ wB1) (h2 : r ∉ wA2 ++ (wB2a ++ wB2b))
    (h3 : r ∉ wA3 ++ wB3) (h4 : r ∉ wCa ++ wCb) : after ops V (Proc.devRef .tc r) = V (Proc.devRef .tc r) := by
  rw [after_ops, frameC _ h4, frameL3 _ h3, frameL2 _ h2, frameL1 _ h1]

/-- On every device, from any memory with zero counters: every weakly fair execution of @main terminates with the
    result buffer at `RefSpec.result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v125)
        = RefSpec.result (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v125).trans (out_eq _),
      (h c main_arg0).trans (frame_ops _ (r := main_arg0) (by decide) (by decide) (by decide) (by decide)),
      (h c main_arg1).trans (frame_ops _ (r := main_arg1) (by decide) (by decide) (by decide) (by decide)),
      (h c main_arg2).trans (frame_ops _ (r := main_arg2) (by decide) (by decide) (by decide) (by decide)),
      (h c main_arg3).trans (frame_ops _ (r := main_arg3) (by decide) (by decide) (by decide) (by decide)),
      (h c main_arg4).trans (frame_ops _ (r := main_arg4) (by decide) (by decide) (by decide) (by decide)),
      (h c main_arg5).trans (frame_ops _ (r := main_arg5) (by decide) (by decide) (by decide) (by decide)),
      (h c main_arg6).trans (frame_ops _ (r := main_arg6) (by decide) (by decide) (by decide) (by decide)),
      (h c main_arg7).trans (frame_ops _ (r := main_arg7) (by decide) (by decide) (by decide) (by decide)),
      (h c main_arg8).trans (frame_ops _ (r := main_arg8) (by decide) (by decide) (by decide) (by decide)),
      (h c main_arg9).trans (frame_ops _ (r := main_arg9) (by decide) (by decide) (by decide) (by decide)),
      (h c main_arg10).trans (frame_ops _ (r := main_arg10) (by decide) (by decide) (by decide) (by decide)),
      (h c main_arg11).trans (frame_ops _ (r := main_arg11) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
/-
  The certificate of a three-layer graph-convolution scorer: on 150,000 nodes with 64 features each, every layer takes
  the sparse product `agg = A · feats` (gather the neighbour rows, scale by the edge values, scatter-add into the target
  rows) and computes `leaky ((agg + feats) · W1 + b1 + ((agg ∘ feats) · W2 + b2))`; the four feature arrays are
  concatenated, 4096 user rows and 4096 item rows are picked, projected to 64 features, multiplied and summed.

  The kernel program computes each dense layer in a kernel region over fifteen blocks of 10,000 rows (the sparse
  product, the slicing of the stacked weights and the closing score are host operations, the same on both sides); the
  reference computes each layer by two whole 150,000 × 64 by 64 × 64 products. On the extended reals the two are one
  function: a block's entry `(p, q)` at point `t` and the whole product's entry `(10000 t + p, q)` are the same two sums
  over 64 terms plus the same bias entries, and the kernel's rectifier `z > 0 ? z : s·z` and the reference's
  `z ≥ 0 ? z : s·z` differ only at `z = 0`, where `s · 0 = 0`. No finiteness of the inputs is used.

  The three frames are the programs' runs read at the argument arrays; the idealization rewrote nothing, so `preserves`
  is trivial; `algebraic` states both runs' results as the same term of the twelve arguments.
-/
import proofs.«157423_j85882166051091_1_alg».proof.Defs
import proofs.«157423_j85882166051091_1_alg».proof.Proof.Gen.Kernel
import proofs.«157423_j85882166051091_1_alg».proof.Proof.Gen.KernelIdeal
import proofs.«157423_j85882166051091_1_alg».proof.Proof.Gen.ReferenceIdeal
import proofs.«157423_j85882166051091_1_alg».proof.Proof.Gen.Pre_finite_inputs
import proofs.«157423_j85882166051091_1_alg».proof.Proof.KRun
import proofs.«157423_j85882166051091_1_alg».proof.Proof.KIFinal
import proofs.«157423_j85882166051091_1_alg».proof.Proof.RefRun

noncomputable section

namespace Cert.Proof

open Idealize.ShloMosaic Idealize.SL.Sem

/-- The kernel program as printed runs to the end, faults nowhere and leaves its arguments as launched. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the twelve arguments both programs end with the same result: the reference's term of
    the arguments. -/
theorem algebraic : Cert.algebraic_KernelIdeal_ReferenceIdeal := by
  intro m ρ m' ρ' _ hagree
  refine ⟨fun c => Cert.ReferenceIdeal.RefSpec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Fr.value_run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
